-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x28 : Shape := ⟨2, ![100000, 28]⟩
abbrev S2x320000 : Shape := ⟨2, ![2, 320000]⟩
abbrev S100000 : Shape := ⟨1, ![100000]⟩
abbrev S256x28 : Shape := ⟨2, ![256, 28]⟩
abbrev S256 : Shape := ⟨1, ![256]⟩
abbrev S256x256 : Shape := ⟨2, ![256, 256]⟩
abbrev S256x1024 : Shape := ⟨2, ![256, 1024]⟩
abbrev S1x256 : Shape := ⟨2, ![1, 256]⟩
abbrev S1 : Shape := ⟨1, ![1]⟩
abbrev S_ : Shape := ⟨0, ![]⟩

class Facts : Prop where
  bcast_S_S100000x28 : S_.BroadcastsInDim S100000x28 (![] : Fin 0 → Fin S100000x28.rank)
  reducesTo_S100000x28_S_d0_1 : S100000x28.ReducesTo [0, 1] S_
  h_S_ : 0 < S_.numel
  bcast_S_S256x28 : S_.BroadcastsInDim S256x28 (![] : Fin 0 → Fin S256x28.rank)
  reducesTo_S256x28_S_d0_1 : S256x28.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1024 : S_.BroadcastsInDim S256x1024 (![] : Fin 0 → Fin S256x1024.rank)
  reducesTo_S256x1024_S_d0_1 : S256x1024.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg20 : FVec F S256 .f32) (main_arg21 : FVec F S1x256 .f32) (main_arg22 : FVec F S1 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg20
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S1x256 .f32 := Host.absf main_arg21
  let main_cst_36 : FVec F S_ .f32 := constant S_ .f32 0x7F800000#32
  let main_v95 : FVec F S1x256 .f32 := broadcastInDim S1x256 ![] bcast_S_S1x256 main_cst_36
  let main_v96 : IVec S1x256 1 := cmpf .olt main_v94 main_v95
  let main_c_37 : IVec S_ 1 := constantI S_ 1 1#1
  let main_v97 : IVec S_ 1 := (fun x v => Host.reduce IntOp.andi x v reducesTo_S1x256_S_d0_1 h_S_) main_v96 main_c_37
  let main_v98 : IVec S_ 1 := andi main_v93 main_v97
  let main_v99 : FVec F S1 .f32 := Host.absf main_arg22
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg16 : FVec F S256 .f32) (main_arg17 : FVec F S256x256 .f32) (main_arg18 : FVec F S256 .f32) (main_arg19 : FVec F S256x256 .f32) (main_arg20 : FVec F S256 .f32) (main_arg21 : FVec F S1x256 .f32) (main_arg22 : FVec F S1 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg17
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x256 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S256 .f32) (main_arg14 : FVec F S256x256 .f32) (main_arg15 : FVec F S256x1024 .f32) (main_arg16 : FVec F S256 .f32) (main_arg17 : FVec F S256x256 .f32) (main_arg18 : FVec F S256 .f32) (main_arg19 : FVec F S256x256 .f32) (main_arg20 : FVec F S256 .f32) (main_arg21 : FVec F S1x256 .f32) (main_arg22 : FVec F S1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg14
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256x1024 .f32 := Host.absf main_arg15
  let main_cst_24 : FVec F S_ .f32 := constant S_ .f32 0x7F800000#32
  let main_v65 : FVec F S256x1024 .f32 := broadcastInDim S256x1024 ![] bcast_S_S256x1024 main_cst_24
  let main_v66 : IVec S256x1024 1 := cmpf .olt main_v64 main_v65
  let main_c_25 : IVec S_ 1 := constantI S_ 1 1#1
  let main_v67 : IVec S_ 1 := (fun x v => Host.reduce IntOp.andi x v reducesTo_S256x1024_S_d0_1 h_S_) main_v66 main_c_25
  fn_part4 (F := F) main_arg16 main_arg17 main_arg18 main_arg19 main_arg20 main_arg21 main_arg22 main_v63 main_v67

def fn_part2 {F : FTy → Type} [FloatOps F] (main_arg9 : FVec F S256x256 .f32) (main_arg10 : FVec F S256 .f32) (main_arg11 : FVec F S256x256 .f32) (main_arg12 : FVec F S256x256 .f32) (main_arg13 : FVec F S256 .f32) (main_arg14 : FVec F S256x256 .f32) (main_arg15 : FVec F S256x1024 .f32) (main_arg16 : FVec F S256 .f32) (main_arg17 : FVec F S256x256 .f32) (main_arg18 : FVec F S256 .f32) (main_arg19 : FVec F S256x256 .f32) (main_arg20 : FVec F S256 .f32) (main_arg21 : FVec F S1x256 .f32) (main_arg22 : FVec F S1 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S256x256 .f32) (main_arg7 : FVec F S256 .f32) (main_arg8 : FVec F S256x256 .f32) (main_arg9 : FVec F S256x256 .f32) (main_arg10 : FVec F S256 .f32) (main_arg11 : FVec F S256x256 .f32) (main_arg12 : FVec F S256x256 .f32) (main_arg13 : FVec F S256 .f32) (main_arg14 : FVec F S256x256 .f32) (main_arg15 : FVec F S256x1024 .f32) (main_arg16 : FVec F S256 .f32) (main_arg17 : FVec F S256x256 .f32) (main_arg18 : FVec F S256 .f32) (main_arg19 : FVec F S256x256 .f32) (main_arg20 : FVec F S256 .f32) (main_arg21 : FVec F S1x256 .f32) (main_arg22 : FVec F S1 .f32) (main_v13 : IVec S_ 1) (main_v16 : IVec S256x28 1) : IVec S_ 1 :=
  let main_c_5 : IVec S_ 1 := constantI S_ 1 1#1
  let main_v17 : IVec S_ 1 := (fun x v => Host.reduce IntOp.andi x v reducesTo_S256x28_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x28 .f32) (main_arg1 : IVec S2x320000 32) (main_arg2 : IVec S100000 32) (main_arg3 : FVec F S256x28 .f32) (main_arg4 : FVec F S256 .f32) (main_arg5 : FVec F S256x28 .f32) (main_arg6 : FVec F S256x256 .f32) (main_arg7 : FVec F S256 .f32) (main_arg8 : FVec F S256x256 .f32) (main_arg9 : FVec F S256x256 .f32) (main_arg10 : FVec F S256 .f32) (main_arg11 : FVec F S256x256 .f32) (main_arg12 : FVec F S256x256 .f32) (main_arg13 : FVec F S256 .f32) (main_arg14 : FVec F S256x256 .f32) (main_arg15 : FVec F S256x1024 .f32) (main_arg16 : FVec F S256 .f32) (main_arg17 : FVec F S256x256 .f32) (main_arg18 : FVec F S256 .f32) (main_arg19 : FVec F S256x256 .f32) (main_arg20 : FVec F S256 .f32) (main_arg21 : FVec F S1x256 .f32) (main_arg22 : FVec F S1 .f32) : IVec S_ 1 :=
  let main_v0 : FVec F S100000x28 .f32 := Host.absf main_arg0
  let main_cst : FVec F S_ .f32 := constant S_ .f32 0x7F800000#32
  let main_v1 : FVec F S100000x28 .f32 := broadcastInDim S100000x28 ![] bcast_S_S100000x28 main_cst
  let main_v2 : IVec S100000x28 1 := cmpf .olt main_v0 main_v1
  let main_c : IVec S_ 1 := constantI S_ 1 1#1
  let main_v3 : IVec S_ 1 := (fun x v => Host.reduce IntOp.andi x v reducesTo_S100000x28_S_d0_1 h_S_) main_v2 main_c
  let main_v4 : FVec F S256x28 .f32 := Host.absf main_arg3
  let main_cst_0 : FVec F S_ .f32 := constant S_ .f32 0x7F800000#32
  let main_v5 : FVec F S256x28 .f32 := broadcastInDim S256x28 ![] bcast_S_S256x28 main_cst_0
  let main_v6 : IVec S256x28 1 := cmpf .olt main_v4 main_v5
  let main_c_1 : IVec S_ 1 := constantI S_ 1 1#1
  let main_v7 : IVec S_ 1 := (fun x v => Host.reduce IntOp.andi x v reducesTo_S256x28_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x28 .f32 := Host.absf main_arg5
  let main_cst_4 : FVec F S_ .f32 := constant S_ .f32 0x7F800000#32
  let main_v15 : FVec F S256x28 .f32 := broadcastInDim S256x28 ![] bcast_S_S256x28 main_cst_4
  let main_v16 : IVec S256x28 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x28 : Shape := ⟨2, ![100000, 28]⟩
abbrev S2x320000 : Shape := ⟨2, ![2, 320000]⟩
abbrev S100000 : Shape := ⟨1, ![100000]⟩
abbrev S256x28 : Shape := ⟨2, ![256, 28]⟩
abbrev S256 : Shape := ⟨1, ![256]⟩
abbrev S256x256 : Shape := ⟨2, ![256, 256]⟩
abbrev S256x1024 : Shape := ⟨2, ![256, 1024]⟩
abbrev S1x256 : Shape := ⟨2, ![1, 256]⟩
abbrev S1 : Shape := ⟨1, ![1]⟩
abbrev S1x320000 : Shape := ⟨2, ![1, 320000]⟩
abbrev S320000 : Shape := ⟨1, ![320000]⟩
abbrev S28x256 : Shape := ⟨2, ![28, 256]⟩
abbrev S_ : Shape := ⟨0, ![]⟩
abbrev S320000x1 : Shape := ⟨2, ![320000, 1]⟩
abbrev S320000x28 : Shape := ⟨2, ![320000, 28]⟩
abbrev S100000x256 : Shape := ⟨2, ![100000, 256]⟩
abbrev S5000x28 : Shape := ⟨2, ![5000, 28]⟩
abbrev S5000x256 : Shape := ⟨2, ![5000, 256]⟩
abbrev S320000x256 : Shape := ⟨2, ![320000, 256]⟩
abbrev S4096x256 : Shape := ⟨2, ![4096, 256]⟩
abbrev S100000x1 : Shape := ⟨2, ![100000, 1]⟩
abbrev S4096 : Shape := ⟨1, ![4096]⟩
abbrev S4096x1024 : Shape := ⟨2, ![4096, 1024]⟩
abbrev S4096x1 : Shape := ⟨2, ![4096, 1]⟩
abbrev S1024x256 : Shape := ⟨2, ![1024, 256]⟩
abbrev S256x1 : Shape := ⟨2, ![256, 1]⟩
abbrev S256x128 : Shape := ⟨2, ![256, 128]⟩
abbrev S1x128 : Shape := ⟨2, ![1, 128]⟩
abbrev S1x1 : Shape := ⟨2, ![1, 1]⟩
abbrev S4096x128 : Shape := ⟨2, ![4096, 128]⟩

abbrev nBuf : Space → Nat
  | .hbm => 145
  | .vmem => 46
  | .smem => 0
  | _ => 0

abbrev hbmTy0_0 (i : Nat) : BufTy := match i % 128 with
  | 0 => ⟨S100000x28, .f32⟩
  | 1 => ⟨S2x320000, .i32⟩
  | 2 => ⟨S100000, .i32⟩
  | 3 => ⟨S256x28, .f32⟩
  | 4 => ⟨S256, .f32⟩
  | 5 => ⟨S256x28, .f32⟩
  | 6 => ⟨S256x256, .f32⟩
  | 7 => ⟨S256, .f32⟩
  | 8 => ⟨S256x256, .f32⟩
  | 9 => ⟨S256x256, .f32⟩
  | 10 => ⟨S256, .f32⟩
  | 11 => ⟨S256x256, .f32⟩
  | 12 => ⟨S256x256, .f32⟩
  | 13 => ⟨S256, .f32⟩
  | 14 => ⟨S256x256, .f32⟩
  | 15 => ⟨S256x1024, .f32⟩
  | 16 => ⟨S256, .f32⟩
  | 17 => ⟨S256x256, .f32⟩
  | 18 => ⟨S256, .f32⟩
  | 19 => ⟨S256x256, .f32⟩
  | 20 => ⟨S256, .f32⟩
  | 21 => ⟨S1x256, .f32⟩
  | 22 => ⟨S1, .f32⟩
  | 23 => ⟨S1x320000, .i32⟩
  | 24 => ⟨S320000, .i32⟩
  | 25 => ⟨S1x320000, .i32⟩
  | 26 => ⟨S320000, .i32⟩
  | 27 => ⟨S28x256, .f32⟩
  | 28 => ⟨S28x256, .f32⟩
  | 29 => ⟨S256x256, .f32⟩
  | 30 => ⟨S256x256, .f32⟩
  | 31 => ⟨S256x256, .f32⟩
  | 32 => ⟨S256x256, .f32⟩
  | 33 => ⟨S256x256, .f32⟩
  | 34 => ⟨S256x256, .f32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S320000x28, .f32⟩
  | 44 => ⟨S_, .f32⟩
  | 45 => ⟨S100000x28, .f32⟩
  | 46 => ⟨S320000x1, .i32⟩
  | 47 => ⟨S100000x28, .f32⟩
  | 48 => ⟨S1x256, .f32⟩
  | 49 => ⟨S100000x256, .f32⟩
  | 50 => ⟨S_, .i32⟩
  | 51 => ⟨S320000, .i32⟩
  | 52 => ⟨S320000, .i1⟩
  | 53 => ⟨S_, .i32⟩
  | 54 => ⟨S320000, .i32⟩
  | 55 => ⟨S320000, .i32⟩
  | 56 => ⟨S320000, .i32⟩
  | 57 => ⟨S320000x1, .i32⟩
  | 58 => ⟨S320000x256, .f32⟩
  | 59 => ⟨S_, .f32⟩
  | 60 => ⟨S100000x256, .f32⟩
  | 61 => ⟨S320000x1, .i32⟩
  | 62 => ⟨S100000x256, .f32⟩
  | 63 => ⟨S1x256, .f32⟩
  | 64 => ⟨S100000x256, .f32⟩
  | 65 => ⟨S_, .i32⟩
  | 66 => ⟨S320000, .i32⟩
  | 67 => ⟨S320000, .i1⟩
  | 68 => ⟨S_, .i32⟩
  | 69 => ⟨S320000, .i32⟩
  | 70 => ⟨S320000, .i32⟩
  | 71 => ⟨S320000, .i32⟩
  | 72 => ⟨S320000x1, .i32⟩
  | 73 => ⟨S320000x256, .f32⟩
  | 74 => ⟨S_, .f32⟩
  | 75 => ⟨S100000x256, .f32⟩
  | 76 => ⟨S320000x1, .i32⟩
  | 77 => ⟨S100000x256, .f32⟩
  | 78 => ⟨S1x256, .f32⟩
  | 79 => ⟨S100000x256, .f32⟩
  | 80 => ⟨S_, .i32⟩
  | 81 => ⟨S320000, .i32⟩
  | 82 => ⟨S320000, .i1⟩
  | 83 => ⟨S_, .i32⟩
  | 84 => ⟨S320000, .i32⟩
  | 85 => ⟨S320000, .i32⟩
  | 86 => ⟨S320000, .i32⟩
  | 87 => ⟨S320000x1, .i32⟩
  | 88 => ⟨S320000x256, .f32⟩
  | 89 => ⟨S_, .f32⟩
  | 90 => ⟨S100000x256, .f32⟩
  | 91 => ⟨S320000x1, .i32⟩
  | 92 => ⟨S100000x256, .f32⟩
  | 93 => ⟨S1x256, .f32⟩
  | 94 => ⟨S100000x256, .f32⟩
  | 95 => ⟨S_, .f32⟩
  | 96 => ⟨S4096x256, .f32⟩
  | 97 => ⟨S100000x1, .i32⟩
  | 98 => ⟨S4096x256, .f32⟩
  | 99 => ⟨S_, .f32⟩
  | 100 => ⟨S4096x256, .f32⟩
  | 101 => ⟨S100000x1, .i32⟩
  | 102 => ⟨S4096x256, .f32⟩
  | 103 => ⟨S_, .f32⟩
  | 104 => ⟨S4096x256, .f32⟩
  | 105 => ⟨S100000x1, .i32⟩
  | 106 => ⟨S4096x256, .f32⟩
  | 107 => ⟨S_, .f32⟩
  | 108 => ⟨S4096x256, .f32⟩
  | 109 => ⟨S100000x1, .i32⟩
  | 110 => ⟨S4096x256, .f32⟩
  | 111 => ⟨S_, .f32⟩
  | 112 => ⟨S100000, .f32⟩
  | 113 => ⟨S_, .f32⟩
  | 114 => ⟨S4096, .f32⟩
  | 115 => ⟨S100000x1, .i32⟩
  | 116 => ⟨S4096, .f32⟩
  | 117 => ⟨S4096x1024, .f32⟩
  | 118 => ⟨S_, .f32⟩
  | 119 => ⟨S4096, .f32⟩
  | 120 => ⟨S4096, .f32⟩
  | 121 => ⟨S4096x1, .f32⟩
  | 122 => ⟨S4096x1024, .f32⟩
  | 123 => ⟨S4096x1024, .f32⟩
  | 124 => ⟨S1024x256, .f32⟩
  | 125 => ⟨S256x256, .f32⟩
  | 126 => ⟨S256x256, .f32⟩
  | 127 => ⟨S1x256, .f32⟩
  | _ => ⟨S100000x28, .f32⟩

abbrev hbmTy0_1 (i : Nat) : BufTy := match i % 128 with
  | 0 => ⟨S1x256, .f32⟩
  | 1 => ⟨S1x256, .f32⟩
  | 2 => ⟨S256x1, .f32⟩
  | 3 => ⟨S_, .f32⟩
  | 4 => ⟨S256x128, .f32⟩
  | 5 => ⟨S_, .i32⟩
  | 6 => ⟨S1, .i32⟩
  | 7 => ⟨S256x128, .f32⟩
  | 8 => ⟨S_, .f32⟩
  | 9 => ⟨S1x128, .f32⟩
  | 10 => ⟨S1x1, .f32⟩
  | 11 => ⟨S_, .i32⟩
  | 12 => ⟨S1, .i32⟩
  | 13 => ⟨S1x128, .f32⟩
  | 14 => ⟨S4096x128, .f32⟩
  | 15 => ⟨S4096x1, .f32⟩
  | 16 => ⟨S4096, .f32⟩
  | _ => ⟨S100000x28, .f32⟩

abbrev hbmTy (i : Nat) : BufTy := match i / 128 with
  | 0 => hbmTy0_0 i
  | 1 => hbmTy0_1 i
  | _ => ⟨S100000x28, .f32⟩

abbrev bufTy : (tb : Table) → Fin (tcTables nBuf tb) → BufTy
  | .hbm, ⟨i, _⟩ => hbmTy i
  | .local _ .vmem, ⟨0, _⟩ => ⟨S5000x28, .f32⟩
  | .local _ .vmem, ⟨1, _⟩ => ⟨S5000x28, .f32⟩
  | .local _ .vmem, ⟨2, _⟩ => ⟨S5000x28, .f32⟩
  | .local _ .vmem, ⟨3, _⟩ => ⟨S5000x28, .f32⟩
  | .local _ .vmem, ⟨4, _⟩ => ⟨S28x256, .f32⟩
  | .local _ .vmem, ⟨5, _⟩ => ⟨S1x256, .f32⟩
  | .local _ .vmem, ⟨6, _⟩ => ⟨S28x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S256x256, .f32⟩
  | .local _ .vmem, ⟨23, _⟩ => ⟨S1x256, .f32⟩
  | .local _ .vmem, ⟨24, _⟩ => ⟨S256x256, .f32⟩
  | .local _ .vmem, ⟨25, _⟩ => ⟨S5000x256, .f32⟩
  | .local _ .vmem, ⟨26, _⟩ => ⟨S5000x256, .f32⟩
  | .local _ .vmem, ⟨27, _⟩ => ⟨S5000x256, .f32⟩
  | .local _ .vmem, ⟨28, _⟩ => ⟨S5000x256, .f32⟩
  | .local _ .vmem, ⟨29, _⟩ => ⟨S5000x256, .f32⟩
  | .local _ .vmem, ⟨30, _⟩ => ⟨S5000x256, .f32⟩
  | .local _ .vmem, ⟨31, _⟩ => ⟨S256x256, .f32⟩
  | .local _ .vmem, ⟨32, _⟩ => ⟨S1x256, .f32⟩
  | .local _ .vmem, ⟨33, _⟩ => ⟨S256x256, .f32⟩
  | .local _ .vmem, ⟨34, _⟩ => ⟨S5000x256, .f32⟩
  | .local _ .vmem, ⟨35, _⟩ => ⟨S5000x256, .f32⟩
  | .local _ .vmem, ⟨36, _⟩ => ⟨S4096x1024, .f32⟩
  | .local _ .vmem, ⟨37, _⟩ => ⟨S1024x256, .f32⟩
  | .local _ .vmem, ⟨38, _⟩ => ⟨S1x256, .f32⟩
  | .local _ .vmem, ⟨39, _⟩ => ⟨S256x256, .f32⟩
  | .local _ .vmem, ⟨40, _⟩ => ⟨S1x256, .f32⟩
  | .local _ .vmem, ⟨41, _⟩ => ⟨S256x256, .f32⟩
  | .local _ .vmem, ⟨42, _⟩ => ⟨S1x256, .f32⟩
  | .local _ .vmem, ⟨43, _⟩ => ⟨S256x128, .f32⟩
  | .local _ .vmem, ⟨44, _⟩ => ⟨S1x128, .f32⟩
  | .local _ .vmem, ⟨45, _⟩ => ⟨S4096x128, .f32⟩
  | _, _ => ⟨S100000x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_1 : Ref sig .tc := ⟨.hbm, 50, rfl⟩
abbrev main_v24 : Ref sig .tc := ⟨.hbm, 51, rfl⟩
abbrev main_v25 : Ref sig .tc := ⟨.hbm, 52, rfl⟩
abbrev main_c_2 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_3 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_4 : Ref sig .tc := ⟨.hbm, 65, rfl⟩
abbrev main_v36 : Ref sig .tc := ⟨.hbm, 66, rfl⟩
abbrev main_v37 : Ref sig .tc := ⟨.hbm, 67, rfl⟩
abbrev main_c_5 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_6 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_7 : Ref sig .tc := ⟨.hbm, 80, rfl⟩
abbrev main_v48 : Ref sig .tc := ⟨.hbm, 81, rfl⟩
abbrev main_v49 : Ref sig .tc := ⟨.hbm, 82, rfl⟩
abbrev main_c_8 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_9 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_10 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_11 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_12 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_13 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_14 : Ref sig .tc := ⟨.hbm, 111, rfl⟩
abbrev main_v72 : Ref sig .tc := ⟨.hbm, 112, rfl⟩
abbrev main_cst_15 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_16 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_17 : Ref sig .tc := ⟨.hbm, 131, rfl⟩
abbrev main_v89 : Ref sig .tc := ⟨.hbm, 132, rfl⟩
abbrev main_c_18 : Ref sig .tc := ⟨.hbm, 133, rfl⟩
abbrev main_v90 : Ref sig .tc := ⟨.hbm, 134, rfl⟩
abbrev main_v91 : Ref sig .tc := ⟨.hbm, 135, rfl⟩
abbrev main_cst_19 : Ref sig .tc := ⟨.hbm, 136, rfl⟩
abbrev main_v92 : Ref sig .tc := ⟨.hbm, 137, rfl⟩
abbrev main_v93 : Ref sig .tc := ⟨.hbm, 138, rfl⟩
abbrev main_c_20 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg7_0 : Ref sig .tc := ⟨.vmem, 43, rfl⟩
abbrev cc4_stg8_0 : Ref sig .tc := ⟨.vmem, 44, rfl⟩
abbrev cc4_stg9_0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem1_0 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem6_0 : DmaSem sig := 42
abbrev cc4_sem7_0 : DmaSem sig := 43
abbrev cc4_sem8_0 : DmaSem sig := 44
abbrev cc4_sem9_0 : DmaSem sig := 45

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x28 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S28x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S28x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S4096x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S1024x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S4096x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  transposes_S256x28_S28x256_1_0 : S256x28.Transposes [1, 0] S28x256
  transposes_S256x256_S256x256_1_0 : S256x256.Transposes [1, 0] S256x256
  bcast_S_S320000 : S_.BroadcastsInDim S320000 (![] : Fin 0 → Fin S320000.rank)
  bcast_S320000_S320000x1_0 : S320000.BroadcastsInDim S320000x1 (![0] : Fin 1 → Fin S320000x1.rank)
  bcast_S_S100000x28 : S_.BroadcastsInDim S100000x28 (![] : Fin 0 → Fin S100000x28.rank)
  shapeCasts_S256_S1x256 : S256.ShapeCasts S1x256
  inb_S5000x28_S5000x28_0_0 : ∀ a, (![0, 0] : Fin 2 → Nat) a + S5000x28.size a ≤ S5000x28.size a
  h_S5000x28 : 0 < S5000x28.numel
  shapeCasts_S5000x28_S5000x28 : S5000x28.ShapeCasts S5000x28
  inb_S28x256_S28x256_0_0 : ∀ a, (![0, 0] : Fin 2 → Nat) a + S28x256.size a ≤ S28x256.size a
  h_S28x256 : 0 < S28x256.numel
  shapeCasts_S28x256_S28x256 : S28x256.ShapeCasts S28x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S100000x256 : S_.BroadcastsInDim S100000x256 (![] : Fin 0 → Fin S100000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S4096x256 : S_.BroadcastsInDim S4096x256 (![] : Fin 0 → Fin S4096x256.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S4096 : S_.BroadcastsInDim S4096 (![] : Fin 0 → Fin S4096.rank)
  concatenates_S4096x256_S4096x256_S4096x256_S4096x256_S4096x1024_d1 : Shape.Concatenates [S4096x256, S4096x256, S4096x256, S4096x256] S4096x1024 1
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  transposes_S256x1024_S1024x256_1_0 : S256x1024.Transposes [1, 0] S1024x256
  transposes_S1x256_S256x1_1_0 : S1x256.Transposes [1, 0] S256x1
  bcast_S_S256x128 : S_.BroadcastsInDim S256x128 (![] : Fin 0 → Fin S256x128.rank)
  bcast_S_S1 : S_.BroadcastsInDim S1 (![] : Fin 0 → Fin S1.rank)
  bcast_S_S1x128 : S_.BroadcastsInDim S1x128 (![] : Fin 0 → Fin S1x128.rank)
  shapeCasts_S1_S1x1 : S1.ShapeCasts S1x1
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  broadcasts_S1x256_S4096x256 : S1x256.Broadcasts S4096x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  slices_S4096x128_S4096x1_0_0 : S4096x128.Slices ![0, 0] S4096x1
  shapeCasts_S4096x1_S4096 : S4096x1.ShapeCasts S4096
  gather_S100000x28_S320000x1_S320000x28_1_0_n_n_0_1_128_wf : GatherDims.WF S100000x28 S320000x1 S320000x28 [1] [0] [] [0] [] 1 ![1, 28]
  scatter_S100000x28_S320000x1_S320000x28_1_0_0_1_wf : ScatterDims.WF S100000x28 S320000x1 S320000x28 [1] [0] [0] 1
  dot_S5000x28_S28x256_S5000x256_1_0_0_1_n_n_wf : DotDims.WF S5000x28 S28x256 S5000x256 [1] [0] [0] [1] [] []
  gather_S100000x256_S320000x1_S320000x256_1_0_n_n_0_1_1256_wf : GatherDims.WF S100000x256 S320000x1 S320000x256 [1] [0] [] [0] [] 1 ![1, 256]
  scatter_S100000x256_S320000x1_S320000x256_1_0_0_1_wf : ScatterDims.WF S100000x256 S320000x1 S320000x256 [1] [0] [0] 1
  dot_S5000x256_S256x256_S5000x256_1_0_0_1_n_n_wf : DotDims.WF S5000x256 S256x256 S5000x256 [1] [0] [0] [1] [] []
  scatter_S4096x256_S100000x1_S100000x256_1_0_0_1_wf : ScatterDims.WF S4096x256 S100000x1 S100000x256 [1] [0] [0] 1
  scatter_S4096_S100000x1_S100000_n_0_0_1_wf : ScatterDims.WF S4096 S100000x1 S100000 [] [0] [0] 1
  scatter_S256x128_S1_S256x1_01_n_1_0_wf : ScatterDims.WF S256x128 S1 S256x1 [0, 1] [] [1] 0
  scatter_S1x128_S1_S1x1_01_n_1_0_wf : ScatterDims.WF S1x128 S1 S1x1 [0, 1] [] [1] 0
  dot_S4096x1024_S1024x256_S4096x256_1_0_0_1_n_n_wf : DotDims.WF S4096x1024 S1024x256 S4096x256 [1] [0] [0] [1] [] []
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x28.size a ≤ S100000x28.size a
  hwx0_0 : ∀ i : grid0.Coords, EltTy.bits .f32 = 32 ∨ (Rect.block (s := S100000x28) S5000x28.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x28.size a ≤ S100000x28.size a
  hwx0_1 : ∀ i : grid0.Coords, EltTy.bits .f32 = 32 ∨ (Rect.block (s := S100000x28) S5000x28.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S28x256.size a ≤ S28x256.size a
  hwx0_2 : ∀ i : grid0.Coords, EltTy.bits .f32 = 32 ∨ (Rect.block (s := S28x256) S28x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S28x256.size a ≤ S28x256.size a
  hwx0_4 : ∀ i : grid0.Coords, EltTy.bits .f32 = 32 ∨ (Rect.block (s := S28x256) S28x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S100000x256.size a
  hwx0_5 : ∀ i : grid0.Coords, EltTy.bits .f32 = 32 ∨ (Rect.block (s := S100000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S100000x256.size a
  hwx1_1 : ∀ i : grid1.Coords, EltTy.bits .f32 = 32 ∨ (Rect.block (s := S100000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S100000x256.size a
  hwx1_5 : ∀ i : grid1.Coords, EltTy.bits .f32 = 32 ∨ (Rect.block (s := S100000x256) S5000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S100000x256.size a
  hwx2_1 : ∀ i : grid2.Coords, EltTy.bits .f32 = 32 ∨ (Rect.block (s := S100000x256) S5000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x256.size a ≤ S100000x256.size a
  hwx2_5 : ∀ i : grid2.Coords, EltTy.bits .f32 = 32 ∨ (Rect.block (s := S100000x256) S5000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S100000x256.size a
  hwx3_0 : ∀ i : grid3.Coords, EltTy.bits .f32 = 32 ∨ (Rect.block (s := S100000x256) S5000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x256.size a ≤ S100000x256.size a
  hwx3_1 : ∀ i : grid3.Coords, EltTy.bits .f32 = 32 ∨ (Rect.block (s := S100000x256) S5000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x256.size a ≤ S100000x256.size a
  hwx3_5 : ∀ i : grid3.Coords, EltTy.bits .f32 = 32 ∨ (Rect.block (s := S100000x256) S5000x256.size (cc3_transform_5 i) (hinb3_5 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S4096x1024.size a ≤ S4096x1024.size a
  hwx4_0 : ∀ i : grid4.Coords, EltTy.bits .f32 = 32 ∨ (Rect.block (s := S4096x1024) S4096x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x256.size a ≤ S1024x256.size a
  hwx4_1 : ∀ i : grid4.Coords, EltTy.bits .f32 = 32 ∨ (Rect.block (s := S1024x256) S1024x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .f32 = 32 ∨ (Rect.block (s := S256x256) S256x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x128.size a ≤ S256x128.size a
  hwx4_7 : ∀ i : grid4.Coords, EltTy.bits .f32 = 32 ∨ (Rect.block (s := S256x128) S256x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 false = 1
  hreads4_9 : ∀ i i' : grid4.Coords, (∀ a, reads4_9 a = true → i a = i' a) → cc4_transform_9 i = cc4_transform_9 i'
  hinb4_9 : ∀ (i : grid4.Coords) a, (cc4_transform_9 i a + 1) * S4096x128.size a ≤ S4096x128.size a
  hwx4_9 : ∀ i : grid4.Coords, EltTy.bits .f32 = 32 ∨ (Rect.block (s := S4096x128) S4096x128.size (cc4_transform_9 i) (hinb4_9 i)).WholeWords (EltTy.packing .f32)

variable [Facts₀]

def gather_S100000x28_S320000x1_S320000x28_1_0_n_n_0_1_128 : GatherDims S100000x28 S320000x1 S320000x28 where
  offsetDims := [1]
  collapsedSliceDims := [0]
  operandBatchingDims := []
  startIndicesBatchingDims := []
  startIndexMap := [0]
  indexVectorDim := 1
  sliceSizes := ![1, 28]
  wf := gather_S100000x28_S320000x1_S320000x28_1_0_n_n_0_1_128_wf
def scatter_S100000x28_S320000x1_S320000x28_1_0_0_1 : ScatterDims S100000x28 S320000x1 S320000x28 where
  updateWindowDims := [1]
  insertedWindowDims := [0]
  scatterDimsToOperandDims := [0]
  indexVectorDim := 1
  wf := scatter_S100000x28_S320000x1_S320000x28_1_0_0_1_wf
def dot_S5000x28_S28x256_S5000x256_1_0_0_1_n_n : DotDims S5000x28 S28x256 S5000x256 where
  lhsContracting := [1]
  rhsContracting := [0]
  lhsNonContracting := [0]
  rhsNonContracting := [1]
  lhsBatch := []
  rhsBatch := []
  wf := dot_S5000x28_S28x256_S5000x256_1_0_0_1_n_n_wf
def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def scatter_S100000x256_S320000x1_S320000x256_1_0_0_1 : ScatterDims S100000x256 S320000x1 S320000x256 where
  updateWindowDims := [1]
  insertedWindowDims := [0]
  scatterDimsToOperandDims := [0]
  indexVectorDim := 1
  wf := scatter_S100000x256_S320000x1_S320000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S4096x256_S100000x1_S100000x256_1_0_0_1 : ScatterDims S4096x256 S100000x1 S100000x256 where
  updateWindowDims := [1]
  insertedWindowDims := [0]
  scatterDimsToOperandDims := [0]
  indexVectorDim := 1
  wf := scatter_S4096x256_S100000x1_S100000x256_1_0_0_1_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def scatter_S256x128_S1_S256x1_01_n_1_0 : ScatterDims S256x128 S1 S256x1 where
  updateWindowDims := [0, 1]
  insertedWindowDims := []
  scatterDimsToOperandDims := [1]
  indexVectorDim := 0
  wf := scatter_S256x128_S1_S256x1_01_n_1_0_wf
def scatter_S1x128_S1_S1x1_01_n_1_0 : ScatterDims S1x128 S1 S1x1 where
  updateWindowDims := [0, 1]
  insertedWindowDims := []
  scatterDimsToOperandDims := [1]
  indexVectorDim := 0
  wf := scatter_S1x128_S1_S1x1_01_n_1_0_wf
def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_v21) S5000x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x28.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S28x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S28x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S5000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v57) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S5000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v11) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S5000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v81) S4096x1024.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v82) S1024x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v85) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v83) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v86) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v84) S256x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v87) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v91) S256x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v95) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v96) S4096x128.size cc4_transform_9 reads4_9 true false 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

class Facts : Prop extends Facts₀ where

variable [Facts]
-- ==== ReferenceIdeal.lean ====
abbrev S100000x28 : Shape := ⟨2, ![100000, 28]⟩
abbrev S2x320000 : Shape := ⟨2, ![2, 320000]⟩
abbrev S100000 : Shape := ⟨1, ![100000]⟩
abbrev S256x28 : Shape := ⟨2, ![256, 28]⟩
abbrev S256 : Shape := ⟨1, ![256]⟩
abbrev S256x256 : Shape := ⟨2, ![256, 256]⟩
abbrev S256x1024 : Shape := ⟨2, ![256, 1024]⟩
abbrev S1x256 : Shape := ⟨2, ![1, 256]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x28 : Shape := ⟨2, ![320000, 28]⟩
abbrev S28x256 : Shape := ⟨2, ![28, 256]⟩
abbrev S100000x256 : Shape := ⟨2, ![100000, 256]⟩
abbrev S320000x256 : Shape := ⟨2, ![320000, 256]⟩
abbrev S100000x1024 : Shape := ⟨2, ![100000, 1024]⟩
abbrev S4096x1024 : Shape := ⟨2, ![4096, 1024]⟩
abbrev S100000x1 : Shape := ⟨2, ![100000, 1]⟩
abbrev S4096 : Shape := ⟨1, ![4096]⟩
abbrev S4096x1 : Shape := ⟨2, ![4096, 1]⟩
abbrev S1024x256 : Shape := ⟨2, ![1024, 256]⟩
abbrev S4096x256 : Shape := ⟨2, ![4096, 256]⟩
abbrev S256x1 : Shape := ⟨2, ![256, 1]⟩
abbrev S1x1 : Shape := ⟨2, ![1, 1]⟩

abbrev nBuf : Space → Nat
  | .hbm => 170
  | .vmem => 0
  | .smem => 0
  | _ => 0

abbrev hbmTy0_0 (i : Nat) : BufTy := match i % 128 with
  | 0 => ⟨S100000x28, .f32⟩
  | 1 => ⟨S2x320000, .i32⟩
  | 2 => ⟨S100000, .i32⟩
  | 3 => ⟨S256x28, .f32⟩
  | 4 => ⟨S256, .f32⟩
  | 5 => ⟨S256x28, .f32⟩
  | 6 => ⟨S256x256, .f32⟩
  | 7 => ⟨S256, .f32⟩
  | 8 => ⟨S256x256, .f32⟩
  | 9 => ⟨S256x256, .f32⟩
  | 10 => ⟨S256, .f32⟩
  | 11 => ⟨S256x256, .f32⟩
  | 12 => ⟨S256x256, .f32⟩
  | 13 => ⟨S256, .f32⟩
  | 14 => ⟨S256x256, .f32⟩
  | 15 => ⟨S256x1024, .f32⟩
  | 16 => ⟨S256, .f32⟩
  | 17 => ⟨S256x256, .f32⟩
  | 18 => ⟨S256, .f32⟩
  | 19 => ⟨S256x256, .f32⟩
  | 20 => ⟨S256, .f32⟩
  | 21 => ⟨S1x256, .f32⟩
  | 22 => ⟨S1, .f32⟩
  | 23 => ⟨S1x320000, .i32⟩
  | 24 => ⟨S320000, .i32⟩
  | 25 => ⟨S1x320000, .i32⟩
  | 26 => ⟨S320000, .i32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S320000x28, .f32⟩
  | 36 => ⟨S_, .f32⟩
  | 37 => ⟨S100000x28, .f32⟩
  | 38 => ⟨S320000x1, .i32⟩
  | 39 => ⟨S100000x28, .f32⟩
  | 40 => ⟨S28x256, .f32⟩
  | 41 => ⟨S100000x256, .f32⟩
  | 42 => ⟨S1x256, .f32⟩
  | 43 => ⟨S100000x256, .f32⟩
  | 44 => ⟨S100000x256, .f32⟩
  | 45 => ⟨S28x256, .f32⟩
  | 46 => ⟨S100000x256, .f32⟩
  | 47 => ⟨S100000x256, .f32⟩
  | 48 => ⟨S_, .f32⟩
  | 49 => ⟨S100000x256, .f32⟩
  | 50 => ⟨S100000x256, .f32⟩
  | 51 => ⟨S_, .i32⟩
  | 52 => ⟨S320000, .i32⟩
  | 53 => ⟨S320000, .i1⟩
  | 54 => ⟨S_, .i32⟩
  | 55 => ⟨S320000, .i32⟩
  | 56 => ⟨S320000, .i32⟩
  | 57 => ⟨S320000, .i32⟩
  | 58 => ⟨S320000x1, .i32⟩
  | 59 => ⟨S320000x256, .f32⟩
  | 60 => ⟨S_, .f32⟩
  | 61 => ⟨S100000x256, .f32⟩
  | 62 => ⟨S320000x1, .i32⟩
  | 63 => ⟨S100000x256, .f32⟩
  | 64 => ⟨S256x256, .f32⟩
  | 65 => ⟨S100000x256, .f32⟩
  | 66 => ⟨S1x256, .f32⟩
  | 67 => ⟨S100000x256, .f32⟩
  | 68 => ⟨S100000x256, .f32⟩
  | 69 => ⟨S256x256, .f32⟩
  | 70 => ⟨S100000x256, .f32⟩
  | 71 => ⟨S100000x256, .f32⟩
  | 72 => ⟨S_, .f32⟩
  | 73 => ⟨S100000x256, .f32⟩
  | 74 => ⟨S100000x256, .f32⟩
  | 75 => ⟨S_, .i32⟩
  | 76 => ⟨S320000, .i32⟩
  | 77 => ⟨S320000, .i1⟩
  | 78 => ⟨S_, .i32⟩
  | 79 => ⟨S320000, .i32⟩
  | 80 => ⟨S320000, .i32⟩
  | 81 => ⟨S320000, .i32⟩
  | 82 => ⟨S320000x1, .i32⟩
  | 83 => ⟨S320000x256, .f32⟩
  | 84 => ⟨S_, .f32⟩
  | 85 => ⟨S100000x256, .f32⟩
  | 86 => ⟨S320000x1, .i32⟩
  | 87 => ⟨S100000x256, .f32⟩
  | 88 => ⟨S256x256, .f32⟩
  | 89 => ⟨S100000x256, .f32⟩
  | 90 => ⟨S1x256, .f32⟩
  | 91 => ⟨S100000x256, .f32⟩
  | 92 => ⟨S100000x256, .f32⟩
  | 93 => ⟨S256x256, .f32⟩
  | 94 => ⟨S100000x256, .f32⟩
  | 95 => ⟨S100000x256, .f32⟩
  | 96 => ⟨S_, .f32⟩
  | 97 => ⟨S100000x256, .f32⟩
  | 98 => ⟨S100000x256, .f32⟩
  | 99 => ⟨S_, .i32⟩
  | 100 => ⟨S320000, .i32⟩
  | 101 => ⟨S320000, .i1⟩
  | 102 => ⟨S_, .i32⟩
  | 103 => ⟨S320000, .i32⟩
  | 104 => ⟨S320000, .i32⟩
  | 105 => ⟨S320000, .i32⟩
  | 106 => ⟨S320000x1, .i32⟩
  | 107 => ⟨S320000x256, .f32⟩
  | 108 => ⟨S_, .f32⟩
  | 109 => ⟨S100000x256, .f32⟩
  | 110 => ⟨S320000x1, .i32⟩
  | 111 => ⟨S100000x256, .f32⟩
  | 112 => ⟨S256x256, .f32⟩
  | 113 => ⟨S100000x256, .f32⟩
  | 114 => ⟨S1x256, .f32⟩
  | 115 => ⟨S100000x256, .f32⟩
  | 116 => ⟨S100000x256, .f32⟩
  | 117 => ⟨S256x256, .f32⟩
  | 118 => ⟨S100000x256, .f32⟩
  | 119 => ⟨S100000x256, .f32⟩
  | 120 => ⟨S_, .f32⟩
  | 121 => ⟨S100000x256, .f32⟩
  | 122 => ⟨S100000x256, .f32⟩
  | 123 => ⟨S100000x1024, .f32⟩
  | 124 => ⟨S_, .f32⟩
  | 125 => ⟨S4096x1024, .f32⟩
  | 126 => ⟨S100000x1, .i32⟩
  | 127 => ⟨S4096x1024, .f32⟩
  | _ => ⟨S100000x28, .f32⟩

abbrev hbmTy0_1 (i : Nat) : BufTy := match i % 128 with
  | 0 => ⟨S_, .f32⟩
  | 1 => ⟨S100000, .f32⟩
  | 2 => ⟨S_, .f32⟩
  | 3 => ⟨S4096, .f32⟩
  | 4 => ⟨S100000x1, .i32⟩
  | 5 => ⟨S4096, .f32⟩
  | 6 => ⟨S_, .f32⟩
  | 7 => ⟨S4096, .f32⟩
  | 8 => ⟨S4096, .f32⟩
  | 9 => ⟨S4096x1, .f32⟩
  | 10 => ⟨S4096x1024, .f32⟩
  | 11 => ⟨S4096x1024, .f32⟩
  | 12 => ⟨S1024x256, .f32⟩
  | 13 => ⟨S4096x256, .f32⟩
  | 14 => ⟨S1x256, .f32⟩
  | 15 => ⟨S4096x256, .f32⟩
  | 16 => ⟨S4096x256, .f32⟩
  | 17 => ⟨S_, .f32⟩
  | 18 => ⟨S4096x256, .f32⟩
  | 19 => ⟨S4096x256, .f32⟩
  | 20 => ⟨S256x256, .f32⟩
  | 21 => ⟨S4096x256, .f32⟩
  | 22 => ⟨S1x256, .f32⟩
  | 23 => ⟨S4096x256, .f32⟩
  | 24 => ⟨S4096x256, .f32⟩
  | 25 => ⟨S_, .f32⟩
  | 26 => ⟨S4096x256, .f32⟩
  | 27 => ⟨S4096x256, .f32⟩
  | 28 => ⟨S256x256, .f32⟩
  | 29 => ⟨S4096x256, .f32⟩
  | 30 => ⟨S1x256, .f32⟩
  | 31 => ⟨S4096x256, .f32⟩
  | 32 => ⟨S4096x256, .f32⟩
  | 33 => ⟨S_, .f32⟩
  | 34 => ⟨S4096x256, .f32⟩
  | 35 => ⟨S4096x256, .f32⟩
  | 36 => ⟨S256x1, .f32⟩
  | 37 => ⟨S4096x1, .f32⟩
  | 38 => ⟨S1x1, .f32⟩
  | 39 => ⟨S4096x1, .f32⟩
  | 40 => ⟨S4096x1, .f32⟩
  | 41 => ⟨S4096, .f32⟩
  | _ => ⟨S100000x28, .f32⟩

abbrev hbmTy (i : Nat) : BufTy := match i / 128 with
  | 0 => hbmTy0_0 i
  | 1 => hbmTy0_1 i
  | _ => ⟨S100000x28, .f32⟩

abbrev bufTy : (tb : Table) → Fin (tcTables nBuf tb) → BufTy
  | .hbm, ⟨i, _⟩ => hbmTy i
  | _, _ => ⟨S100000x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_call0_cst : Ref sig .tc := ⟨.hbm, 48, rfl⟩
abbrev main_call0_v0 : Ref sig .tc := ⟨.hbm, 49, rfl⟩
abbrev main_v22 : Ref sig .tc := ⟨.hbm, 50, rfl⟩
abbrev main_c_1 : Ref sig .tc := ⟨.hbm, 51, rfl⟩
abbrev main_v23 : Ref sig .tc := ⟨.hbm, 52, rfl⟩
abbrev main_v24 : Ref sig .tc := ⟨.hbm, 53, rfl⟩
abbrev main_c_2 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_3 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_call1_cst : Ref sig .tc := ⟨.hbm, 72, rfl⟩
abbrev main_call1_v0 : Ref sig .tc := ⟨.hbm, 73, rfl⟩
abbrev main_v41 : Ref sig .tc := ⟨.hbm, 74, rfl⟩
abbrev main_c_4 : Ref sig .tc := ⟨.hbm, 75, rfl⟩
abbrev main_v42 : Ref sig .tc := ⟨.hbm, 76, rfl⟩
abbrev main_v43 : Ref sig .tc := ⟨.hbm, 77, rfl⟩
abbrev main_c_5 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_6 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_call2_cst : Ref sig .tc := ⟨.hbm, 96, rfl⟩
abbrev main_call2_v0 : Ref sig .tc := ⟨.hbm, 97, rfl⟩
abbrev main_v60 : Ref sig .tc := ⟨.hbm, 98, rfl⟩
abbrev main_c_7 : Ref sig .tc := ⟨.hbm, 99, rfl⟩
abbrev main_v61 : Ref sig .tc := ⟨.hbm, 100, rfl⟩
abbrev main_v62 : Ref sig .tc := ⟨.hbm, 101, rfl⟩
abbrev main_c_8 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_9 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_call3_cst : Ref sig .tc := ⟨.hbm, 120, rfl⟩
abbrev main_call3_v0 : Ref sig .tc := ⟨.hbm, 121, rfl⟩
abbrev main_v79 : Ref sig .tc := ⟨.hbm, 122, rfl⟩
abbrev main_v80 : Ref sig .tc := ⟨.hbm, 123, rfl⟩
abbrev main_cst_10 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_cst_11 : Ref sig .tc := ⟨.hbm, 128, rfl⟩
abbrev main_v84 : Ref sig .tc := ⟨.hbm, 129, rfl⟩
abbrev main_cst_12 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_13 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_call4_cst : Ref sig .tc := ⟨.hbm, 145, rfl⟩
abbrev main_call4_v0 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_call5_cst : Ref sig .tc := ⟨.hbm, 153, rfl⟩
abbrev main_call5_v0 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_call6_cst : Ref sig .tc := ⟨.hbm, 161, rfl⟩
abbrev main_call6_v0 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S100000x28 : S_.BroadcastsInDim S100000x28 (![] : Fin 0 → Fin S100000x28.rank)
  transposes_S256x28_S28x256_1_0 : S256x28.Transposes [1, 0] S28x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  transposes_S256x256_S256x256_1_0 : S256x256.Transposes [1, 0] S256x256
  concatenates_S100000x256_S100000x256_S100000x256_S100000x256_S100000x1024_d1 : Shape.Concatenates [S100000x256, S100000x256, S100000x256, S100000x256] S100000x1024 1
  bcast_S_S4096x1024 : S_.BroadcastsInDim S4096x1024 (![] : Fin 0 → Fin S4096x1024.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  transposes_S256x1024_S1024x256_1_0 : S256x1024.Transposes [1, 0] S1024x256
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  transposes_S1x256_S256x1_1_0 : S1x256.Transposes [1, 0] S256x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  shapeCasts_S4096x1_S4096 : S4096x1.ShapeCasts S4096
  gather_S100000x28_S320000x1_S320000x28_1_0_n_n_0_1_128_wf : GatherDims.WF S100000x28 S320000x1 S320000x28 [1] [0] [] [0] [] 1 ![1, 28]
  scatter_S100000x28_S320000x1_S320000x28_1_0_0_1_wf : ScatterDims.WF S100000x28 S320000x1 S320000x28 [1] [0] [0] 1
  dot_S100000x28_S28x256_S100000x256_1_0_0_1_n_n_wf : DotDims.WF S100000x28 S28x256 S100000x256 [1] [0] [0] [1] [] []
  gather_S100000x256_S320000x1_S320000x256_1_0_n_n_0_1_1256_wf : GatherDims.WF S100000x256 S320000x1 S320000x256 [1] [0] [] [0] [] 1 ![1, 256]
  scatter_S100000x256_S320000x1_S320000x256_1_0_0_1_wf : ScatterDims.WF S100000x256 S320000x1 S320000x256 [1] [0] [0] 1
  dot_S100000x256_S256x256_S100000x256_1_0_0_1_n_n_wf : DotDims.WF S100000x256 S256x256 S100000x256 [1] [0] [0] [1] [] []
  scatter_S4096x1024_S100000x1_S100000x1024_1_0_0_1_wf : ScatterDims.WF S4096x1024 S100000x1 S100000x1024 [1] [0] [0] 1
  scatter_S4096_S100000x1_S100000_n_0_0_1_wf : ScatterDims.WF S4096 S100000x1 S100000 [] [0] [0] 1
  dot_S4096x1024_S1024x256_S4096x256_1_0_0_1_n_n_wf : DotDims.WF S4096x1024 S1024x256 S4096x256 [1] [0] [0] [1] [] []
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []

variable [Facts₀]

def gather_S100000x28_S320000x1_S320000x28_1_0_n_n_0_1_128 : GatherDims S100000x28 S320000x1 S320000x28 where
  offsetDims := [1]
  collapsedSliceDims := [0]
  operandBatchingDims := []
  startIndicesBatchingDims := []
  startIndexMap := [0]
  indexVectorDim := 1
  sliceSizes := ![1, 28]
  wf := gather_S100000x28_S320000x1_S320000x28_1_0_n_n_0_1_128_wf
def scatter_S100000x28_S320000x1_S320000x28_1_0_0_1 : ScatterDims S100000x28 S320000x1 S320000x28 where
  updateWindowDims := [1]
  insertedWindowDims := [0]
  scatterDimsToOperandDims := [0]
  indexVectorDim := 1
  wf := scatter_S100000x28_S320000x1_S320000x28_1_0_0_1_wf
def dot_S100000x28_S28x256_S100000x256_1_0_0_1_n_n : DotDims S100000x28 S28x256 S100000x256 where
  lhsContracting := [1]
  rhsContracting := [0]
  lhsNonContracting := [0]
  rhsNonContracting := [1]
  lhsBatch := []
  rhsBatch := []
  wf := dot_S100000x28_S28x256_S100000x256_1_0_0_1_n_n_wf
def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def scatter_S100000x256_S320000x1_S320000x256_1_0_0_1 : ScatterDims S100000x256 S320000x1 S320000x256 where
  updateWindowDims := [1]
  insertedWindowDims := [0]
  scatterDimsToOperandDims := [0]
  indexVectorDim := 1
  wf := scatter_S100000x256_S320000x1_S320000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S4096x1024_S100000x1_S100000x1024_1_0_0_1 : ScatterDims S4096x1024 S100000x1 S100000x1024 where
  updateWindowDims := [1]
  insertedWindowDims := [0]
  scatterDimsToOperandDims := [0]
  indexVectorDim := 1
  wf := scatter_S4096x1024_S100000x1_S100000x1024_1_0_0_1_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

class Facts : Prop extends Facts₀ where

variable [Facts]
-- ==== Proof.BRegion0.lean ====
import proofs.«129706_j63471026700727_2_alg».proof.Proof.Gen.Kernel.Launch
import proofs.«129706_j63471026700727_2_alg».proof.Proof.Gen.Kernel.Skeleton
import proofs.«129706_j63471026700727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The first graph-convolution region of the program, at a parameter `V` (the TensorCore's buffer
    contents when the region is entered): every window's block at a grid point, what the body leaves in
    the output window's buffer as a function of the five input blocks, the body's triple, the pipeline's
    proof data and the body obligation at every point.  Generic in the float instance. -/

-- membership in a rectangle with a 5000-long axis: the structural check recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the aggregated neighbour features, one 5000-row block per point): its current staging
    buffer holds its block at every point, for any proof data whose array is `V`'s and whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the node features, one 5000-row block per point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the neighbour weight matrix, whole, its block index constant over the grid: fetched at the
    first point only, and found in place at every later one because the index never moves). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the bias row, whole, constant index). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (the root weight matrix, whole, constant index). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's buffer is read, and the output's written, whole -/

abbrev r0_0 : Rect S5000x28 := Rect.unit (s := S5000x28) ![0, 0] S5000x28.size inb_S5000x28_S5000x28_0_0
abbrev r0_1 : Rect S5000x28 := Rect.unit (s := S5000x28) ![0, 0] S5000x28.size inb_S5000x28_S5000x28_0_0
abbrev r0_2 : Rect S28x256 := Rect.unit (s := S28x256) ![0, 0] S28x256.size inb_S28x256_S28x256_0_0
abbrev r0_3 : Rect S1x256 := Rect.unit (s := S1x256) ![0, 0] S1x256.size inb_S1x256_S1x256_0_0
abbrev r0_4 : Rect S28x256 := Rect.unit (s := S28x256) ![0, 0] S28x256.size inb_S28x256_S28x256_0_0
abbrev r0_5 : Rect S5000x256 := Rect.unit (s := S5000x256) ![0, 0] S5000x256.size inb_S5000x256_S5000x256_0_0

/-! ## What the body leaves in the output window's buffer -/

/-- Window 5's staging buffer after the body, from the five input windows' blocks `x0 … x4` (window order): its one
    store, of max((x0·x2 + x1·x4) + x3, 0) — the stored value takes the neighbour product's operands, then the root
    weight (window 4), then the bias (window 3). -/
def out0_5 (x0 : Vec F S5000x28 .f32) (x1 : Vec F S5000x28 .f32) (x2 : Vec F S28x256 .f32) (x3 : Vec F S1x256 .f32) (x4 : Vec F S28x256 .f32) :
    Vec F S5000x256 .f32 :=
  View.canon [⟨r0_5, k0_pay1 (View.ld x0 r0_0) (View.ld x1 r0_1) (View.ld x2 r0_2) (View.ld x4 r0_4) (View.ld x3 r0_3)⟩]

/-- The one store tiles the buffer, so it covers it. -/
theorem cover0_5 (p0 : Vec F S5000x256 .f32) (y : S5000x256.Idx) :
    ∃ pc ∈ ([⟨r0_5, p0⟩] : List (View.Piece (Elt F) S5000x256 .f32)), y ∈ pc.1.set :=
  View.cover_of_tiled [⟨r0_5, p0⟩] S5000x256.size (by rfl) y

/-! ## The body's triple -/

set_option maxHeartbeats 1000000 in
/-- The kernel body on whole staging memrefs, the five inputs' at read contents `x0 … x4` and the output's at
    anything, runs to the continuation holding the inputs' as they were and the output's at `out0_5` of them.  The
    body also reads the output buffer once before storing to it; the value read is not used. -/
theorem sound_kernel0 (c : Dev nD) (E : Set ℕ) (i : grid0.Coords)
    (arg1 : Memref sig .tc .vmem S5000x28 .f32) (harg1 : arg1.IsWhole) (arg2 : Memref sig .tc .vmem S5000x28 .f32) (harg2 : arg2.IsWhole)
    (arg3 : Memref sig .tc .vmem S28x256 .f32) (harg3 : arg3.IsWhole) (arg4 : Memref sig .tc .vmem S1x256 .f32) (harg4 : arg4.IsWhole)
    (arg5 : Memref sig .tc .vmem S28x256 .f32) (harg5 : arg5.IsWhole) (arg6 : Memref sig .tc .vmem S5000x256 .f32) (harg6 : arg6.IsWhole)
    (x0 : Vec F S5000x28 .f32) (x1 : Vec F S5000x28 .f32) (x2 : Vec F S28x256 .f32) (x3 : Vec F S1x256 .f32) (x4 : Vec F S28x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of this pipeline on core `c`: the arrays as the region finds them (`V`); after the body at point
    `t` each input's buffer at its block and the output's at `out0_5` of the five input blocks; the invariant that
    leaves the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_w`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Fr
-- ==== Proof.BRegion1.lean ====
import proofs.«129706_j63471026700727_2_alg».proof.Proof.Gen.Kernel.Launch
import proofs.«129706_j63471026700727_2_alg».proof.Proof.Gen.Kernel.Skeleton
import proofs.«129706_j63471026700727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The second graph-convolution region of the program, at a parameter `V` (the TensorCore's buffer
    contents when the region is entered): every window's block at a grid point, what the body leaves in
    the output window's buffer as a function of the five input blocks, the body's triple, the pipeline's
    proof data and the body obligation at every point.  Generic in the float instance. -/

-- membership in a rectangle with a 5000-long axis: the structural check recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the aggregated neighbour features, one 5000-row block per point): its current staging
    buffer holds its block at every point, for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the node features, one 5000-row block per point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the neighbour weight matrix, whole, its block index constant over the grid: fetched at the
    first point only, and found in place at every later one because the index never moves). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the bias row, whole, constant index). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the root weight matrix, whole, constant index). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each window's buffer is read, and the output's written, whole -/

abbrev r1_0 : Rect S5000x256 := Rect.unit (s := S5000x256) ![0, 0] S5000x256.size inb_S5000x256_S5000x256_0_0
abbrev r1_1 : Rect S5000x256 := Rect.unit (s := S5000x256) ![0, 0] S5000x256.size inb_S5000x256_S5000x256_0_0
abbrev r1_2 : Rect S256x256 := Rect.unit (s := S256x256) ![0, 0] S256x256.size inb_S256x256_S256x256_0_0
abbrev r1_3 : Rect S1x256 := Rect.unit (s := S1x256) ![0, 0] S1x256.size inb_S1x256_S1x256_0_0
abbrev r1_4 : Rect S256x256 := Rect.unit (s := S256x256) ![0, 0] S256x256.size inb_S256x256_S256x256_0_0
abbrev r1_5 : Rect S5000x256 := Rect.unit (s := S5000x256) ![0, 0] S5000x256.size inb_S5000x256_S5000x256_0_0

/-! ## What the body leaves in the output window's buffer -/

/-- Window 5's staging buffer after the body, from the five input windows' blocks `x0 … x4` (window order): its one
    store, of max((x0·x2 + x1·x4) + x3, 0) — the stored value takes the neighbour product's operands, then the root
    weight (window 4), then the bias (window 3). -/
def out1_5 (x0 : Vec F S5000x256 .f32) (x1 : Vec F S5000x256 .f32) (x2 : Vec F S256x256 .f32) (x3 : Vec F S1x256 .f32) (x4 : Vec F S256x256 .f32) :
    Vec F S5000x256 .f32 :=
  View.canon [⟨r1_5, k1_pay1 (View.ld x0 r1_0) (View.ld x1 r1_1) (View.ld x2 r1_2) (View.ld x4 r1_4) (View.ld x3 r1_3)⟩]

/-- The one store tiles the buffer, so it covers it. -/
theorem cover1_5 (p0 : Vec F S5000x256 .f32) (y : S5000x256.Idx) :
    ∃ pc ∈ ([⟨r1_5, p0⟩] : List (View.Piece (Elt F) S5000x256 .f32)), y ∈ pc.1.set :=
  View.cover_of_tiled [⟨r1_5, p0⟩] S5000x256.size (by rfl) y

/-! ## The body's triple -/

set_option maxHeartbeats 1000000 in
/-- The kernel body on whole staging memrefs, the five inputs' at read contents `x0 … x4` and the output's at
    anything, runs to the continuation holding the inputs' as they were and the output's at `out1_5` of them.  The
    body also reads the output buffer once before storing to it; the value read is not used. -/
theorem sound_kernel1 (c : Dev nD) (E : Set ℕ) (i : grid1.Coords)
    (arg1 : Memref sig .tc .vmem S5000x256 .f32) (harg1 : arg1.IsWhole) (arg2 : Memref sig .tc .vmem S5000x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S5000x256 .f32) (harg6 : arg6.IsWhole)
    (x0 : Vec F S5000x256 .f32) (x1 : Vec F S5000x256 .f32) (x2 : Vec F S256x256 .f32) (x3 : Vec F S1x256 .f32) (x4 : Vec F S256x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them (`V`); after the body at point
    `t` each input's buffer at its block and the output's at `out1_5` of the five input blocks; the invariant that
    leaves the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_w`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Fr
-- ==== Proof.BRegion2.lean ====
import proofs.«129706_j63471026700727_2_alg».proof.Proof.Gen.Kernel.Launch
import proofs.«129706_j63471026700727_2_alg».proof.Proof.Gen.Kernel.Skeleton
import proofs.«129706_j63471026700727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The third graph-convolution region of the program, at a parameter `V` (the TensorCore's buffer
    contents when the region is entered): every window's block at a grid point, what the body leaves in
    the output window's buffer as a function of the five input blocks, the body's triple, the pipeline's
    proof data and the body obligation at every point.  Generic in the float instance. -/

-- membership in a rectangle with a 5000-long axis: the structural check recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the aggregated neighbour features, one 5000-row block per point): its current staging
    buffer holds its block at every point, for any proof data whose array is `V`'s and whose body leaves the
    block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the node features, one 5000-row block per point). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the neighbour weight matrix, whole, its block index constant over the grid: fetched at the
    first point only, and found in place at every later one because the index never moves). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the bias row, whole, constant index). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (the root weight matrix, whole, constant index). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each window's buffer is read, and the output's written, whole -/

abbrev r2_0 : Rect S5000x256 := Rect.unit (s := S5000x256) ![0, 0] S5000x256.size inb_S5000x256_S5000x256_0_0
abbrev r2_1 : Rect S5000x256 := Rect.unit (s := S5000x256) ![0, 0] S5000x256.size inb_S5000x256_S5000x256_0_0
abbrev r2_2 : Rect S256x256 := Rect.unit (s := S256x256) ![0, 0] S256x256.size inb_S256x256_S256x256_0_0
abbrev r2_3 : Rect S1x256 := Rect.unit (s := S1x256) ![0, 0] S1x256.size inb_S1x256_S1x256_0_0
abbrev r2_4 : Rect S256x256 := Rect.unit (s := S256x256) ![0, 0] S256x256.size inb_S256x256_S256x256_0_0
abbrev r2_5 : Rect S5000x256 := Rect.unit (s := S5000x256) ![0, 0] S5000x256.size inb_S5000x256_S5000x256_0_0

/-! ## What the body leaves in the output window's buffer -/

/-- Window 5's staging buffer after the body, from the five input windows' blocks `x0 … x4` (window order): its one
    store, of max((x0·x2 + x1·x4) + x3, 0) — the stored value takes the neighbour product's operands, then the root
    weight (window 4), then the bias (window 3). -/
def out2_5 (x0 : Vec F S5000x256 .f32) (x1 : Vec F S5000x256 .f32) (x2 : Vec F S256x256 .f32) (x3 : Vec F S1x256 .f32) (x4 : Vec F S256x256 .f32) :
    Vec F S5000x256 .f32 :=
  View.canon [⟨r2_5, k2_pay1 (View.ld x0 r2_0) (View.ld x1 r2_1) (View.ld x2 r2_2) (View.ld x4 r2_4) (View.ld x3 r2_3)⟩]

/-- The one store tiles the buffer, so it covers it. -/
theorem cover2_5 (p0 : Vec F S5000x256 .f32) (y : S5000x256.Idx) :
    ∃ pc ∈ ([⟨r2_5, p0⟩] : List (View.Piece (Elt F) S5000x256 .f32)), y ∈ pc.1.set :=
  View.cover_of_tiled [⟨r2_5, p0⟩] S5000x256.size (by rfl) y

/-! ## The body's triple -/

set_option maxHeartbeats 1000000 in
/-- The kernel body on whole staging memrefs, the five inputs' at read contents `x0 … x4` and the output's at
    anything, runs to the continuation holding the inputs' as they were and the output's at `out2_5` of them.  The
    body also reads the output buffer once before storing to it; the value read is not used. -/
theorem sound_kernel2 (c : Dev nD) (E : Set ℕ) (i : grid2.Coords)
    (arg1 : Memref sig .tc .vmem S5000x256 .f32) (harg1 : arg1.IsWhole) (arg2 : Memref sig .tc .vmem S5000x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S5000x256 .f32) (harg6 : arg6.IsWhole)
    (x0 : Vec F S5000x256 .f32) (x1 : Vec F S5000x256 .f32) (x2 : Vec F S256x256 .f32) (x3 : Vec F S1x256 .f32) (x4 : Vec F S256x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2_kernel i arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of this pipeline on core `c`: the arrays as the region finds them (`V`); after the body at point
    `t` each input's buffer at its block and the output's at `out2_5` of the five input blocks; the invariant that
    leaves the scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_w`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Fr
-- ==== Proof.BRegion3.lean ====
import proofs.«129706_j63471026700727_2_alg».proof.Proof.Gen.Kernel.Launch
import proofs.«129706_j63471026700727_2_alg».proof.Proof.Gen.Kernel.Skeleton
import proofs.«129706_j63471026700727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The fourth graph-convolution region of the program, at a parameter `V` (the TensorCore's buffer
    contents when the region is entered): every window's block at a grid point, what the body leaves in
    the output window's buffer as a function of the five input blocks, the body's triple, the pipeline's
    proof data and the body obligation at every point.  Generic in the float instance. -/

-- membership in a rectangle with a 5000-long axis: the structural check recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the aggregated neighbour features, one 5000-row block per point): its current staging
    buffer holds its block at every point, for any proof data whose array is `V`'s and whose body leaves the
    block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the node features, one 5000-row block per point). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the neighbour weight matrix, whole, its block index constant over the grid: fetched at the
    first point only, and found in place at every later one because the index never moves). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3 (the bias row, whole, constant index). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4 (the root weight matrix, whole, constant index). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each window's buffer is read, and the output's written, whole -/

abbrev r3_0 : Rect S5000x256 := Rect.unit (s := S5000x256) ![0, 0] S5000x256.size inb_S5000x256_S5000x256_0_0
abbrev r3_1 : Rect S5000x256 := Rect.unit (s := S5000x256) ![0, 0] S5000x256.size inb_S5000x256_S5000x256_0_0
abbrev r3_2 : Rect S256x256 := Rect.unit (s := S256x256) ![0, 0] S256x256.size inb_S256x256_S256x256_0_0
abbrev r3_3 : Rect S1x256 := Rect.unit (s := S1x256) ![0, 0] S1x256.size inb_S1x256_S1x256_0_0
abbrev r3_4 : Rect S256x256 := Rect.unit (s := S256x256) ![0, 0] S256x256.size inb_S256x256_S256x256_0_0
abbrev r3_5 : Rect S5000x256 := Rect.unit (s := S5000x256) ![0, 0] S5000x256.size inb_S5000x256_S5000x256_0_0

/-! ## What the body leaves in the output window's buffer -/

/-- Window 5's staging buffer after the body, from the five input windows' blocks `x0 … x4` (window order): its one
    store, of max((x0·x2 + x1·x4) + x3, 0) — the stored value takes the neighbour product's operands, then the root
    weight (window 4), then the bias (window 3). -/
def out3_5 (x0 : Vec F S5000x256 .f32) (x1 : Vec F S5000x256 .f32) (x2 : Vec F S256x256 .f32) (x3 : Vec F S1x256 .f32) (x4 : Vec F S256x256 .f32) :
    Vec F S5000x256 .f32 :=
  View.canon [⟨r3_5, k3_pay1 (View.ld x0 r3_0) (View.ld x1 r3_1) (View.ld x2 r3_2) (View.ld x4 r3_4) (View.ld x3 r3_3)⟩]

/-- The one store tiles the buffer, so it covers it. -/
theorem cover3_5 (p0 : Vec F S5000x256 .f32) (y : S5000x256.Idx) :
    ∃ pc ∈ ([⟨r3_5, p0⟩] : List (View.Piece (Elt F) S5000x256 .f32)), y ∈ pc.1.set :=
  View.cover_of_tiled [⟨r3_5, p0⟩] S5000x256.size (by rfl) y

/-! ## The body's triple -/

set_option maxHeartbeats 1000000 in
/-- The kernel body on whole staging memrefs, the five inputs' at read contents `x0 … x4` and the output's at
    anything, runs to the continuation holding the inputs' as they were and the output's at `out3_5` of them.  The
    body also reads the output buffer once before storing to it; the value read is not used. -/
theorem sound_kernel3 (c : Dev nD) (E : Set ℕ) (i : grid3.Coords)
    (arg1 : Memref sig .tc .vmem S5000x256 .f32) (harg1 : arg1.IsWhole) (arg2 : Memref sig .tc .vmem S5000x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S5000x256 .f32) (harg6 : arg6.IsWhole)
    (x0 : Vec F S5000x256 .f32) (x1 : Vec F S5000x256 .f32) (x2 : Vec F S256x256 .f32) (x3 : Vec F S1x256 .f32) (x4 : Vec F S256x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3_kernel i arg1 harg1 arg2 harg2 arg3 harg3 arg4 harg4 arg5 harg5 arg6 harg6) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of this pipeline on core `c`: the arrays as the region finds them (`V`); after the body at point
    `t` each input's buffer at its block and the output's at `out3_5` of the five input blocks; the invariant that
    leaves the scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_w`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.Kernel.Fr
-- ==== Proof.BRegion4.lean ====
import proofs.«129706_j63471026700727_2_alg».proof.Proof.Gen.Kernel.Launch
import proofs.«129706_j63471026700727_2_alg».proof.Proof.Gen.Kernel.Skeleton
import proofs.«129706_j63471026700727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The MLP-head region (the fifth kernel region of the program): one grid point, nine input windows and one
    output window. At a parameter `V`, the buffer contents when the region is entered: each window's block, what
    the body leaves in the output window's buffer (one store of the whole block: the chain of four matrix products
    of the eight loaded operands plus the broadcast ninth), the body's triple, the proof data and the body obligation. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): the window is uncut and
    never idle. The same for every input window below. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each window's whole block -/

abbrev r4_0 : Rect S4096x1024 := Rect.unit (s := S4096x1024) ![0, 0] S4096x1024.size inb_S4096x1024_S4096x1024_0_0
abbrev r4_1 : Rect S1024x256 := Rect.unit (s := S1024x256) ![0, 0] S1024x256.size inb_S1024x256_S1024x256_0_0
abbrev r4_2 : Rect S1x256 := Rect.unit (s := S1x256) ![0, 0] S1x256.size inb_S1x256_S1x256_0_0
abbrev r4_3 : Rect S256x256 := Rect.unit (s := S256x256) ![0, 0] S256x256.size inb_S256x256_S256x256_0_0
abbrev r4_7 : Rect S256x128 := Rect.unit (s := S256x128) ![0, 0] S256x128.size inb_S256x128_S256x128_0_0
abbrev r4_8 : Rect S1x128 := Rect.unit (s := S1x128) ![0, 0] S1x128.size inb_S1x128_S1x128_0_0
abbrev r4_9 : Rect S4096x128 := Rect.unit (s := S4096x128) ![0, 0] S4096x128.size inb_S4096x128_S4096x128_0_0

/-! ## What the body leaves in the output window's buffer -/

/-- Window 9's staging buffer after the body, from the input windows' blocks: its one store, of the whole block. The
    value stored is the last matrix product of the chain (over the blocks of windows 0 to 7) plus the row of window 8
    broadcast down the rows. -/
def out4_9 (x0 : Vec F S4096x1024 .f32) (x1 : Vec F S1024x256 .f32) (x2 : Vec F S1x256 .f32) (x3 : Vec F S256x256 .f32)
    (x4 : Vec F S1x256 .f32) (x5 : Vec F S256x256 .f32) (x6 : Vec F S1x256 .f32) (x7 : Vec F S256x128 .f32)
    (x8 : Vec F S1x128 .f32) : Vec F S4096x128 .f32 :=
  View.canon [⟨r4_9, k4_pay1 (k4_pay2 (View.ld x0 r4_0) (View.ld x1 r4_1) (View.ld x2 r4_2) (View.ld x3 r4_3)
    (View.ld x4 r4_2) (View.ld x5 r4_3) (View.ld x6 r4_2) (View.ld x7 r4_7)) (k4_pay3 (View.ld x8 r4_8))⟩]

/-- The store is of the whole buffer (checked by evaluation), so it covers it. -/
theorem cover4_9 (p0 : Vec F S4096x128 .f32) (y : S4096x128.Idx) :
    ∃ pc ∈ ([⟨r4_9, p0⟩] : List (View.Piece (Elt F) S4096x128 .f32)), y ∈ pc.1.set :=
  View.cover_of_tiled [⟨r4_9, p0⟩] S4096x128.size (by rfl) y

/-! ## The body's triple -/

set_option maxHeartbeats 4000000 in
/-- The kernel body on whole staging memrefs, the inputs' at read contents `x0 … x8` and the output's at anything, runs
    to the continuation holding the inputs' as they were and the output's at `out4_9` of the inputs': the nine loads,
    a load of the output's buffer that nothing reads, and the one store. -/
theorem sound_kernel4 (c : Dev nD) (E : Set ℕ) (i : grid4.Coords)
    (arg1 : Memref sig .tc .vmem S4096x1024 .f32) (harg1 : arg1.IsWhole) (arg2 : Memref sig .tc .vmem S1024x256 .f32) (harg2 : arg2.IsWhole)
    (arg3 : Memref sig .tc .vmem S1x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S256x256 .f32) (harg6 : arg6.IsWhole)
    (arg7 : Memref sig .tc .vmem S1x256 .f32) (harg7 : arg7.IsWhole) (arg8 : Memref sig .tc .vmem S256x128 .f32) (harg8 : arg8.IsWhole)
    (arg9 : Memref sig .tc .vmem S1x128 .f32) (harg9 : arg9.IsWhole) (arg10 : Memref sig .tc .vmem S4096x128 .f32) (harg10 : arg10.IsWhole)
    (x0 : Vec F S4096x1024 .f32) (x1 : Vec F S1024x256 .f32) (x2 : Vec F S1x256 .f32) (x3 : Vec F S256x256 .f32)
    (x4 : Vec F S1x256 .f32) (x5 : Vec F S256x256 .f32) (x6 : Vec F S1x256 .f32) (x7 : Vec F S256x128 .f32)
    (x8 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ (∃ d, owns (c : Thread nD τ) arg10 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8
            ∗ owns (c : Thread nD τ) arg10 fullShare (out4_9 x0 x1 x2 x3 x4 x5 x6 x7 x8)) -∗ K ⟨⟩))
      ⊢ wp frame (wpE (defs₀ (F := F)) Variants.none c none) E
          (cc4_kernel i arg1 harg1 arg2 harg2 arg3 harg3 arg4 harg4 arg5 harg5 arg6 harg6 arg7 harg7 arg8 harg8 arg9 harg9 arg10 harg10) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover4_9 _)

/-! ## The pipeline's proof data -/

/-- The proof data of the region's pipeline on core `c`: the arrays as the region finds them (`V`); after the body at
    point `t` each input's buffer at its block and the output's at `out4_9` of the input blocks; the invariant the
    plain class's (the scoped rest and the generator register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t)
        (iblk4 V c 5 t) (iblk4 V c 6 t) (iblk4 V c 7 t) (iblk4 V c 8 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t =
    out4_9 (iblk4 V c 0 t) (iblk4 V c 1 t) (iblk4 V c 2 t) (iblk4 V c 3 t) (iblk4 V c 4 t)
      (iblk4 V c 5 t) (iblk4 V c 6 t) (iblk4 V c 7 t) (iblk4 V c 8 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

/-- The body at any point: the inputs' memrefs hold their blocks (`before4_w`), so `sound_kernel4` applies; the invariant
    and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ _ _ _ _ _ _ _ _ _ _ _ _ _ _ _ _ _ _ _ _ _
    (iblk4 V c 0 t) (iblk4 V c 1 t) (iblk4 V c 2 t) (iblk4 V c 3 t) (iblk4 V c 4 t)
    (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.BRun.lean ====
import proofs.«129706_j63471026700727_2_alg».proof.Proof.BRegion0
import proofs.«129706_j63471026700727_2_alg».proof.Proof.BRegion1
import proofs.«129706_j63471026700727_2_alg».proof.Proof.BRegion2
import proofs.«129706_j63471026700727_2_alg».proof.Proof.BRegion3
import proofs.«129706_j63471026700727_2_alg».proof.Proof.BRegion4
import proofs.«129706_j63471026700727_2_alg».proof.Proof.Gen.Kernel.Regions

/-! The run of the program's entry function from the launch to the return, as eleven segments: six stretches of host
    operations around five kernel regions. The buffer contents at every segment boundary are a fold from the launch
    memory (`W0 … W11`); every argument array is read back through the fold to its launch contents; the launch
    theorem then gives, for every weakly fair execution, termination without fault, the argument arrays as
    launched, and the result buffer at its contents in the last valuation `W11`. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the entry function -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the fourth host stretch (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the fifth host stretch (region 4's entry). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the last host stretch: the contents at the return. -/
abbrev W11 : Dev nD → Valuation τ sig (Elt F) := fun c => StableHlo.after hostOps5 (W10 m ρ c)

/-! ### A host stretch leaves every buffer it does not write -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h
theorem W11_of (c : Dev nD) (r : Ref sig .tc) (h : r ∉ hostOps5_W) : W11 m ρ c (Proc.devRef .tc r) = W10 m ρ c (Proc.devRef .tc r) :=
  StableHlo.after_of_writes_sub hostOps5 _ hostOps5_writes h

/-! ### The arguments end as launched: no host operation and no region writes one (a region reads it through an
    input window or bypasses it), so the fold at an argument's buffer walks back to the launch memory -/

/-- From the return back to region 0's exit, for a reference no later stretch writes and no later region holds as a
    window's array. -/
theorem W11_to_W2 (c : Dev nD) (r : Ref sig .tc) (h1 : r ∉ hostOps1_W) (a1 : ∀ w, Pipeline.arrRef spec1 w ≠ r)
    (h2 : r ∉ hostOps2_W) (a2 : ∀ w, Pipeline.arrRef spec2 w ≠ r) (h3 : r ∉ hostOps3_W) (a3 : ∀ w, Pipeline.arrRef spec3 w ≠ r)
    (h4 : r ∉ hostOps4_W) (a4 : ∀ w, Pipeline.arrRef spec4 w ≠ r) (h5 : r ∉ hostOps5_W) :
    W11 m ρ c (Proc.devRef .tc r) = W2 m ρ c (Proc.devRef .tc r) :=
  (W11_of m ρ c r h5).trans <| (W10_of_ne m ρ c r a4).trans <| (W9_of m ρ c r h4).trans <| (W8_of_ne m ρ c r a3).trans <|
    (W7_of m ρ c r h3).trans <| (W6_of_ne m ρ c r a2).trans <| (W5_of m ρ c r h2).trans <| (W4_of_ne m ρ c r a1).trans <|
    (W3_of m ρ c r h1)

/-- A reference no stretch writes and no region holds as a window's array ends at its launch contents. -/
theorem W11_untouched (c : Dev nD) (r : Ref sig .tc) (h0 : r ∉ hostOps0_W) (a0 : ∀ w, Pipeline.arrRef spec0 w ≠ r)
    (h1 : r ∉ hostOps1_W) (a1 : ∀ w, Pipeline.arrRef spec1 w ≠ r)
    (h2 : r ∉ hostOps2_W) (a2 : ∀ w, Pipeline.arrRef spec2 w ≠ r) (h3 : r ∉ hostOps3_W) (a3 : ∀ w, Pipeline.arrRef spec3 w ≠ r)
    (h4 : r ∉ hostOps4_W) (a4 : ∀ w, Pipeline.arrRef spec4 w ≠ r) (h5 : r ∉ hostOps5_W) :
    W11 m ρ c (Proc.devRef .tc r) = m ((c : Thread nD τ).loc r) :=
  (W11_to_W2 m ρ c r h1 a1 h2 a2 h3 a3 h4 a4 h5).trans <| (W2_of_ne m ρ c r a0).trans <| (W1_of m ρ c r h0).trans rfl

/-- The first argument is the array of region 0's input window 1: the region leaves an input's array as entered. -/
theorem W11_main_arg0 (c : Dev nD) : W11 m ρ c (Proc.devRef .tc main_arg0) = m ((c : Thread nD τ).loc main_arg0) :=
  calc W11 m ρ c (Proc.devRef .tc main_arg0)
    _ = W2 m ρ c (Proc.devRef .tc main_arg0) :=
          W11_to_W2 m ρ c main_arg0 (by decide) (by decide) (by decide) (by decide) (by decide) (by decide) (by decide) (by decide) (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := W1_of m ρ c main_arg0 (by decide)
    _ = m ((c : Thread nD τ).loc main_arg0) := rfl

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents, as a literal `match`. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W11`, the
    generator register at some state. -/
abbrev Tₙ (c : Dev nD) : sProp 𝕄 := iprop(StableHlo.held (c : Thread nD τ) (Pipeline.ucRefs τ sig) (W11 m ρ c) ∗ ∃ r, prngReg c r)

/-! ## The regions as segments

Each region over the thread state: entered from every unscoped buffer at the entry contents, left at the exit
contents (what the next host stretch is entered from). Its arrays split out of the unscoped buffers and put back at
the exit contents; the generator register into the class invariant and out; nothing owed; no semaphore of the
kernel's own. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

/-- The entry function's 11 segments in order: a host segment per stretch from its boundary's contents, a region per
    kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]
/-- The entry function is the run of the segments. -/
theorem main_run (c : Dev nD) : main (F := F) c = Pipeline.Seg.run (segs m ρ) := (main_chain c).trans (by chain_rfl)

/-- What the launch theorem reads off the last thread state: every unscoped buffer at the last valuation. -/
abbrev QY : Dev nD → MemSt nD τ sig (Elt F) → Prop :=
  fun c s => ∀ b ∈ Pipeline.ucRefs τ sig, s.mem (((c : Thread nD τ)).1, b) = W11 m ρ c b

set_option backward.isDefEq.respectTransparency.types false in
/-- The run at any post that follows from every unscoped buffer ending at the last valuation `W11`: at the compiled
    mesh, from any memory with zero counters, every weakly fair execution of the entry function on the TensorCores
    terminates, nothing faulting, and every final state satisfies the post. -/
theorem run_of {Q : PUnit × MemSt nD τ sig (Elt F) → Prop}
    (hQ : ∀ s : MemSt nD τ sig (Elt F), (∀ c : Dev nD, QY m ρ c s) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c =>
        show iprop(StableHlo.held (c : Thread nD τ) (Pipeline.ucRefs τ sig) (W11 m ρ c) ∗ R c)
            ⊢ iprop(Tₙ m ρ c ∗ ∃ W, owes (c : Thread nD τ) (0 : CellTallies nD τ sig Unit) W) from by
          iintro ⟨Hh, Hp, HO⟩
          isplitl [Hh Hp]
          · isplitl [Hh]; · iexact Hh
            iexact Hp
          iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := QY m ρ)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := hQ)

/-- THE RUN, with the result: every final state has the result buffer at its contents in the last valuation and the
    argument arrays as launched. -/
theorem run_value : θ_run defs (onTc (τ := τ) (main (F := F))) ⟨m, fun _ => 0, ρ⟩ (fun r => ∀ c : Dev nD,
      r.2.mem ((c.tc : Thread nD τ).loc main_v98) = W11 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  run_of m ρ fun s h c =>
    ⟨h c _ (mem_uc main_v98 (by decide)),
     (h c _ (mem_uc main_arg0 (by decide))).trans (W11_main_arg0 m ρ c),
     (h c _ (mem_uc main_arg1 (by decide))).trans (W11_untouched m ρ c main_arg1 (by decide) (by decide) (by decide) (by decide) (by decide) (by decide) (by decide) (by decide) (by decide) (by decide) (by decide)),
     (h c _ (mem_uc main_arg2 (by decide))).trans (W11_untouched m ρ c main_arg2 (by decide) (by decide) (by decide) (by decide) (by decide) (by decide) (by decide) (by decide) (by decide) (by decide) (by decide)),
     (h c _ (mem_uc main_arg3 (by decide))).trans (W11_untouched m ρ c main_arg3 (by decide) (by decide) (by decide) (by decide) (by decide) (by decide) (by decide) (by decide) (by decide) (by decide) (by decide)),
     (h c _ (mem_uc main_arg4 (by decide))).trans (W11_untouched m ρ c main_arg4 (by decide) (by decide) (by decide) (by decide) (by decide) (by decide) (by decide) (by decide) (by decide) (by decide) (by decide)),
     (h c _ (mem_uc main_arg5 (by decide))).trans (W11_untouched m ρ c main_arg5 (by decide) (by decide) (by decide) (by decide) (by decide) (by decide) (by decide) (by decide) (by decide) (by decide) (by decide)),
     (h c _ (mem_uc main_arg6 (by decide))).trans (W11_untouched m ρ c main_arg6 (by decide) (by decide) (by decide) (by decide) (by decide) (by decide) (by decide) (by decide) (by decide) (by decide) (by decide)),
     (h c _ (mem_uc main_arg7 (by decide))).trans (W11_untouched m ρ c main_arg7 (by decide) (by decide) (by decide) (by decide) (by decide) (by decide) (by decide) (by decide) (by decide) (by decide) (by decide)),
     (h c _ (mem_uc main_arg8 (by decide))).trans (W11_untouched m ρ c main_arg8 (by decide) (by decide) (by decide) (by decide) (by decide) (by decide) (by decide) (by decide) (by decide) (by decide) (by decide)),
     (h c _ (mem_uc main_arg9 (by decide))).trans (W11_untouched m ρ c main_arg9 (by decide) (by decide) (by decide) (by decide) (by decide) (by decide) (by decide) (by decide) (by decide) (by decide) (by decide)),
     (h c _ (mem_uc main_arg10 (by decide))).trans (W11_untouched m ρ c main_arg10 (by decide) (by decide) (by decide) (by decide) (by decide) (by decide) (by decide) (by decide) (by decide) (by decide) (by decide)),
     (h c _ (mem_uc main_arg11 (by decide))).trans (W11_untouched m ρ c main_arg11 (by decide) (by decide) (by decide) (by decide) (by decide) (by decide) (by decide) (by decide) (by decide) (by decide) (by decide)),
     (h c _ (mem_uc main_arg12 (by decide))).trans (W11_untouched m ρ c main_arg12 (by decide) (by decide) (by decide) (by decide) (by decide) (by decide) (by decide) (by decide) (by decide) (by decide) (by decide)),
     (h c _ (mem_uc main_arg13 (by decide))).trans (W11_untouched m ρ c main_arg13 (by decide) (by decide) (by decide) (by decide) (by decide) (by decide) (by decide) (by decide) (by decide) (by decide) (by decide)),
     (h c _ (mem_uc main_arg14 (by decide))).trans (W11_untouched m ρ c main_arg14 (by decide) (by decide) (by decide) (by decide) (by decide) (by decide) (by decide) (by decide) (by decide) (by decide) (by decide)),
     (h c _ (mem_uc main_arg15 (by decide))).trans (W11_untouched m ρ c main_arg15 (by decide) (by decide) (by decide) (by decide) (by decide) (by decide) (by decide) (by decide) (by decide) (by decide) (by decide)),
     (h c _ (mem_uc main_arg16 (by decide))).trans (W11_untouched m ρ c main_arg16 (by decide) (by decide) (by decide) (by decide) (by decide) (by decide) (by decide) (by decide) (by decide) (by decide) (by decide)),
     (h c _ (mem_uc main_arg17 (by decide))).trans (W11_untouched m ρ c main_arg17 (by decide) (by decide) (by decide) (by decide) (by decide) (by decide) (by decide) (by decide) (by decide) (by decide) (by decide)),
     (h c _ (mem_uc main_arg18 (by decide))).trans (W11_untouched m ρ c main_arg18 (by decide) (by decide) (by decide) (by decide) (by decide) (by decide) (by decide) (by decide) (by decide) (by decide) (by decide)),
     (h c _ (mem_uc main_arg19 (by decide))).trans (W11_untouched m ρ c main_arg19 (by decide) (by decide) (by decide) (by decide) (by decide) (by decide) (by decide) (by decide) (by decide) (by decide) (by decide)),
     (h c _ (mem_uc main_arg20 (by decide))).trans (W11_untouched m ρ c main_arg20 (by decide) (by decide) (by decide) (by decide) (by decide) (by decide) (by decide) (by decide) (by decide) (by decide) (by decide)),
     (h c _ (mem_uc main_arg21 (by decide))).trans (W11_untouched m ρ c main_arg21 (by decide) (by decide) (by decide) (by decide) (by decide) (by decide) (by decide) (by decide) (by decide) (by decide) (by decide)),
     (h c _ (mem_uc main_arg22 (by decide))).trans (W11_untouched m ρ c main_arg22 (by decide) (by decide) (by decide) (by decide) (by decide) (by decide) (by decide) (by decide) (by decide) (by decide) (by decide))⟩

/-- THE FRAME: every weakly fair execution terminates, nothing faulting, and every final state has the argument arrays
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run _ _ _).mono (fun r hr c => (hr c).2) (run_value m ρ)

end Cert.Kernel.Fr

end
-- ==== Proof.IRegion0.lean ====
import proofs.«129706_j63471026700727_2_alg».proof.Proof.Gen.KernelIdeal.Launch
import proofs.«129706_j63471026700727_2_alg».proof.Proof.Gen.KernelIdeal.Skeleton
import proofs.«129706_j63471026700727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The first graph-convolution region of the program, at a parameter `V` (the TensorCore's buffer
    contents when the region is entered): every window's block at a grid point, what the body leaves in
    the output window's buffer as a function of the five input blocks, the body's triple, the pipeline's
    proof data and the body obligation at every point.  Generic in the float instance. -/

-- membership in a rectangle with a 5000-long axis: the structural check recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the aggregated neighbour features, one 5000-row block per point): its current staging
    buffer holds its block at every point, for any proof data whose array is `V`'s and whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the node features, one 5000-row block per point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the neighbour weight matrix, whole, its block index constant over the grid: fetched at the
    first point only, and found in place at every later one because the index never moves). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the bias row, whole, constant index). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (the root weight matrix, whole, constant index). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's buffer is read, and the output's written, whole -/

abbrev r0_0 : Rect S5000x28 := Rect.unit (s := S5000x28) ![0, 0] S5000x28.size inb_S5000x28_S5000x28_0_0
abbrev r0_1 : Rect S5000x28 := Rect.unit (s := S5000x28) ![0, 0] S5000x28.size inb_S5000x28_S5000x28_0_0
abbrev r0_2 : Rect S28x256 := Rect.unit (s := S28x256) ![0, 0] S28x256.size inb_S28x256_S28x256_0_0
abbrev r0_3 : Rect S1x256 := Rect.unit (s := S1x256) ![0, 0] S1x256.size inb_S1x256_S1x256_0_0
abbrev r0_4 : Rect S28x256 := Rect.unit (s := S28x256) ![0, 0] S28x256.size inb_S28x256_S28x256_0_0
abbrev r0_5 : Rect S5000x256 := Rect.unit (s := S5000x256) ![0, 0] S5000x256.size inb_S5000x256_S5000x256_0_0

/-! ## What the body leaves in the output window's buffer -/

/-- Window 5's staging buffer after the body, from the five input windows' blocks `x0 … x4` (window order): its one
    store, of max((x0·x2 + x1·x4) + x3, 0) — the stored value takes the neighbour product's operands, then the root
    weight (window 4), then the bias (window 3). -/
def out0_5 (x0 : Vec F S5000x28 .f32) (x1 : Vec F S5000x28 .f32) (x2 : Vec F S28x256 .f32) (x3 : Vec F S1x256 .f32) (x4 : Vec F S28x256 .f32) :
    Vec F S5000x256 .f32 :=
  View.canon [⟨r0_5, k0_pay1 (View.ld x0 r0_0) (View.ld x1 r0_1) (View.ld x2 r0_2) (View.ld x4 r0_4) (View.ld x3 r0_3)⟩]

/-- The one store tiles the buffer, so it covers it. -/
theorem cover0_5 (p0 : Vec F S5000x256 .f32) (y : S5000x256.Idx) :
    ∃ pc ∈ ([⟨r0_5, p0⟩] : List (View.Piece (Elt F) S5000x256 .f32)), y ∈ pc.1.set :=
  View.cover_of_tiled [⟨r0_5, p0⟩] S5000x256.size (by rfl) y

/-! ## The body's triple -/

set_option maxHeartbeats 1000000 in
/-- The kernel body on whole staging memrefs, the five inputs' at read contents `x0 … x4` and the output's at
    anything, runs to the continuation holding the inputs' as they were and the output's at `out0_5` of them.  The
    body also reads the output buffer once before storing to it; the value read is not used. -/
theorem sound_kernel0 (c : Dev nD) (E : Set ℕ) (i : grid0.Coords)
    (arg1 : Memref sig .tc .vmem S5000x28 .f32) (harg1 : arg1.IsWhole) (arg2 : Memref sig .tc .vmem S5000x28 .f32) (harg2 : arg2.IsWhole)
    (arg3 : Memref sig .tc .vmem S28x256 .f32) (harg3 : arg3.IsWhole) (arg4 : Memref sig .tc .vmem S1x256 .f32) (harg4 : arg4.IsWhole)
    (arg5 : Memref sig .tc .vmem S28x256 .f32) (harg5 : arg5.IsWhole) (arg6 : Memref sig .tc .vmem S5000x256 .f32) (harg6 : arg6.IsWhole)
    (x0 : Vec F S5000x28 .f32) (x1 : Vec F S5000x28 .f32) (x2 : Vec F S28x256 .f32) (x3 : Vec F S1x256 .f32) (x4 : Vec F S28x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of this pipeline on core `c`: the arrays as the region finds them (`V`); after the body at point
    `t` each input's buffer at its block and the output's at `out0_5` of the five input blocks; the invariant that
    leaves the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_w`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Fr
-- ==== Proof.IRegion1.lean ====
import proofs.«129706_j63471026700727_2_alg».proof.Proof.Gen.KernelIdeal.Launch
import proofs.«129706_j63471026700727_2_alg».proof.Proof.Gen.KernelIdeal.Skeleton
import proofs.«129706_j63471026700727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The second graph-convolution region of the program, at a parameter `V` (the TensorCore's buffer
    contents when the region is entered): every window's block at a grid point, what the body leaves in
    the output window's buffer as a function of the five input blocks, the body's triple, the pipeline's
    proof data and the body obligation at every point.  Generic in the float instance. -/

-- membership in a rectangle with a 5000-long axis: the structural check recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the aggregated neighbour features, one 5000-row block per point): its current staging
    buffer holds its block at every point, for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the node features, one 5000-row block per point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the neighbour weight matrix, whole, its block index constant over the grid: fetched at the
    first point only, and found in place at every later one because the index never moves). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the bias row, whole, constant index). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the root weight matrix, whole, constant index). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each window's buffer is read, and the output's written, whole -/

abbrev r1_0 : Rect S5000x256 := Rect.unit (s := S5000x256) ![0, 0] S5000x256.size inb_S5000x256_S5000x256_0_0
abbrev r1_1 : Rect S5000x256 := Rect.unit (s := S5000x256) ![0, 0] S5000x256.size inb_S5000x256_S5000x256_0_0
abbrev r1_2 : Rect S256x256 := Rect.unit (s := S256x256) ![0, 0] S256x256.size inb_S256x256_S256x256_0_0
abbrev r1_3 : Rect S1x256 := Rect.unit (s := S1x256) ![0, 0] S1x256.size inb_S1x256_S1x256_0_0
abbrev r1_4 : Rect S256x256 := Rect.unit (s := S256x256) ![0, 0] S256x256.size inb_S256x256_S256x256_0_0
abbrev r1_5 : Rect S5000x256 := Rect.unit (s := S5000x256) ![0, 0] S5000x256.size inb_S5000x256_S5000x256_0_0

/-! ## What the body leaves in the output window's buffer -/

/-- Window 5's staging buffer after the body, from the five input windows' blocks `x0 … x4` (window order): its one
    store, of max((x0·x2 + x1·x4) + x3, 0) — the stored value takes the neighbour product's operands, then the root
    weight (window 4), then the bias (window 3). -/
def out1_5 (x0 : Vec F S5000x256 .f32) (x1 : Vec F S5000x256 .f32) (x2 : Vec F S256x256 .f32) (x3 : Vec F S1x256 .f32) (x4 : Vec F S256x256 .f32) :
    Vec F S5000x256 .f32 :=
  View.canon [⟨r1_5, k1_pay1 (View.ld x0 r1_0) (View.ld x1 r1_1) (View.ld x2 r1_2) (View.ld x4 r1_4) (View.ld x3 r1_3)⟩]

/-- The one store tiles the buffer, so it covers it. -/
theorem cover1_5 (p0 : Vec F S5000x256 .f32) (y : S5000x256.Idx) :
    ∃ pc ∈ ([⟨r1_5, p0⟩] : List (View.Piece (Elt F) S5000x256 .f32)), y ∈ pc.1.set :=
  View.cover_of_tiled [⟨r1_5, p0⟩] S5000x256.size (by rfl) y

/-! ## The body's triple -/

set_option maxHeartbeats 1000000 in
/-- The kernel body on whole staging memrefs, the five inputs' at read contents `x0 … x4` and the output's at
    anything, runs to the continuation holding the inputs' as they were and the output's at `out1_5` of them.  The
    body also reads the output buffer once before storing to it; the value read is not used. -/
theorem sound_kernel1 (c : Dev nD) (E : Set ℕ) (i : grid1.Coords)
    (arg1 : Memref sig .tc .vmem S5000x256 .f32) (harg1 : arg1.IsWhole) (arg2 : Memref sig .tc .vmem S5000x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S5000x256 .f32) (harg6 : arg6.IsWhole)
    (x0 : Vec F S5000x256 .f32) (x1 : Vec F S5000x256 .f32) (x2 : Vec F S256x256 .f32) (x3 : Vec F S1x256 .f32) (x4 : Vec F S256x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them (`V`); after the body at point
    `t` each input's buffer at its block and the output's at `out1_5` of the five input blocks; the invariant that
    leaves the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_w`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Fr
-- ==== Proof.IRegion2.lean ====
import proofs.«129706_j63471026700727_2_alg».proof.Proof.Gen.KernelIdeal.Launch
import proofs.«129706_j63471026700727_2_alg».proof.Proof.Gen.KernelIdeal.Skeleton
import proofs.«129706_j63471026700727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The third graph-convolution region of the program, at a parameter `V` (the TensorCore's buffer
    contents when the region is entered): every window's block at a grid point, what the body leaves in
    the output window's buffer as a function of the five input blocks, the body's triple, the pipeline's
    proof data and the body obligation at every point.  Generic in the float instance. -/

-- membership in a rectangle with a 5000-long axis: the structural check recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the aggregated neighbour features, one 5000-row block per point): its current staging
    buffer holds its block at every point, for any proof data whose array is `V`'s and whose body leaves the
    block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the node features, one 5000-row block per point). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the neighbour weight matrix, whole, its block index constant over the grid: fetched at the
    first point only, and found in place at every later one because the index never moves). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the bias row, whole, constant index). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (the root weight matrix, whole, constant index). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each window's buffer is read, and the output's written, whole -/

abbrev r2_0 : Rect S5000x256 := Rect.unit (s := S5000x256) ![0, 0] S5000x256.size inb_S5000x256_S5000x256_0_0
abbrev r2_1 : Rect S5000x256 := Rect.unit (s := S5000x256) ![0, 0] S5000x256.size inb_S5000x256_S5000x256_0_0
abbrev r2_2 : Rect S256x256 := Rect.unit (s := S256x256) ![0, 0] S256x256.size inb_S256x256_S256x256_0_0
abbrev r2_3 : Rect S1x256 := Rect.unit (s := S1x256) ![0, 0] S1x256.size inb_S1x256_S1x256_0_0
abbrev r2_4 : Rect S256x256 := Rect.unit (s := S256x256) ![0, 0] S256x256.size inb_S256x256_S256x256_0_0
abbrev r2_5 : Rect S5000x256 := Rect.unit (s := S5000x256) ![0, 0] S5000x256.size inb_S5000x256_S5000x256_0_0

/-! ## What the body leaves in the output window's buffer -/

/-- Window 5's staging buffer after the body, from the five input windows' blocks `x0 … x4` (window order): its one
    store, of max((x0·x2 + x1·x4) + x3, 0) — the stored value takes the neighbour product's operands, then the root
    weight (window 4), then the bias (window 3). -/
def out2_5 (x0 : Vec F S5000x256 .f32) (x1 : Vec F S5000x256 .f32) (x2 : Vec F S256x256 .f32) (x3 : Vec F S1x256 .f32) (x4 : Vec F S256x256 .f32) :
    Vec F S5000x256 .f32 :=
  View.canon [⟨r2_5, k2_pay1 (View.ld x0 r2_0) (View.ld x1 r2_1) (View.ld x2 r2_2) (View.ld x4 r2_4) (View.ld x3 r2_3)⟩]

/-- The one store tiles the buffer, so it covers it. -/
theorem cover2_5 (p0 : Vec F S5000x256 .f32) (y : S5000x256.Idx) :
    ∃ pc ∈ ([⟨r2_5, p0⟩] : List (View.Piece (Elt F) S5000x256 .f32)), y ∈ pc.1.set :=
  View.cover_of_tiled [⟨r2_5, p0⟩] S5000x256.size (by rfl) y

/-! ## The body's triple -/

set_option maxHeartbeats 1000000 in
/-- The kernel body on whole staging memrefs, the five inputs' at read contents `x0 … x4` and the output's at
    anything, runs to the continuation holding the inputs' as they were and the output's at `out2_5` of them.  The
    body also reads the output buffer once before storing to it; the value read is not used. -/
theorem sound_kernel2 (c : Dev nD) (E : Set ℕ) (i : grid2.Coords)
    (arg1 : Memref sig .tc .vmem S5000x256 .f32) (harg1 : arg1.IsWhole) (arg2 : Memref sig .tc .vmem S5000x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S5000x256 .f32) (harg6 : arg6.IsWhole)
    (x0 : Vec F S5000x256 .f32) (x1 : Vec F S5000x256 .f32) (x2 : Vec F S256x256 .f32) (x3 : Vec F S1x256 .f32) (x4 : Vec F S256x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2_kernel i arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of this pipeline on core `c`: the arrays as the region finds them (`V`); after the body at point
    `t` each input's buffer at its block and the output's at `out2_5` of the five input blocks; the invariant that
    leaves the scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_w`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Fr
-- ==== Proof.IRegion3.lean ====
import proofs.«129706_j63471026700727_2_alg».proof.Proof.Gen.KernelIdeal.Launch
import proofs.«129706_j63471026700727_2_alg».proof.Proof.Gen.KernelIdeal.Skeleton
import proofs.«129706_j63471026700727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The fourth graph-convolution region of the program, at a parameter `V` (the TensorCore's buffer
    contents when the region is entered): every window's block at a grid point, what the body leaves in
    the output window's buffer as a function of the five input blocks, the body's triple, the pipeline's
    proof data and the body obligation at every point.  Generic in the float instance. -/

-- membership in a rectangle with a 5000-long axis: the structural check recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the aggregated neighbour features, one 5000-row block per point): its current staging
    buffer holds its block at every point, for any proof data whose array is `V`'s and whose body leaves the
    block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the node features, one 5000-row block per point). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the neighbour weight matrix, whole, its block index constant over the grid: fetched at the
    first point only, and found in place at every later one because the index never moves). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3 (the bias row, whole, constant index). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4 (the root weight matrix, whole, constant index). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each window's buffer is read, and the output's written, whole -/

abbrev r3_0 : Rect S5000x256 := Rect.unit (s := S5000x256) ![0, 0] S5000x256.size inb_S5000x256_S5000x256_0_0
abbrev r3_1 : Rect S5000x256 := Rect.unit (s := S5000x256) ![0, 0] S5000x256.size inb_S5000x256_S5000x256_0_0
abbrev r3_2 : Rect S256x256 := Rect.unit (s := S256x256) ![0, 0] S256x256.size inb_S256x256_S256x256_0_0
abbrev r3_3 : Rect S1x256 := Rect.unit (s := S1x256) ![0, 0] S1x256.size inb_S1x256_S1x256_0_0
abbrev r3_4 : Rect S256x256 := Rect.unit (s := S256x256) ![0, 0] S256x256.size inb_S256x256_S256x256_0_0
abbrev r3_5 : Rect S5000x256 := Rect.unit (s := S5000x256) ![0, 0] S5000x256.size inb_S5000x256_S5000x256_0_0

/-! ## What the body leaves in the output window's buffer -/

/-- Window 5's staging buffer after the body, from the five input windows' blocks `x0 … x4` (window order): its one
    store, of max((x0·x2 + x1·x4) + x3, 0) — the stored value takes the neighbour product's operands, then the root
    weight (window 4), then the bias (window 3). -/
def out3_5 (x0 : Vec F S5000x256 .f32) (x1 : Vec F S5000x256 .f32) (x2 : Vec F S256x256 .f32) (x3 : Vec F S1x256 .f32) (x4 : Vec F S256x256 .f32) :
    Vec F S5000x256 .f32 :=
  View.canon [⟨r3_5, k3_pay1 (View.ld x0 r3_0) (View.ld x1 r3_1) (View.ld x2 r3_2) (View.ld x4 r3_4) (View.ld x3 r3_3)⟩]

/-- The one store tiles the buffer, so it covers it. -/
theorem cover3_5 (p0 : Vec F S5000x256 .f32) (y : S5000x256.Idx) :
    ∃ pc ∈ ([⟨r3_5, p0⟩] : List (View.Piece (Elt F) S5000x256 .f32)), y ∈ pc.1.set :=
  View.cover_of_tiled [⟨r3_5, p0⟩] S5000x256.size (by rfl) y

/-! ## The body's triple -/

set_option maxHeartbeats 1000000 in
/-- The kernel body on whole staging memrefs, the five inputs' at read contents `x0 … x4` and the output's at
    anything, runs to the continuation holding the inputs' as they were and the output's at `out3_5` of them.  The
    body also reads the output buffer once before storing to it; the value read is not used. -/
theorem sound_kernel3 (c : Dev nD) (E : Set ℕ) (i : grid3.Coords)
    (arg1 : Memref sig .tc .vmem S5000x256 .f32) (harg1 : arg1.IsWhole) (arg2 : Memref sig .tc .vmem S5000x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S5000x256 .f32) (harg6 : arg6.IsWhole)
    (x0 : Vec F S5000x256 .f32) (x1 : Vec F S5000x256 .f32) (x2 : Vec F S256x256 .f32) (x3 : Vec F S1x256 .f32) (x4 : Vec F S256x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3_kernel i arg1 harg1 arg2 harg2 arg3 harg3 arg4 harg4 arg5 harg5 arg6 harg6) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of this pipeline on core `c`: the arrays as the region finds them (`V`); after the body at point
    `t` each input's buffer at its block and the output's at `out3_5` of the five input blocks; the invariant that
    leaves the scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_w`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.KernelIdeal.Fr
-- ==== Proof.IRegion4.lean ====
import proofs.«129706_j63471026700727_2_alg».proof.Proof.Gen.KernelIdeal.Launch
import proofs.«129706_j63471026700727_2_alg».proof.Proof.Gen.KernelIdeal.Skeleton
import proofs.«129706_j63471026700727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The MLP-head region (the fifth kernel region of the program): one grid point, nine input windows and one
    output window. At a parameter `V`, the buffer contents when the region is entered: each window's block, what
    the body leaves in the output window's buffer (one store of the whole block: the chain of four matrix products
    of the eight loaded operands plus the broadcast ninth), the body's triple, the proof data and the body obligation. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): the window is uncut and
    never idle. The same for every input window below. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each window's whole block -/

abbrev r4_0 : Rect S4096x1024 := Rect.unit (s := S4096x1024) ![0, 0] S4096x1024.size inb_S4096x1024_S4096x1024_0_0
abbrev r4_1 : Rect S1024x256 := Rect.unit (s := S1024x256) ![0, 0] S1024x256.size inb_S1024x256_S1024x256_0_0
abbrev r4_2 : Rect S1x256 := Rect.unit (s := S1x256) ![0, 0] S1x256.size inb_S1x256_S1x256_0_0
abbrev r4_3 : Rect S256x256 := Rect.unit (s := S256x256) ![0, 0] S256x256.size inb_S256x256_S256x256_0_0
abbrev r4_7 : Rect S256x128 := Rect.unit (s := S256x128) ![0, 0] S256x128.size inb_S256x128_S256x128_0_0
abbrev r4_8 : Rect S1x128 := Rect.unit (s := S1x128) ![0, 0] S1x128.size inb_S1x128_S1x128_0_0
abbrev r4_9 : Rect S4096x128 := Rect.unit (s := S4096x128) ![0, 0] S4096x128.size inb_S4096x128_S4096x128_0_0

/-! ## What the body leaves in the output window's buffer -/

/-- Window 9's staging buffer after the body, from the input windows' blocks: its one store, of the whole block. The
    value stored is the last matrix product of the chain (over the blocks of windows 0 to 7) plus the row of window 8
    broadcast down the rows. -/
def out4_9 (x0 : Vec F S4096x1024 .f32) (x1 : Vec F S1024x256 .f32) (x2 : Vec F S1x256 .f32) (x3 : Vec F S256x256 .f32)
    (x4 : Vec F S1x256 .f32) (x5 : Vec F S256x256 .f32) (x6 : Vec F S1x256 .f32) (x7 : Vec F S256x128 .f32)
    (x8 : Vec F S1x128 .f32) : Vec F S4096x128 .f32 :=
  View.canon [⟨r4_9, k4_pay1 (k4_pay2 (View.ld x0 r4_0) (View.ld x1 r4_1) (View.ld x2 r4_2) (View.ld x3 r4_3)
    (View.ld x4 r4_2) (View.ld x5 r4_3) (View.ld x6 r4_2) (View.ld x7 r4_7)) (k4_pay3 (View.ld x8 r4_8))⟩]

/-- The store is of the whole buffer (checked by evaluation), so it covers it. -/
theorem cover4_9 (p0 : Vec F S4096x128 .f32) (y : S4096x128.Idx) :
    ∃ pc ∈ ([⟨r4_9, p0⟩] : List (View.Piece (Elt F) S4096x128 .f32)), y ∈ pc.1.set :=
  View.cover_of_tiled [⟨r4_9, p0⟩] S4096x128.size (by rfl) y

/-! ## The body's triple -/

set_option maxHeartbeats 4000000 in
/-- The kernel body on whole staging memrefs, the inputs' at read contents `x0 … x8` and the output's at anything, runs
    to the continuation holding the inputs' as they were and the output's at `out4_9` of the inputs': the nine loads,
    a load of the output's buffer that nothing reads, and the one store. -/
theorem sound_kernel4 (c : Dev nD) (E : Set ℕ) (i : grid4.Coords)
    (arg1 : Memref sig .tc .vmem S4096x1024 .f32) (harg1 : arg1.IsWhole) (arg2 : Memref sig .tc .vmem S1024x256 .f32) (harg2 : arg2.IsWhole)
    (arg3 : Memref sig .tc .vmem S1x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S256x256 .f32) (harg6 : arg6.IsWhole)
    (arg7 : Memref sig .tc .vmem S1x256 .f32) (harg7 : arg7.IsWhole) (arg8 : Memref sig .tc .vmem S256x128 .f32) (harg8 : arg8.IsWhole)
    (arg9 : Memref sig .tc .vmem S1x128 .f32) (harg9 : arg9.IsWhole) (arg10 : Memref sig .tc .vmem S4096x128 .f32) (harg10 : arg10.IsWhole)
    (x0 : Vec F S4096x1024 .f32) (x1 : Vec F S1024x256 .f32) (x2 : Vec F S1x256 .f32) (x3 : Vec F S256x256 .f32)
    (x4 : Vec F S1x256 .f32) (x5 : Vec F S256x256 .f32) (x6 : Vec F S1x256 .f32) (x7 : Vec F S256x128 .f32)
    (x8 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ (∃ d, owns (c : Thread nD τ) arg10 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8
            ∗ owns (c : Thread nD τ) arg10 fullShare (out4_9 x0 x1 x2 x3 x4 x5 x6 x7 x8)) -∗ K ⟨⟩))
      ⊢ wp frame (wpE (defs₀ (F := F)) Variants.none c none) E
          (cc4_kernel i arg1 harg1 arg2 harg2 arg3 harg3 arg4 harg4 arg5 harg5 arg6 harg6 arg7 harg7 arg8 harg8 arg9 harg9 arg10 harg10) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover4_9 _)

/-! ## The pipeline's proof data -/

/-- The proof data of the region's pipeline on core `c`: the arrays as the region finds them (`V`); after the body at
    point `t` each input's buffer at its block and the output's at `out4_9` of the input blocks; the invariant the
    plain class's (the scoped rest and the generator register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t)
        (iblk4 V c 5 t) (iblk4 V c 6 t) (iblk4 V c 7 t) (iblk4 V c 8 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t =
    out4_9 (iblk4 V c 0 t) (iblk4 V c 1 t) (iblk4 V c 2 t) (iblk4 V c 3 t) (iblk4 V c 4 t)
      (iblk4 V c 5 t) (iblk4 V c 6 t) (iblk4 V c 7 t) (iblk4 V c 8 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

/-- The body at any point: the inputs' memrefs hold their blocks (`before4_w`), so `sound_kernel4` applies; the invariant
    and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ _ _ _ _ _ _ _ _ _ _ _ _ _ _ _ _ _ _ _ _ _
    (iblk4 V c 0 t) (iblk4 V c 1 t) (iblk4 V c 2 t) (iblk4 V c 3 t) (iblk4 V c 4 t)
    (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.IRun.lean ====
import proofs.«129706_j63471026700727_2_alg».proof.Proof.IRegion0
import proofs.«129706_j63471026700727_2_alg».proof.Proof.IRegion1
import proofs.«129706_j63471026700727_2_alg».proof.Proof.IRegion2
import proofs.«129706_j63471026700727_2_alg».proof.Proof.IRegion3
import proofs.«129706_j63471026700727_2_alg».proof.Proof.IRegion4
import proofs.«129706_j63471026700727_2_alg».proof.Proof.Gen.KernelIdeal.Regions

/-! The run of the program's entry function from the launch to the return, as eleven segments: six stretches of host
    operations around five kernel regions. The buffer contents at every segment boundary are a fold from the launch
    memory (`W0 … W11`); every argument array is read back through the fold to its launch contents; the launch
    theorem then gives, for every weakly fair execution, termination without fault, the argument arrays as
    launched, and the result buffer at its contents in the last valuation `W11`. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the entry function -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the fourth host stretch (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the fifth host stretch (region 4's entry). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the last host stretch: the contents at the return. -/
abbrev W11 : Dev nD → Valuation τ sig (Elt F) := fun c => StableHlo.after hostOps5 (W10 m ρ c)

/-! ### A host stretch leaves every buffer it does not write -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h
theorem W11_of (c : Dev nD) (r : Ref sig .tc) (h : r ∉ hostOps5_W) : W11 m ρ c (Proc.devRef .tc r) = W10 m ρ c (Proc.devRef .tc r) :=
  StableHlo.after_of_writes_sub hostOps5 _ hostOps5_writes h

/-! ### The arguments end as launched: no host operation and no region writes one (a region reads it through an
    input window or bypasses it), so the fold at an argument's buffer walks back to the launch memory -/

/-- From the return back to region 0's exit, for a reference no later stretch writes and no later region holds as a
    window's array. -/
theorem W11_to_W2 (c : Dev nD) (r : Ref sig .tc) (h1 : r ∉ hostOps1_W) (a1 : ∀ w, Pipeline.arrRef spec1 w ≠ r)
    (h2 : r ∉ hostOps2_W) (a2 : ∀ w, Pipeline.arrRef spec2 w ≠ r) (h3 : r ∉ hostOps3_W) (a3 : ∀ w, Pipeline.arrRef spec3 w ≠ r)
    (h4 : r ∉ hostOps4_W) (a4 : ∀ w, Pipeline.arrRef spec4 w ≠ r) (h5 : r ∉ hostOps5_W) :
    W11 m ρ c (Proc.devRef .tc r) = W2 m ρ c (Proc.devRef .tc r) :=
  (W11_of m ρ c r h5).trans <| (W10_of_ne m ρ c r a4).trans <| (W9_of m ρ c r h4).trans <| (W8_of_ne m ρ c r a3).trans <|
    (W7_of m ρ c r h3).trans <| (W6_of_ne m ρ c r a2).trans <| (W5_of m ρ c r h2).trans <| (W4_of_ne m ρ c r a1).trans <|
    (W3_of m ρ c r h1)

/-- A reference no stretch writes and no region holds as a window's array ends at its launch contents. -/
theorem W11_untouched (c : Dev nD) (r : Ref sig .tc) (h0 : r ∉ hostOps0_W) (a0 : ∀ w, Pipeline.arrRef spec0 w ≠ r)
    (h1 : r ∉ hostOps1_W) (a1 : ∀ w, Pipeline.arrRef spec1 w ≠ r)
    (h2 : r ∉ hostOps2_W) (a2 : ∀ w, Pipeline.arrRef spec2 w ≠ r) (h3 : r ∉ hostOps3_W) (a3 : ∀ w, Pipeline.arrRef spec3 w ≠ r)
    (h4 : r ∉ hostOps4_W) (a4 : ∀ w, Pipeline.arrRef spec4 w ≠ r) (h5 : r ∉ hostOps5_W) :
    W11 m ρ c (Proc.devRef .tc r) = m ((c : Thread nD τ).loc r) :=
  (W11_to_W2 m ρ c r h1 a1 h2 a2 h3 a3 h4 a4 h5).trans <| (W2_of_ne m ρ c r a0).trans <| (W1_of m ρ c r h0).trans rfl

/-- The first argument is the array of region 0's input window 1: the region leaves an input's array as entered. -/
theorem W11_main_arg0 (c : Dev nD) : W11 m ρ c (Proc.devRef .tc main_arg0) = m ((c : Thread nD τ).loc main_arg0) :=
  calc W11 m ρ c (Proc.devRef .tc main_arg0)
    _ = W2 m ρ c (Proc.devRef .tc main_arg0) :=
          W11_to_W2 m ρ c main_arg0 (by decide) (by decide) (by decide) (by decide) (by decide) (by decide) (by decide) (by decide) (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := W1_of m ρ c main_arg0 (by decide)
    _ = m ((c : Thread nD τ).loc main_arg0) := rfl

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents, as a literal `match`. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W11`, the
    generator register at some state. -/
abbrev Tₙ (c : Dev nD) : sProp 𝕄 := iprop(StableHlo.held (c : Thread nD τ) (Pipeline.ucRefs τ sig) (W11 m ρ c) ∗ ∃ r, prngReg c r)

/-! ## The regions as segments

Each region over the thread state: entered from every unscoped buffer at the entry contents, left at the exit
contents (what the next host stretch is entered from). Its arrays split out of the unscoped buffers and put back at
the exit contents; the generator register into the class invariant and out; nothing owed; no semaphore of the
kernel's own. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

/-- The entry function's 11 segments in order: a host segment per stretch from its boundary's contents, a region per
    kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]
/-- The entry function is the run of the segments. -/
theorem main_run (c : Dev nD) : main (F := F) c = Pipeline.Seg.run (segs m ρ) := (main_chain c).trans (by chain_rfl)

/-- What the launch theorem reads off the last thread state: every unscoped buffer at the last valuation. -/
abbrev QY : Dev nD → MemSt nD τ sig (Elt F) → Prop :=
  fun c s => ∀ b ∈ Pipeline.ucRefs τ sig, s.mem (((c : Thread nD τ)).1, b) = W11 m ρ c b

set_option backward.isDefEq.respectTransparency.types false in
/-- The run at any post that follows from every unscoped buffer ending at the last valuation `W11`: at the compiled
    mesh, from any memory with zero counters, every weakly fair execution of the entry function on the TensorCores
    terminates, nothing faulting, and every final state satisfies the post. -/
theorem run_of {Q : PUnit × MemSt nD τ sig (Elt F) → Prop}
    (hQ : ∀ s : MemSt nD τ sig (Elt F), (∀ c : Dev nD, QY m ρ c s) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c =>
        show iprop(StableHlo.held (c : Thread nD τ) (Pipeline.ucRefs τ sig) (W11 m ρ c) ∗ R c)
            ⊢ iprop(Tₙ m ρ c ∗ ∃ W, owes (c : Thread nD τ) (0 : CellTallies nD τ sig Unit) W) from by
          iintro ⟨Hh, Hp, HO⟩
          isplitl [Hh Hp]
          · isplitl [Hh]; · iexact Hh
            iexact Hp
          iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := QY m ρ)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := hQ)

/-- THE RUN, with the result: every final state has the result buffer at its contents in the last valuation and the
    argument arrays as launched. -/
theorem run_value : θ_run defs (onTc (τ := τ) (main (F := F))) ⟨m, fun _ => 0, ρ⟩ (fun r => ∀ c : Dev nD,
      r.2.mem ((c.tc : Thread nD τ).loc main_v98) = W11 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  run_of m ρ fun s h c =>
    ⟨h c _ (mem_uc main_v98 (by decide)),
     (h c _ (mem_uc main_arg0 (by decide))).trans (W11_main_arg0 m ρ c),
     (h c _ (mem_uc main_arg1 (by decide))).trans (W11_untouched m ρ c main_arg1 (by decide) (by decide) (by decide) (by decide) (by decide) (by decide) (by decide) (by decide) (by decide) (by decide) (by decide)),
     (h c _ (mem_uc main_arg2 (by decide))).trans (W11_untouched m ρ c main_arg2 (by decide) (by decide) (by decide) (by decide) (by decide) (by decide) (by decide) (by decide) (by decide) (by decide) (by decide)),
     (h c _ (mem_uc main_arg3 (by decide))).trans (W11_untouched m ρ c main_arg3 (by decide) (by decide) (by decide) (by decide) (by decide) (by decide) (by decide) (by decide) (by decide) (by decide) (by decide)),
     (h c _ (mem_uc main_arg4 (by decide))).trans (W11_untouched m ρ c main_arg4 (by decide) (by decide) (by decide) (by decide) (by decide) (by decide) (by decide) (by decide) (by decide) (by decide) (by decide)),
     (h c _ (mem_uc main_arg5 (by decide))).trans (W11_untouched m ρ c main_arg5 (by decide) (by decide) (by decide) (by decide) (by decide) (by decide) (by decide) (by decide) (by decide) (by decide) (by decide)),
     (h c _ (mem_uc main_arg6 (by decide))).trans (W11_untouched m ρ c main_arg6 (by decide) (by decide) (by decide) (by decide) (by decide) (by decide) (by decide) (by decide) (by decide) (by decide) (by decide)),
     (h c _ (mem_uc main_arg7 (by decide))).trans (W11_untouched m ρ c main_arg7 (by decide) (by decide) (by decide) (by decide) (by decide) (by decide) (by decide) (by decide) (by decide) (by decide) (by decide)),
     (h c _ (mem_uc main_arg8 (by decide))).trans (W11_untouched m ρ c main_arg8 (by decide) (by decide) (by decide) (by decide) (by decide) (by decide) (by decide) (by decide) (by decide) (by decide) (by decide)),
     (h c _ (mem_uc main_arg9 (by decide))).trans (W11_untouched m ρ c main_arg9 (by decide) (by decide) (by decide) (by decide) (by decide) (by decide) (by decide) (by decide) (by decide) (by decide) (by decide)),
     (h c _ (mem_uc main_arg10 (by decide))).trans (W11_untouched m ρ c main_arg10 (by decide) (by decide) (by decide) (by decide) (by decide) (by decide) (by decide) (by decide) (by decide) (by decide) (by decide)),
     (h c _ (mem_uc main_arg11 (by decide))).trans (W11_untouched m ρ c main_arg11 (by decide) (by decide) (by decide) (by decide) (by decide) (by decide) (by decide) (by decide) (by decide) (by decide) (by decide)),
     (h c _ (mem_uc main_arg12 (by decide))).trans (W11_untouched m ρ c main_arg12 (by decide) (by decide) (by decide) (by decide) (by decide) (by decide) (by decide) (by decide) (by decide) (by decide) (by decide)),
     (h c _ (mem_uc main_arg13 (by decide))).trans (W11_untouched m ρ c main_arg13 (by decide) (by decide) (by decide) (by decide) (by decide) (by decide) (by decide) (by decide) (by decide) (by decide) (by decide)),
     (h c _ (mem_uc main_arg14 (by decide))).trans (W11_untouched m ρ c main_arg14 (by decide) (by decide) (by decide) (by decide) (by decide) (by decide) (by decide) (by decide) (by decide) (by decide) (by decide)),
     (h c _ (mem_uc main_arg15 (by decide))).trans (W11_untouched m ρ c main_arg15 (by decide) (by decide) (by decide) (by decide) (by decide) (by decide) (by decide) (by decide) (by decide) (by decide) (by decide)),
     (h c _ (mem_uc main_arg16 (by decide))).trans (W11_untouched m ρ c main_arg16 (by decide) (by decide) (by decide) (by decide) (by decide) (by decide) (by decide) (by decide) (by decide) (by decide) (by decide)),
     (h c _ (mem_uc main_arg17 (by decide))).trans (W11_untouched m ρ c main_arg17 (by decide) (by decide) (by decide) (by decide) (by decide) (by decide) (by decide) (by decide) (by decide) (by decide) (by decide)),
     (h c _ (mem_uc main_arg18 (by decide))).trans (W11_untouched m ρ c main_arg18 (by decide) (by decide) (by decide) (by decide) (by decide) (by decide) (by decide) (by decide) (by decide) (by decide) (by decide)),
     (h c _ (mem_uc main_arg19 (by decide))).trans (W11_untouched m ρ c main_arg19 (by decide) (by decide) (by decide) (by decide) (by decide) (by decide) (by decide) (by decide) (by decide) (by decide) (by decide)),
     (h c _ (mem_uc main_arg20 (by decide))).trans (W11_untouched m ρ c main_arg20 (by decide) (by decide) (by decide) (by decide) (by decide) (by decide) (by decide) (by decide) (by decide) (by decide) (by decide)),
     (h c _ (mem_uc main_arg21 (by decide))).trans (W11_untouched m ρ c main_arg21 (by decide) (by decide) (by decide) (by decide) (by decide) (by decide) (by decide) (by decide) (by decide) (by decide) (by decide)),
     (h c _ (mem_uc main_arg22 (by decide))).trans (W11_untouched m ρ c main_arg22 (by decide) (by decide) (by decide) (by decide) (by decide) (by decide) (by decide) (by decide) (by decide) (by decide) (by decide))⟩

/-- THE FRAME: every weakly fair execution terminates, nothing faulting, and every final state has the argument arrays
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run _ _ _).mono (fun r hr c => (hr c).2) (run_value m ρ)

end Cert.KernelIdeal.Fr

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«129706_j63471026700727_2_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«129706_j63471026700727_2_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibHostAffine.lean ====
/-
  Two host-side shapes read at an entry, at the ideal instance.

  (1) A plain `dot_general` of an M×K array with a K×N matrix, plus a bias VECTOR of length N broadcast first to one
  row and then over the M rows, has at row `r` and column `j` the value `(∑ k, x (r, k) · W (k, j)) + b j`.
  (2) The maximum of an array with the broadcast of the scalar constant whose word is all zeros is, entry by entry, the
  maximum with the real number zero (the positive part).
-/
import proofs.«129706_j63471026700727_2_alg».proof.Proof.LibDotGeneralNN
import Idealize.ShloMosaic.Lib.Pipeline.Value

noncomputable section

open scoped BigOperators

namespace Cert.LibHostAffine

open Idealize.ShloMosaic Idealize.ShloMosaic.ValueIdx

variable {M K N : Nat} {φ₁ φ₂ : FTy} {α : Type}

/-- A vector broadcast to one row and then over `M` rows reads, at `(r, j)`, its entry `j`. -/
theorem bias_apply (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![1, N]⟩ (![1] : Fin 1 → Fin 2) h1 b) (ix2 r j)
      = b (ix1 j) := by
  rw [broadcastInDim_apply (![0, 1] : Fin 2 → Fin 2) h2 _ (ix2 r j) (ix2 (0 : Fin 1) j) (fun a => by
    match a with
    | ⟨0, _⟩ => rfl
    | ⟨1, _⟩ =>
      show j.val = if N = 1 then 0 else j.val
      split
      · have := j.isLt; omega
      · rfl)]
  exact broadcastInDim_apply (![1] : Fin 1 → Fin 2) h1 b (ix2 (0 : Fin 1) j) (ix1 j) (fun a => by
    match a with
    | ⟨0, _⟩ =>
      show j.val = if N = 1 then 0 else j.val
      split
      · have := j.isLt; omega
      · rfl)

/-- The host product plus the broadcast bias vector at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    addf (Host.dotGeneral d prec x W)
        (broadcastInDim ⟨2, ![M, N]⟩ (![0, 1] : Fin 2 → Fin 2) h2 (broadcastInDim ⟨2, ![1, N]⟩ (![1] : Fin 1 → Fin 2) h1 b)) (ix2 r j)
      = (∑ k : Fin K, x (ix2 r k) * W (ix2 k j)) + b (ix1 j) := by
  rw [addf_apply, bias_apply b h1 h2 r j]
  simp only [Host.dotGeneral]
  rw [Cert.LibDotGeneralNN.dotGeneral_apply d hlc hrc hln hrn hlb hrb]

/-- The maximum with a broadcast zero constant is the positive part. -/
theorem relu_apply {s : Shape} (x : FVec Ideal s .f32) (h : (⟨0, ![]⟩ : Shape).BroadcastsInDim s (![] : Fin 0 → Fin s.rank))
    (i : s.Idx) :
    maximumf x (broadcastInDim s (![] : Fin 0 → Fin s.rank) h (constant (F := Ideal) ⟨0, ![]⟩ .f32 0x00000000#32)) i
      = max (x i) 0 := by
  show max (x i) (Ideal.ofBits .f32 0x00000000#32) = max (x i) 0
  rw [Ideal.ofBits_zero_f32]

end Cert.LibHostAffine

end
-- ==== Proof.LibDenseLayers.lean ====
/-
  The two dense layers of the network, as functions of whole arrays, and the vector expressions that compute them.

  An affine layer sends an M×K array x, a K×N matrix W and a one-row bias b to the M×N array whose entry (r, j) is
  (∑ k, x (r, k) · W (k, j)) + b (0, j).  A neighbourhood layer adds a second product, of the node's own features
  with a second matrix, and takes the positive part:
  max (((∑ k, mean (r, k) · Wl (k, j)) + (∑ k, dst (r, k) · Wr (k, j))) + b (0, j)) 0.
  Both are read on the extended reals, where a change of float format is the identity and a matrix product into the
  zero accumulator is the textbook sum.  The kernel computes each layer tile by tile (a block of rows at a time); the
  host computes it with dot_general, a broadcast bias vector and a maximum with the zero constant, adding the bias
  BEFORE the second product.  Addition of extended reals is commutative and associative, so the two orders agree
  with no finiteness assumption.
-/
import proofs.«129706_j63471026700727_2_alg».proof.Proof.LibAffineBlock
import proofs.«129706_j63471026700727_2_alg».proof.Proof.LibHostAffine

noncomputable section

open scoped BigOperators

namespace Cert.LibDenseLayers

open Idealize.ShloMosaic Idealize.ShloMosaic.ValueIdx

variable {M K K' N : Nat}

/-- The affine layer with a one-row bias: entry (r, j) is (∑ k, x (r, k) · W (k, j)) + b (0, j). -/
def affineRow (x : FVec Ideal ⟨2, ![M, K]⟩ .f32) (W : FVec Ideal ⟨2, ![K, N]⟩ .f32) (b : FVec Ideal ⟨2, ![1, N]⟩ .f32) :
    FVec Ideal ⟨2, ![M, N]⟩ .f32 :=
  fun i => (∑ k : Fin K, x (ix2 (i 0) k) * W (ix2 k (i 1))) + b (ix2 (0 : Fin 1) (i 1))

theorem affineRow_ix2 (x : FVec Ideal ⟨2, ![M, K]⟩ .f32) (W : FVec Ideal ⟨2, ![K, N]⟩ .f32) (b : FVec Ideal ⟨2, ![1, N]⟩ .f32)
    (r : Fin M) (j : Fin N) :
    affineRow x W b (ix2 r j) = (∑ k : Fin K, x (ix2 r k) * W (ix2 k j)) + b (ix2 (0 : Fin 1) j) := rfl

/-- The neighbourhood layer: the positive part of the sum of two products and a one-row bias. -/
def sageRow (mean : FVec Ideal ⟨2, ![M, K]⟩ .f32) (Wl : FVec Ideal ⟨2, ![K, N]⟩ .f32) (b : FVec Ideal ⟨2, ![1, N]⟩ .f32)
    (dst : FVec Ideal ⟨2, ![M, K']⟩ .f32) (Wr : FVec Ideal ⟨2, ![K', N]⟩ .f32) : FVec Ideal ⟨2, ![M, N]⟩ .f32 :=
  fun i => max (((∑ k : Fin K, mean (ix2 (i 0) k) * Wl (ix2 k (i 1))) + (∑ k : Fin K', dst (ix2 (i 0) k) * Wr (ix2 k (i 1))))
    + b (ix2 (0 : Fin 1) (i 1))) 0

theorem sageRow_ix2 (mean : FVec Ideal ⟨2, ![M, K]⟩ .f32) (Wl : FVec Ideal ⟨2, ![K, N]⟩ .f32) (b : FVec Ideal ⟨2, ![1, N]⟩ .f32)
    (dst : FVec Ideal ⟨2, ![M, K']⟩ .f32) (Wr : FVec Ideal ⟨2, ![K', N]⟩ .f32) (r : Fin M) (j : Fin N) :
    sageRow mean Wl b dst Wr (ix2 r j)
      = max (((∑ k : Fin K, mean (ix2 r k) * Wl (ix2 k j)) + (∑ k : Fin K', dst (ix2 r k) * Wr (ix2 k j))) + b (ix2 (0 : Fin 1) j)) 0 := rfl

/-! ## The tile expressions of the kernel bodies -/

/-- One tile of the affine layer: the product of the rounded operands into the zero accumulator plus the broadcast
    bias row, at (p, q). -/
theorem linTile_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ .f32) (W : FVec Ideal ⟨2, ![K, N]⟩ .f32) (b : FVec Ideal ⟨2, ![1, N]⟩ .f32)
    (h1 : FTy.bf16.bits < FTy.f32.bits) (hb : (⟨2, ![1, N]⟩ : Shape).Broadcasts ⟨2, ![M, N]⟩) (p : Fin M) (q : Fin N) :
    addf (matmul d none (truncf .bf16 x h1) (truncf .bf16 W h1) (constant (F := Ideal) ⟨2, ![M, N]⟩ .f32 0x00000000#32))
        (broadcastTo ⟨2, ![M, N]⟩ b hb) (ix2 p q)
      = (∑ k : Fin K, x (ix2 p k) * W (ix2 k q)) + b (ix2 (0 : Fin 1) q) :=
  Cert.LibAffineBlock.affine_apply d hlc hrc hln hrn hlb hrb none (truncf .bf16 x h1) (truncf .bf16 W h1) b hb p q

/-- One tile of the neighbourhood layer at (p, q). -/
theorem sageTile_apply (d1 : DotDims ⟨2, ![M, K]⟩ ⟨2, ![K, N]⟩ ⟨2, ![M, N]⟩) (d2 : DotDims ⟨2, ![M, K']⟩ ⟨2, ![K', N]⟩ ⟨2, ![M, N]⟩)
    (hlc : d1.lhsContracting = [1]) (hrc : d1.rhsContracting = [0]) (hln : d1.lhsNonContracting = [0])
    (hrn : d1.rhsNonContracting = [1]) (hlb : d1.lhsBatch = []) (hrb : d1.rhsBatch = [])
    (hlc' : d2.lhsContracting = [1]) (hrc' : d2.rhsContracting = [0]) (hln' : d2.lhsNonContracting = [0])
    (hrn' : d2.rhsNonContracting = [1]) (hlb' : d2.lhsBatch = []) (hrb' : d2.rhsBatch = [])
    (mean : FVec Ideal ⟨2, ![M, K]⟩ .f32) (Wl : FVec Ideal ⟨2, ![K, N]⟩ .f32)
    (dst : FVec Ideal ⟨2, ![M, K']⟩ .f32) (Wr : FVec Ideal ⟨2, ![K', N]⟩ .f32) (b : FVec Ideal ⟨2, ![1, N]⟩ .f32)
    (h1 : FTy.bf16.bits < FTy.f32.bits) (hb : (⟨2, ![1, N]⟩ : Shape).Broadcasts ⟨2, ![M, N]⟩) (p : Fin M) (q : Fin N) :
    maximumf (addf (addf
          (matmul d1 none (truncf .bf16 mean h1) (truncf .bf16 Wl h1) (constant (F := Ideal) ⟨2, ![M, N]⟩ .f32 0x00000000#32))
          (matmul d2 none (truncf .bf16 dst h1) (truncf .bf16 Wr h1) (constant (F := Ideal) ⟨2, ![M, N]⟩ .f32 0x00000000#32)))
        (broadcastTo ⟨2, ![M, N]⟩ b hb))
      (broadcast ⟨2, ![M, N]⟩ (Scalar.ofBits (F := Ideal) .f32 0x00000000#32)) (ix2 p q)
      = max (((∑ k : Fin K, mean (ix2 p k) * Wl (ix2 k q)) + (∑ k : Fin K', dst (ix2 p k) * Wr (ix2 k q))) + b (ix2 (0 : Fin 1) q)) 0 := by
  rw [maximumf_apply, addf_apply, addf_apply,
    Cert.LibMatmulNN.matmul_zero_apply' d1 hlc hrc hln hrn hlb hrb none (truncf .bf16 mean h1) (truncf .bf16 Wl h1) p q,
    Cert.LibMatmulNN.matmul_zero_apply' d2 hlc' hrc' hln' hrn' hlb' hrb' none (truncf .bf16 dst h1) (truncf .bf16 Wr h1) p q,
    broadcastTo_1b_ab_apply b hb p q, broadcast_apply]
  show max _ (Ideal.ofBits .f32 0x00000000#32) = _
  rw [Ideal.ofBits_zero_f32]
  rfl

/-! ## The host expressions -/

/-- A vector reshaped to one row reads, at (0, j), its entry j. -/
theorem rowCast_apply {α : Type} (b : (⟨1, ![N]⟩ : Shape).Idx → α) (h : (⟨1, ![N]⟩ : Shape).ShapeCasts ⟨2, ![1, N]⟩) (j : Fin N) :
    shapeCast ⟨2, ![1, N]⟩ b h (ix2 (0 : Fin 1) j) = b (ix1 j) :=
  shapeCast_apply b h (ix2 (0 : Fin 1) j) (ix1 j) (by
    rw [Shape.rowMajor_val_two, Shape.rowMajor_val_one]; show j.val = 0 * N + j.val; omega)

/-- The host's affine layer (dot_general plus the bias vector broadcast to a row and then over the rows) is the
    affine layer of the bias reshaped to one row. -/
theorem hostAffine_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hc : (⟨1, ![N]⟩ : Shape).ShapeCasts ⟨2, ![1, N]⟩) :
    addf (Host.dotGeneral d none x W)
        (broadcastInDim ⟨2, ![M, N]⟩ (![0, 1] : Fin 2 → Fin 2) h2 (broadcastInDim ⟨2, ![1, N]⟩ (![1] : Fin 1 → Fin 2) h1 b))
      = affineRow x W (shapeCast ⟨2, ![1, N]⟩ b hc) := by
  funext i
  obtain ⟨r, j, rfl⟩ : ∃ (r : Fin M) (j : Fin N), i = ix2 r j := ⟨i 0, i 1, eq_ix2 i⟩
  rw [Cert.LibHostAffine.affine_apply d hlc hrc hln hrn hlb hrb none x W b h1 h2 r j, affineRow_ix2, rowCast_apply]

/-- The host's neighbourhood layer — (mean·Wl + bias) + dst·Wr, then the maximum with the zero constant — is the
    neighbourhood layer of the bias reshaped to one row: the two orders of the three summands agree because addition
    of extended reals is commutative and associative. -/
theorem hostSage_eq (d1 : DotDims ⟨2, ![M, K]⟩ ⟨2, ![K, N]⟩ ⟨2, ![M, N]⟩) (d2 : DotDims ⟨2, ![M, K']⟩ ⟨2, ![K', N]⟩ ⟨2, ![M, N]⟩)
    (hlc : d1.lhsContracting = [1]) (hrc : d1.rhsContracting = [0]) (hln : d1.lhsNonContracting = [0])
    (hrn : d1.rhsNonContracting = [1]) (hlb : d1.lhsBatch = []) (hrb : d1.rhsBatch = [])
    (hlc' : d2.lhsContracting = [1]) (hrc' : d2.rhsContracting = [0]) (hln' : d2.lhsNonContracting = [0])
    (hrn' : d2.rhsNonContracting = [1]) (hlb' : d2.lhsBatch = []) (hrb' : d2.rhsBatch = [])
    (mean : FVec Ideal ⟨2, ![M, K]⟩ .f32) (Wl : FVec Ideal ⟨2, ![K, N]⟩ .f32) (b : FVec Ideal ⟨1, ![N]⟩ .f32)
    (dst : FVec Ideal ⟨2, ![M, K']⟩ .f32) (Wr : FVec Ideal ⟨2, ![K', N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2))
    (hc : (⟨1, ![N]⟩ : Shape).ShapeCasts ⟨2, ![1, N]⟩) :
    maximumf (addf (addf (Host.dotGeneral d1 none mean Wl)
          (broadcastInDim ⟨2, ![M, N]⟩ (![0, 1] : Fin 2 → Fin 2) h2 (broadcastInDim ⟨2, ![1, N]⟩ (![1] : Fin 1 → Fin 2) h1 b)))
        (Host.dotGeneral d2 none dst Wr))
      (broadcastInDim ⟨2, ![M, N]⟩ (![] : Fin 0 → Fin 2) h0 (constant (F := Ideal) ⟨0, ![]⟩ .f32 0x00000000#32))
      = sageRow mean Wl (shapeCast ⟨2, ![1, N]⟩ b hc) dst Wr := by
  funext i
  obtain ⟨r, j, rfl⟩ : ∃ (r : Fin M) (j : Fin N), i = ix2 r j := ⟨i 0, i 1, eq_ix2 i⟩
  rw [Cert.LibHostAffine.relu_apply, addf_apply,
    Cert.LibHostAffine.affine_apply d1 hlc hrc hln hrn hlb hrb none mean Wl b h1 h2 r j, sageRow_ix2, rowCast_apply]
  simp only [Host.dotGeneral]
  rw [Cert.LibDotGeneralNN.dotGeneral_apply d2 hlc' hrc' hln' hrn' hlb' hrb', add_right_comm]

end Cert.LibDenseLayers

end
-- ==== Proof.KTile.lean ====
/-
  The bodies of the five kernels as layer functions.  At the exact instance a product into the zero accumulator is
  the plain sum of products, a change of layout that changes nothing is the identity, and the maximum with the zero
  splat is max(·, 0); so what a graph-convolution body stores is the neighbourhood layer
  max((Σ_k agg(r,k)·Wrel(k,j) + Σ_k x(r,k)·Wroot(k,j)) + b(0,j), 0) of its five blocks, and what the head's body
  stores is four affine layers Σ_k h(r,k)·W(k,j) + b(0,j), the first three followed by max(·, 0).
-/
import proofs.«129706_j63471026700727_2_alg».proof.Proof.Gen.KernelIdeal.Skeleton
import proofs.«129706_j63471026700727_2_alg».proof.Proof.LibDenseLayers
import Idealize.ShloMosaic.Lib.Pipeline.Value
import Idealize.ShloMosaic.Lib.ValueLayout

noncomputable section

open scoped BigOperators

namespace Cert.KernelIdeal.Tile

open Idealize.ShloMosaic Idealize.ShloMosaic.ValueIdx Cert.KernelIdeal Cert.KernelIdeal.Gen Cert.LibDenseLayers

variable {M K K' N : Nat}

/-- max(·, 0) entrywise, as the bodies spell it: the maximum with the splat of the zero word. -/
def reluT (X : FVec Ideal ⟨2, ![M, N]⟩ .f32) : FVec Ideal ⟨2, ![M, N]⟩ .f32 :=
  maximumf X (broadcast ⟨2, ![M, N]⟩ (Scalar.ofBits (F := Ideal) .f32 0x00000000#32))

theorem reluT_ix2 (X : FVec Ideal ⟨2, ![M, N]⟩ .f32) (r : Fin M) (j : Fin N) : reluT X (ix2 r j) = max (X (ix2 r j)) 0 := by
  unfold reluT
  rw [maximumf_apply, broadcast_apply]
  show max _ (Ideal.ofBits .f32 0x00000000#32) = _
  rw [Ideal.ofBits_zero_f32]

/-- A tile of the affine layer, as a whole block. -/
theorem affine_tile (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ .f32) (W : FVec Ideal ⟨2, ![K, N]⟩ .f32) (b : FVec Ideal ⟨2, ![1, N]⟩ .f32)
    (hb : (⟨2, ![1, N]⟩ : Shape).Broadcasts ⟨2, ![M, N]⟩) :
    addf (matmul d prec x W (constant (F := Ideal) ⟨2, ![M, N]⟩ .f32 0x00000000#32)) (broadcastTo ⟨2, ![M, N]⟩ b hb)
      = affineRow x W b := by
  funext i
  obtain ⟨r, j, rfl⟩ : ∃ (r : Fin M) (j : Fin N), i = ix2 r j := ⟨i 0, i 1, eq_ix2 i⟩
  rw [Cert.LibAffineBlock.affine_apply d hlc hrc hln hrn hlb hrb prec x W b hb r j, affineRow_ix2]

/-- A tile of the neighbourhood layer, as a whole block. -/
theorem sage_tile (d1 : DotDims ⟨2, ![M, K]⟩ ⟨2, ![K, N]⟩ ⟨2, ![M, N]⟩) (d2 : DotDims ⟨2, ![M, K']⟩ ⟨2, ![K', N]⟩ ⟨2, ![M, N]⟩)
    (hlc : d1.lhsContracting = [1]) (hrc : d1.rhsContracting = [0]) (hln : d1.lhsNonContracting = [0])
    (hrn : d1.rhsNonContracting = [1]) (hlb : d1.lhsBatch = []) (hrb : d1.rhsBatch = [])
    (hlc' : d2.lhsContracting = [1]) (hrc' : d2.rhsContracting = [0]) (hln' : d2.lhsNonContracting = [0])
    (hrn' : d2.rhsNonContracting = [1]) (hlb' : d2.lhsBatch = []) (hrb' : d2.rhsBatch = [])
    (prec : Option ContractPrecision)
    (mean : FVec Ideal ⟨2, ![M, K]⟩ .f32) (Wl : FVec Ideal ⟨2, ![K, N]⟩ .f32)
    (dst : FVec Ideal ⟨2, ![M, K']⟩ .f32) (Wr : FVec Ideal ⟨2, ![K', N]⟩ .f32) (b : FVec Ideal ⟨2, ![1, N]⟩ .f32)
    (hb : (⟨2, ![1, N]⟩ : Shape).Broadcasts ⟨2, ![M, N]⟩) :
    maximumf (addf (addf
          (matmul d1 prec mean Wl (constant (F := Ideal) ⟨2, ![M, N]⟩ .f32 0x00000000#32))
          (matmul d2 prec dst Wr (constant (F := Ideal) ⟨2, ![M, N]⟩ .f32 0x00000000#32)))
        (broadcastTo ⟨2, ![M, N]⟩ b hb))
      (broadcast ⟨2, ![M, N]⟩ (Scalar.ofBits (F := Ideal) .f32 0x00000000#32))
      = sageRow mean Wl b dst Wr := by
  funext i
  obtain ⟨p, q, rfl⟩ : ∃ (p : Fin M) (q : Fin N), i = ix2 p q := ⟨i 0, i 1, eq_ix2 i⟩
  rw [maximumf_apply, addf_apply, addf_apply,
    Cert.LibMatmulNN.matmul_zero_apply' d1 hlc hrc hln hrn hlb hrb prec mean Wl p q,
    Cert.LibMatmulNN.matmul_zero_apply' d2 hlc' hrc' hln' hrn' hlb' hrb' prec dst Wr p q,
    broadcastTo_1b_ab_apply b hb p q, broadcast_apply, sageRow_ix2]
  show max _ (Ideal.ofBits .f32 0x00000000#32) = _
  rw [Ideal.ofBits_zero_f32]

/-! ## The five bodies -/

/-- The first layer's body (feature width 28). -/
theorem pay0_eq (v0 v2 : Vec Ideal S5000x28 .f32) (v3 v6 : Vec Ideal S28x256 .f32) (v10 : Vec Ideal S1x256 .f32) :
    k0_pay1 (F := Ideal) v0 v2 v3 v6 v10 = sageRow (M := 5000) (K := 28) (K' := 28) (N := 256) v0 v3 v10 v2 v6 := by
  unfold k0_pay1
  simp only [shapeCast_self]
  exact sage_tile dot_S5000x28_S28x256_S5000x256_1_0_0_1_n_n dot_S5000x28_S28x256_S5000x256_1_0_0_1_n_n
    rfl rfl rfl rfl rfl rfl rfl rfl rfl rfl rfl rfl (some .fp32) v0 v3 v2 v6 v10 broadcasts_S1x256_S5000x256

/-- The second layer's body (feature width 256). -/
theorem pay1_eq (v0 v2 : Vec Ideal S5000x256 .f32) (v4 v7 : Vec Ideal S256x256 .f32) (v11 : Vec Ideal S1x256 .f32) :
    k1_pay1 (F := Ideal) v0 v2 v4 v7 v11 = sageRow (M := 5000) (K := 256) (K' := 256) (N := 256) v0 v4 v11 v2 v7 := by
  unfold k1_pay1
  simp only [shapeCast_self]
  exact sage_tile dot_S5000x256_S256x256_S5000x256_1_0_0_1_n_n dot_S5000x256_S256x256_S5000x256_1_0_0_1_n_n
    rfl rfl rfl rfl rfl rfl rfl rfl rfl rfl rfl rfl (some .fp32) v0 v4 v2 v7 v11 broadcasts_S1x256_S5000x256

/-- The third layer's body. -/
theorem pay2_eq (v0 v2 : Vec Ideal S5000x256 .f32) (v4 v7 : Vec Ideal S256x256 .f32) (v11 : Vec Ideal S1x256 .f32) :
    k2_pay1 (F := Ideal) v0 v2 v4 v7 v11 = sageRow (M := 5000) (K := 256) (K' := 256) (N := 256) v0 v4 v11 v2 v7 := by
  unfold k2_pay1
  simp only [shapeCast_self]
  exact sage_tile dot_S5000x256_S256x256_S5000x256_1_0_0_1_n_n dot_S5000x256_S256x256_S5000x256_1_0_0_1_n_n
    rfl rfl rfl rfl rfl rfl rfl rfl rfl rfl rfl rfl (some .fp32) v0 v4 v2 v7 v11 broadcasts_S1x256_S5000x256

/-- The fourth layer's body. -/
theorem pay3_eq (v0 v2 : Vec Ideal S5000x256 .f32) (v4 v7 : Vec Ideal S256x256 .f32) (v11 : Vec Ideal S1x256 .f32) :
    k3_pay1 (F := Ideal) v0 v2 v4 v7 v11 = sageRow (M := 5000) (K := 256) (K' := 256) (N := 256) v0 v4 v11 v2 v7 := by
  unfold k3_pay1
  simp only [shapeCast_self]
  exact sage_tile dot_S5000x256_S256x256_S5000x256_1_0_0_1_n_n dot_S5000x256_S256x256_S5000x256_1_0_0_1_n_n
    rfl rfl rfl rfl rfl rfl rfl rfl rfl rfl rfl rfl (some .fp32) v0 v4 v2 v7 v11 broadcasts_S1x256_S5000x256

/-- The head: three affine layers each followed by max(·, 0), then the last affine layer into 128 lanes. -/
def headOf (g : FVec Ideal ⟨2, ![4096, 1024]⟩ .f32) (W1 : FVec Ideal ⟨2, ![1024, 256]⟩ .f32) (b1 : FVec Ideal ⟨2, ![1, 256]⟩ .f32)
    (W2 : FVec Ideal ⟨2, ![256, 256]⟩ .f32) (b2 : FVec Ideal ⟨2, ![1, 256]⟩ .f32)
    (W3 : FVec Ideal ⟨2, ![256, 256]⟩ .f32) (b3 : FVec Ideal ⟨2, ![1, 256]⟩ .f32)
    (W4 : FVec Ideal ⟨2, ![256, 128]⟩ .f32) (b4 : FVec Ideal ⟨2, ![1, 128]⟩ .f32) : FVec Ideal ⟨2, ![4096, 128]⟩ .f32 :=
  affineRow (reluT (affineRow (reluT (affineRow (reluT (affineRow g W1 b1)) W2 b2)) W3 b3)) W4 b4

/-- One hidden layer of the head as a block: the affine layer followed by max(·, 0). -/
theorem hidden_tile (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ .f32) (W : FVec Ideal ⟨2, ![K, N]⟩ .f32) (b : FVec Ideal ⟨2, ![1, N]⟩ .f32)
    (hb : (⟨2, ![1, N]⟩ : Shape).Broadcasts ⟨2, ![M, N]⟩) :
    maximumf (addf (matmul d prec x W (constant (F := Ideal) ⟨2, ![M, N]⟩ .f32 0x00000000#32)) (broadcastTo ⟨2, ![M, N]⟩ b hb))
        (broadcast ⟨2, ![M, N]⟩ (Scalar.ofBits (F := Ideal) .f32 0x00000000#32))
      = reluT (affineRow x W b) := by
  unfold reluT
  rw [affine_tile d hlc hrc hln hrn hlb hrb prec x W b hb]

/-- The first hidden layer of the head over its printed record. -/
theorem hid1 (v0 : FVec Ideal S4096x1024 .f32) (v2 : FVec Ideal S1024x256 .f32) (v5 : FVec Ideal S1x256 .f32) :
    maximumf (addf (matmul dot_S4096x1024_S1024x256_S4096x256_1_0_0_1_n_n (some .fp32) v0 v2 (constant (F := Ideal) S4096x256 .f32 0x00000000#32))
        (broadcastTo S4096x256 v5 broadcasts_S1x256_S4096x256)) (broadcast S4096x256 (Scalar.ofBits (F := Ideal) .f32 0x00000000#32))
      = reluT (M := 4096) (N := 256) (affineRow (M := 4096) (K := 1024) (N := 256) v0 v2 v5) :=
  hidden_tile dot_S4096x1024_S1024x256_S4096x256_1_0_0_1_n_n rfl rfl rfl rfl rfl rfl (some .fp32) v0 v2 v5 broadcasts_S1x256_S4096x256

/-- A later hidden layer of the head over its printed record. -/
theorem hid2 (h : FVec Ideal S4096x256 .f32) (W : FVec Ideal S256x256 .f32) (b : FVec Ideal S1x256 .f32) :
    maximumf (addf (matmul dot_S4096x256_S256x256_S4096x256_1_0_0_1_n_n (some .fp32) h W (constant (F := Ideal) S4096x256 .f32 0x00000000#32))
        (broadcastTo S4096x256 b broadcasts_S1x256_S4096x256)) (broadcast S4096x256 (Scalar.ofBits (F := Ideal) .f32 0x00000000#32))
      = reluT (M := 4096) (N := 256) (affineRow (M := 4096) (K := 256) (N := 256) h W b) :=
  hidden_tile dot_S4096x256_S256x256_S4096x256_1_0_0_1_n_n rfl rfl rfl rfl rfl rfl (some .fp32) h W b broadcasts_S1x256_S4096x256

/-- The last layer of the head over its printed record. -/
theorem out4 (h : FVec Ideal S4096x256 .f32) (W : FVec Ideal S256x128 .f32) (b : FVec Ideal S1x128 .f32) :
    addf (matmul dot_S4096x256_S256x128_S4096x128_1_0_0_1_n_n (some .fp32) h W (constant (F := Ideal) S4096x128 .f32 0x00000000#32))
        (broadcastTo S4096x128 b broadcasts_S1x128_S4096x128)
      = affineRow (M := 4096) (K := 256) (N := 128) h W b :=
  affine_tile dot_S4096x256_S256x128_S4096x128_1_0_0_1_n_n rfl rfl rfl rfl rfl rfl (some .fp32) h W b broadcasts_S1x128_S4096x128

theorem pay4_eq (v0 : Vec Ideal S4096x1024 .f32) (v2 : Vec Ideal S1024x256 .f32) (v5 : Vec Ideal S1x256 .f32)
    (v11 : Vec Ideal S256x256 .f32) (v14 : Vec Ideal S1x256 .f32) (v20 : Vec Ideal S256x256 .f32) (v23 : Vec Ideal S1x256 .f32)
    (v29 : Vec Ideal S256x128 .f32) (v32 : Vec Ideal S1x128 .f32) :
    k4_pay1 (F := Ideal) (k4_pay2 (F := Ideal) v0 v2 v5 v11 v14 v20 v23 v29) (k4_pay3 (F := Ideal) v32)
      = headOf v0 v2 v5 v11 v14 v20 v23 v29 v32 := by
  unfold k4_pay1 k4_pay2 k4_pay3 headOf
  simp only [shapeCast_self]
  rw [hid1 v0 v2 v5, hid2 _ v11 v14, hid2 _ v20 v23, out4 _ v29 v32]

end Cert.KernelIdeal.Tile

end
-- ==== Proof.KFinal0.lean ====
/-
  Region 0 (a graph-convolution layer): from blocks to the whole array.  Point t of the grid stores rows
  5000·t … 5000·t + 4999 of the layer; an entry (r, j) of the layer depends only on row r of the aggregate and of the
  node features and on the two weight matrices and the bias row, which every point holds whole.  So what point t
  writes back is block t of the layer function of the whole arrays, the twenty blocks tile the array, and the array
  the region leaves is the layer of the arrays it was entered with.
-/
import proofs.«129706_j63471026700727_2_alg».proof.Proof.IRegion0
import proofs.«129706_j63471026700727_2_alg».proof.Proof.KTile
import Idealize.ShloMosaic.Lib.Pipeline.Value

set_option maxRecDepth 16384

noncomputable section

open scoped BigOperators

namespace Cert.KernelIdeal.Val

open Cert.KernelIdeal Cert.KernelIdeal.Gen Cert.KernelIdeal.Fr Cert.LibDenseLayers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- What the body leaves in the output buffer is the layer of its five blocks. -/
theorem out0_eq (x0 x1 : Vec Ideal S5000x28 .f32) (x2 x4 : Vec Ideal S28x256 .f32) (x3 : Vec Ideal S1x256 .f32) :
    out0_5 (F := Ideal) x0 x1 x2 x3 x4 = sageRow (M := 5000) (K := 28) (K' := 28) (N := 256) x0 x2 x3 x1 x4 := by
  unfold out0_5
  rw [View.canon_unit_zero hz0]
  simp only [View.ld_unit_zero (S := S5000x28) hz0, View.ld_unit_zero (S := S28x256) hz0, View.ld_unit_zero (S := S1x256) hz0]
  exact Tile.pay0_eq x0 x1 x2 x4 x3

/-- The printed index maps over the grid: the two row-blocked inputs move with the output, the three whole
    operands stay at block (0, 0), and the output's block row is the point's number. -/
theorem idx0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) = t.val :=
  (by decide +kernel : ∀ t : Fin grid0.N, _)

/-- What point t writes back is block t of the layer of the arrays the region was entered with. -/
theorem flushed0_eq (c : Dev nD) (t : Fin cfg0.N) :
    (dat0 V c).flushed 5 t = ((cfg0.win 5).blk t).view.read (Elt Ideal)
      (sageRow (M := 100000) (K := 28) (K' := 28) (N := 256) (V c main_v21) (V c main_v4) (V c main_v22) (V c main_arg0) (V c main_v5)) := by
  show (cfg0.win 5).cut (grid0.coords t) ((dat0 V c).after 5 t) = _
  rw [after0_5]
  refine (congrArg ((cfg0.win 5).cut (grid0.coords t)) (out0_eq _ _ _ _ _)).trans ?_
  obtain ⟨e00, e01, e10, e11, e20, e21, e30, e31, e40, e41, e51, e50⟩ := idx0 t
  funext j
  show sageRow (M := 5000) (K := 28) (K' := 28) (N := 256) (iblk0 V c 0 t) (iblk0 V c 2 t) (iblk0 V c 3 t) (iblk0 V c 1 t) (iblk0 V c 4 t) j
    = sageRow (M := 100000) (K := 28) (K' := 28) (N := 256) (V c main_v21) (V c main_v4) (V c main_v22) (V c main_arg0) (V c main_v5) (((cfg0.win 5).blk t).view.emb j)
  have hj0 : (j 0).val < 5000 := (j 0).isLt
  have hj1 : (j 1).val < 256 := (j 1).isLt
  unfold sageRow
  dsimp only
  refine congrArg₂ max (congrArg₂ (· + ·) (congrArg₂ (· + ·)
    (Finset.sum_congr rfl fun k _ => congrArg₂ (· * ·) ?_ ?_) (Finset.sum_congr rfl fun k _ => congrArg₂ (· * ·) ?_ ?_)) ?_) rfl
  · show V c main_v21 (((cfg0.win 0).blk t).view.emb (ix2 (j 0) k)) = V c main_v21 (ix2 ((((cfg0.win 5).blk t).view.emb j) 0) k)
    refine congrArg (V c main_v21) ?_
    funext a; apply Fin.ext
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 28 + 1 * k.val = k.val; omega
  · show V c main_v4 (((cfg0.win 2).blk t).view.emb (ix2 k (j 1))) = V c main_v4 (ix2 k ((((cfg0.win 5).blk t).view.emb j) 1))
    refine congrArg (V c main_v4) ?_
    funext a; apply Fin.ext
    match a with
    | ⟨0, _⟩ => show win0_2.index t (0 : Fin 2) * 28 + 1 * k.val = k.val; omega
    | ⟨1, _⟩ => show win0_2.index t (1 : Fin 2) * 256 + 1 * (j 1).val = win0_5.index t (1 : Fin 2) * 256 + 1 * (j 1).val; omega
  · show V c main_arg0 (((cfg0.win 1).blk t).view.emb (ix2 (j 0) k)) = V c main_arg0 (ix2 ((((cfg0.win 5).blk t).view.emb j) 0) k)
    refine congrArg (V c main_arg0) ?_
    funext a; apply Fin.ext
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 28 + 1 * k.val = k.val; omega
  · show V c main_v5 (((cfg0.win 4).blk t).view.emb (ix2 k (j 1))) = V c main_v5 (ix2 k ((((cfg0.win 5).blk t).view.emb j) 1))
    refine congrArg (V c main_v5) ?_
    funext a; apply Fin.ext
    match a with
    | ⟨0, _⟩ => show win0_4.index t (0 : Fin 2) * 28 + 1 * k.val = k.val; omega
    | ⟨1, _⟩ => show win0_4.index t (1 : Fin 2) * 256 + 1 * (j 1).val = win0_5.index t (1 : Fin 2) * 256 + 1 * (j 1).val; omega
  · show V c main_v22 (((cfg0.win 3).blk t).view.emb (ix2 (0 : Fin 1) (j 1))) = V c main_v22 (ix2 (0 : Fin 1) ((((cfg0.win 5).blk t).view.emb j) 1))
    refine congrArg (V c main_v22) ?_
    funext a; apply Fin.ext
    match a with
    | ⟨0, _⟩ => show win0_3.index t (0 : Fin 2) * 1 + 1 * 0 = 0; omega
    | ⟨1, _⟩ => show win0_3.index t (1 : Fin 2) * 256 + 1 * (j 1).val = win0_5.index t (1 : Fin 2) * 256 + 1 * (j 1).val; omega

/-- An index of the output array is in point t's block iff each coordinate is in the block's range. -/
theorem mem_blk0 (t : Fin cfg0.N) (i : S100000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v23).slice (win0_5.rect t)).set ↔ _
  rw [View.set_slice_whole, Rect.mem_set_unit]
  exact Iff.rfl

/-- Row r lies in the block of point r / 5000. -/
theorem cover0 (i : S100000x256.Idx) : ∃ t : Fin cfg0.N, (cfg0.win 5).flush t = true ∧ i ∈ ((cfg0.win 5).blk t).view.set := by
  have hi0 : (i 0).val < 100000 := (i 0).isLt
  have hi1 : (i 1).val < 256 := (i 1).isLt
  have hN : grid0.N = 20 := N_0
  have ht : (i 0).val / 5000 < grid0.N := by rw [hN]; omega
  refine ⟨⟨(i 0).val / 5000, ht⟩, flush0_5 _, ?_⟩
  rw [mem_blk0]
  obtain ⟨-, -, -, -, -, -, -, -, -, -, e51, e50⟩ := idx0 ⟨(i 0).val / 5000, ht⟩
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 256 ≤ (i 1).val ∧ (i 1).val < win0_5.index ⟨(i 0).val / 5000, ht⟩ (1 : Fin 2) * 256 + 256
    rw [e51]; omega

/-- THE ARRAY the region leaves: the layer of the arrays it was entered with. -/
theorem final0 (c : Dev nD) :
    (dat0 V c).arrAt 5 cfg0.N
      = sageRow (M := 100000) (K := 28) (K' := 28) (N := 256) (V c main_v21) (V c main_v4) (V c main_v22) (V c main_arg0) (V c main_v5) :=
  (dat0 V c).arrAt_eq_of_cover 5 _ (fun t _ => flushed0_eq V c t) (cover0)

end Cert.KernelIdeal.Val

end
-- ==== Proof.KFinal1.lean ====
/-
  Region 1 (a graph-convolution layer): from blocks to the whole array.  Point t of the grid stores rows
  5000·t … 5000·t + 4999 of the layer; an entry (r, j) of the layer depends only on row r of the aggregate and of the
  node features and on the two weight matrices and the bias row, which every point holds whole.  So what point t
  writes back is block t of the layer function of the whole arrays, the twenty blocks tile the array, and the array
  the region leaves is the layer of the arrays it was entered with.
-/
import proofs.«129706_j63471026700727_2_alg».proof.Proof.IRegion1
import proofs.«129706_j63471026700727_2_alg».proof.Proof.KTile
import Idealize.ShloMosaic.Lib.Pipeline.Value

set_option maxRecDepth 16384

noncomputable section

open scoped BigOperators

namespace Cert.KernelIdeal.Val

open Cert.KernelIdeal Cert.KernelIdeal.Gen Cert.KernelIdeal.Fr Cert.LibDenseLayers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- What the body leaves in the output buffer is the layer of its five blocks. -/
theorem out1_eq (x0 x1 : Vec Ideal S5000x256 .f32) (x2 x4 : Vec Ideal S256x256 .f32) (x3 : Vec Ideal S1x256 .f32) :
    out1_5 (F := Ideal) x0 x1 x2 x3 x4 = sageRow (M := 5000) (K := 256) (K' := 256) (N := 256) x0 x2 x3 x1 x4 := by
  unfold out1_5
  rw [View.canon_unit_zero hz1]
  simp only [View.ld_unit_zero (S := S5000x256) hz1, View.ld_unit_zero (S := S256x256) hz1, View.ld_unit_zero (S := S1x256) hz1]
  exact Tile.pay1_eq x0 x1 x2 x4 x3

/-- The printed index maps over the grid: the two row-blocked inputs move with the output, the three whole
    operands stay at block (0, 0), and the output's block row is the point's number. -/
theorem idx1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) = t.val :=
  (by decide +kernel : ∀ t : Fin grid1.N, _)

/-- What point t writes back is block t of the layer of the arrays the region was entered with. -/
theorem flushed1_eq (c : Dev nD) (t : Fin cfg1.N) :
    (dat1 V c).flushed 5 t = ((cfg1.win 5).blk t).view.read (Elt Ideal)
      (sageRow (M := 100000) (K := 256) (K' := 256) (N := 256) (V c main_v33) (V c main_v6) (V c main_v34) (V c main_v23) (V c main_v7)) := by
  show (cfg1.win 5).cut (grid1.coords t) ((dat1 V c).after 5 t) = _
  rw [after1_5]
  refine (congrArg ((cfg1.win 5).cut (grid1.coords t)) (out1_eq _ _ _ _ _)).trans ?_
  obtain ⟨e00, e01, e10, e11, e20, e21, e30, e31, e40, e41, e51, e50⟩ := idx1 t
  funext j
  show sageRow (M := 5000) (K := 256) (K' := 256) (N := 256) (iblk1 V c 0 t) (iblk1 V c 2 t) (iblk1 V c 3 t) (iblk1 V c 1 t) (iblk1 V c 4 t) j
    = sageRow (M := 100000) (K := 256) (K' := 256) (N := 256) (V c main_v33) (V c main_v6) (V c main_v34) (V c main_v23) (V c main_v7) (((cfg1.win 5).blk t).view.emb j)
  have hj0 : (j 0).val < 5000 := (j 0).isLt
  have hj1 : (j 1).val < 256 := (j 1).isLt
  unfold sageRow
  dsimp only
  refine congrArg₂ max (congrArg₂ (· + ·) (congrArg₂ (· + ·)
    (Finset.sum_congr rfl fun k _ => congrArg₂ (· * ·) ?_ ?_) (Finset.sum_congr rfl fun k _ => congrArg₂ (· * ·) ?_ ?_)) ?_) rfl
  · show V c main_v33 (((cfg1.win 0).blk t).view.emb (ix2 (j 0) k)) = V c main_v33 (ix2 ((((cfg1.win 5).blk t).view.emb j) 0) k)
    refine congrArg (V c main_v33) ?_
    funext a; apply Fin.ext
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 256 + 1 * k.val = k.val; omega
  · show V c main_v6 (((cfg1.win 2).blk t).view.emb (ix2 k (j 1))) = V c main_v6 (ix2 k ((((cfg1.win 5).blk t).view.emb j) 1))
    refine congrArg (V c main_v6) ?_
    funext a; apply Fin.ext
    match a with
    | ⟨0, _⟩ => show win1_2.index t (0 : Fin 2) * 256 + 1 * k.val = k.val; omega
    | ⟨1, _⟩ => show win1_2.index t (1 : Fin 2) * 256 + 1 * (j 1).val = win1_5.index t (1 : Fin 2) * 256 + 1 * (j 1).val; omega
  · show V c main_v23 (((cfg1.win 1).blk t).view.emb (ix2 (j 0) k)) = V c main_v23 (ix2 ((((cfg1.win 5).blk t).view.emb j) 0) k)
    refine congrArg (V c main_v23) ?_
    funext a; apply Fin.ext
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 256 + 1 * k.val = k.val; omega
  · show V c main_v7 (((cfg1.win 4).blk t).view.emb (ix2 k (j 1))) = V c main_v7 (ix2 k ((((cfg1.win 5).blk t).view.emb j) 1))
    refine congrArg (V c main_v7) ?_
    funext a; apply Fin.ext
    match a with
    | ⟨0, _⟩ => show win1_4.index t (0 : Fin 2) * 256 + 1 * k.val = k.val; omega
    | ⟨1, _⟩ => show win1_4.index t (1 : Fin 2) * 256 + 1 * (j 1).val = win1_5.index t (1 : Fin 2) * 256 + 1 * (j 1).val; omega
  · show V c main_v34 (((cfg1.win 3).blk t).view.emb (ix2 (0 : Fin 1) (j 1))) = V c main_v34 (ix2 (0 : Fin 1) ((((cfg1.win 5).blk t).view.emb j) 1))
    refine congrArg (V c main_v34) ?_
    funext a; apply Fin.ext
    match a with
    | ⟨0, _⟩ => show win1_3.index t (0 : Fin 2) * 1 + 1 * 0 = 0; omega
    | ⟨1, _⟩ => show win1_3.index t (1 : Fin 2) * 256 + 1 * (j 1).val = win1_5.index t (1 : Fin 2) * 256 + 1 * (j 1).val; omega

/-- An index of the output array is in point t's block iff each coordinate is in the block's range. -/
theorem mem_blk1 (t : Fin cfg1.N) (i : S100000x256.Idx) :
    i ∈ ((cfg1.win 5).blk t).view.set ↔ ∀ a : Fin 2, win1_5.index t a * S5000x256.size a ≤ (i a).val ∧ (i a).val < win1_5.index t a * S5000x256.size a + S5000x256.size a := by
  show i ∈ ((View.whole main_v35).slice (win1_5.rect t)).set ↔ _
  rw [View.set_slice_whole, Rect.mem_set_unit]
  exact Iff.rfl

/-- Row r lies in the block of point r / 5000. -/
theorem cover1 (i : S100000x256.Idx) : ∃ t : Fin cfg1.N, (cfg1.win 5).flush t = true ∧ i ∈ ((cfg1.win 5).blk t).view.set := by
  have hi0 : (i 0).val < 100000 := (i 0).isLt
  have hi1 : (i 1).val < 256 := (i 1).isLt
  have hN : grid1.N = 20 := N_1
  have ht : (i 0).val / 5000 < grid1.N := by rw [hN]; omega
  refine ⟨⟨(i 0).val / 5000, ht⟩, flush1_5 _, ?_⟩
  rw [mem_blk1]
  obtain ⟨-, -, -, -, -, -, -, -, -, -, e51, e50⟩ := idx1 ⟨(i 0).val / 5000, ht⟩
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 256 ≤ (i 1).val ∧ (i 1).val < win1_5.index ⟨(i 0).val / 5000, ht⟩ (1 : Fin 2) * 256 + 256
    rw [e51]; omega

/-- THE ARRAY the region leaves: the layer of the arrays it was entered with. -/
theorem final1 (c : Dev nD) :
    (dat1 V c).arrAt 5 cfg1.N
      = sageRow (M := 100000) (K := 256) (K' := 256) (N := 256) (V c main_v33) (V c main_v6) (V c main_v34) (V c main_v23) (V c main_v7) :=
  (dat1 V c).arrAt_eq_of_cover 5 _ (fun t _ => flushed1_eq V c t) (cover1)

end Cert.KernelIdeal.Val

end
-- ==== Proof.KFinal2.lean ====
/-
  Region 2 (a graph-convolution layer): from blocks to the whole array.  Point t of the grid stores rows
  5000·t … 5000·t + 4999 of the layer; an entry (r, j) of the layer depends only on row r of the aggregate and of the
  node features and on the two weight matrices and the bias row, which every point holds whole.  So what point t
  writes back is block t of the layer function of the whole arrays, the twenty blocks tile the array, and the array
  the region leaves is the layer of the arrays it was entered with.
-/
import proofs.«129706_j63471026700727_2_alg».proof.Proof.IRegion2
import proofs.«129706_j63471026700727_2_alg».proof.Proof.KTile
import Idealize.ShloMosaic.Lib.Pipeline.Value

set_option maxRecDepth 16384

noncomputable section

open scoped BigOperators

namespace Cert.KernelIdeal.Val

open Cert.KernelIdeal Cert.KernelIdeal.Gen Cert.KernelIdeal.Fr Cert.LibDenseLayers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- What the body leaves in the output buffer is the layer of its five blocks. -/
theorem out2_eq (x0 x1 : Vec Ideal S5000x256 .f32) (x2 x4 : Vec Ideal S256x256 .f32) (x3 : Vec Ideal S1x256 .f32) :
    out2_5 (F := Ideal) x0 x1 x2 x3 x4 = sageRow (M := 5000) (K := 256) (K' := 256) (N := 256) x0 x2 x3 x1 x4 := by
  unfold out2_5
  rw [View.canon_unit_zero hz2]
  simp only [View.ld_unit_zero (S := S5000x256) hz2, View.ld_unit_zero (S := S256x256) hz2, View.ld_unit_zero (S := S1x256) hz2]
  exact Tile.pay2_eq x0 x1 x2 x4 x3

/-- The printed index maps over the grid: the two row-blocked inputs move with the output, the three whole
    operands stay at block (0, 0), and the output's block row is the point's number. -/
theorem idx2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) = t.val :=
  (by decide +kernel : ∀ t : Fin grid2.N, _)

/-- What point t writes back is block t of the layer of the arrays the region was entered with. -/
theorem flushed2_eq (c : Dev nD) (t : Fin cfg2.N) :
    (dat2 V c).flushed 5 t = ((cfg2.win 5).blk t).view.read (Elt Ideal)
      (sageRow (M := 100000) (K := 256) (K' := 256) (N := 256) (V c main_v45) (V c main_v8) (V c main_v46) (V c main_v35) (V c main_v9)) := by
  show (cfg2.win 5).cut (grid2.coords t) ((dat2 V c).after 5 t) = _
  rw [after2_5]
  refine (congrArg ((cfg2.win 5).cut (grid2.coords t)) (out2_eq _ _ _ _ _)).trans ?_
  obtain ⟨e00, e01, e10, e11, e20, e21, e30, e31, e40, e41, e51, e50⟩ := idx2 t
  funext j
  show sageRow (M := 5000) (K := 256) (K' := 256) (N := 256) (iblk2 V c 0 t) (iblk2 V c 2 t) (iblk2 V c 3 t) (iblk2 V c 1 t) (iblk2 V c 4 t) j
    = sageRow (M := 100000) (K := 256) (K' := 256) (N := 256) (V c main_v45) (V c main_v8) (V c main_v46) (V c main_v35) (V c main_v9) (((cfg2.win 5).blk t).view.emb j)
  have hj0 : (j 0).val < 5000 := (j 0).isLt
  have hj1 : (j 1).val < 256 := (j 1).isLt
  unfold sageRow
  dsimp only
  refine congrArg₂ max (congrArg₂ (· + ·) (congrArg₂ (· + ·)
    (Finset.sum_congr rfl fun k _ => congrArg₂ (· * ·) ?_ ?_) (Finset.sum_congr rfl fun k _ => congrArg₂ (· * ·) ?_ ?_)) ?_) rfl
  · show V c main_v45 (((cfg2.win 0).blk t).view.emb (ix2 (j 0) k)) = V c main_v45 (ix2 ((((cfg2.win 5).blk t).view.emb j) 0) k)
    refine congrArg (V c main_v45) ?_
    funext a; apply Fin.ext
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 256 + 1 * k.val = k.val; omega
  · show V c main_v8 (((cfg2.win 2).blk t).view.emb (ix2 k (j 1))) = V c main_v8 (ix2 k ((((cfg2.win 5).blk t).view.emb j) 1))
    refine congrArg (V c main_v8) ?_
    funext a; apply Fin.ext
    match a with
    | ⟨0, _⟩ => show win2_2.index t (0 : Fin 2) * 256 + 1 * k.val = k.val; omega
    | ⟨1, _⟩ => show win2_2.index t (1 : Fin 2) * 256 + 1 * (j 1).val = win2_5.index t (1 : Fin 2) * 256 + 1 * (j 1).val; omega
  · show V c main_v35 (((cfg2.win 1).blk t).view.emb (ix2 (j 0) k)) = V c main_v35 (ix2 ((((cfg2.win 5).blk t).view.emb j) 0) k)
    refine congrArg (V c main_v35) ?_
    funext a; apply Fin.ext
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 256 + 1 * k.val = k.val; omega
  · show V c main_v9 (((cfg2.win 4).blk t).view.emb (ix2 k (j 1))) = V c main_v9 (ix2 k ((((cfg2.win 5).blk t).view.emb j) 1))
    refine congrArg (V c main_v9) ?_
    funext a; apply Fin.ext
    match a with
    | ⟨0, _⟩ => show win2_4.index t (0 : Fin 2) * 256 + 1 * k.val = k.val; omega
    | ⟨1, _⟩ => show win2_4.index t (1 : Fin 2) * 256 + 1 * (j 1).val = win2_5.index t (1 : Fin 2) * 256 + 1 * (j 1).val; omega
  · show V c main_v46 (((cfg2.win 3).blk t).view.emb (ix2 (0 : Fin 1) (j 1))) = V c main_v46 (ix2 (0 : Fin 1) ((((cfg2.win 5).blk t).view.emb j) 1))
    refine congrArg (V c main_v46) ?_
    funext a; apply Fin.ext
    match a with
    | ⟨0, _⟩ => show win2_3.index t (0 : Fin 2) * 1 + 1 * 0 = 0; omega
    | ⟨1, _⟩ => show win2_3.index t (1 : Fin 2) * 256 + 1 * (j 1).val = win2_5.index t (1 : Fin 2) * 256 + 1 * (j 1).val; omega

/-- An index of the output array is in point t's block iff each coordinate is in the block's range. -/
theorem mem_blk2 (t : Fin cfg2.N) (i : S100000x256.Idx) :
    i ∈ ((cfg2.win 5).blk t).view.set ↔ ∀ a : Fin 2, win2_5.index t a * S5000x256.size a ≤ (i a).val ∧ (i a).val < win2_5.index t a * S5000x256.size a + S5000x256.size a := by
  show i ∈ ((View.whole main_v47).slice (win2_5.rect t)).set ↔ _
  rw [View.set_slice_whole, Rect.mem_set_unit]
  exact Iff.rfl

/-- Row r lies in the block of point r / 5000. -/
theorem cover2 (i : S100000x256.Idx) : ∃ t : Fin cfg2.N, (cfg2.win 5).flush t = true ∧ i ∈ ((cfg2.win 5).blk t).view.set := by
  have hi0 : (i 0).val < 100000 := (i 0).isLt
  have hi1 : (i 1).val < 256 := (i 1).isLt
  have hN : grid2.N = 20 := N_2
  have ht : (i 0).val / 5000 < grid2.N := by rw [hN]; omega
  refine ⟨⟨(i 0).val / 5000, ht⟩, flush2_5 _, ?_⟩
  rw [mem_blk2]
  obtain ⟨-, -, -, -, -, -, -, -, -, -, e51, e50⟩ := idx2 ⟨(i 0).val / 5000, ht⟩
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, ht⟩ (1 : Fin 2) * 256 ≤ (i 1).val ∧ (i 1).val < win2_5.index ⟨(i 0).val / 5000, ht⟩ (1 : Fin 2) * 256 + 256
    rw [e51]; omega

/-- THE ARRAY the region leaves: the layer of the arrays it was entered with. -/
theorem final2 (c : Dev nD) :
    (dat2 V c).arrAt 5 cfg2.N
      = sageRow (M := 100000) (K := 256) (K' := 256) (N := 256) (V c main_v45) (V c main_v8) (V c main_v46) (V c main_v35) (V c main_v9) :=
  (dat2 V c).arrAt_eq_of_cover 5 _ (fun t _ => flushed2_eq V c t) (cover2)

end Cert.KernelIdeal.Val

end
-- ==== Proof.KFinal3.lean ====
/-
  Region 3 (a graph-convolution layer): from blocks to the whole array.  Point t of the grid stores rows
  5000·t … 5000·t + 4999 of the layer; an entry (r, j) of the layer depends only on row r of the aggregate and of the
  node features and on the two weight matrices and the bias row, which every point holds whole.  So what point t
  writes back is block t of the layer function of the whole arrays, the twenty blocks tile the array, and the array
  the region leaves is the layer of the arrays it was entered with.
-/
import proofs.«129706_j63471026700727_2_alg».proof.Proof.IRegion3
import proofs.«129706_j63471026700727_2_alg».proof.Proof.KTile
import Idealize.ShloMosaic.Lib.Pipeline.Value

set_option maxRecDepth 16384

noncomputable section

open scoped BigOperators

namespace Cert.KernelIdeal.Val

open Cert.KernelIdeal Cert.KernelIdeal.Gen Cert.KernelIdeal.Fr Cert.LibDenseLayers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- What the body leaves in the output buffer is the layer of its five blocks. -/
theorem out3_eq (x0 x1 : Vec Ideal S5000x256 .f32) (x2 x4 : Vec Ideal S256x256 .f32) (x3 : Vec Ideal S1x256 .f32) :
    out3_5 (F := Ideal) x0 x1 x2 x3 x4 = sageRow (M := 5000) (K := 256) (K' := 256) (N := 256) x0 x2 x3 x1 x4 := by
  unfold out3_5
  rw [View.canon_unit_zero hz3]
  simp only [View.ld_unit_zero (S := S5000x256) hz3, View.ld_unit_zero (S := S256x256) hz3, View.ld_unit_zero (S := S1x256) hz3]
  exact Tile.pay3_eq x0 x1 x2 x4 x3

/-- The printed index maps over the grid: the two row-blocked inputs move with the output, the three whole
    operands stay at block (0, 0), and the output's block row is the point's number. -/
theorem idx3 : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 ∧ win3_5.index t (0 : Fin 2) = t.val :=
  (by decide +kernel : ∀ t : Fin grid3.N, _)

/-- What point t writes back is block t of the layer of the arrays the region was entered with. -/
theorem flushed3_eq (c : Dev nD) (t : Fin cfg3.N) :
    (dat3 V c).flushed 5 t = ((cfg3.win 5).blk t).view.read (Elt Ideal)
      (sageRow (M := 100000) (K := 256) (K' := 256) (N := 256) (V c main_v57) (V c main_v10) (V c main_v58) (V c main_v47) (V c main_v11)) := by
  show (cfg3.win 5).cut (grid3.coords t) ((dat3 V c).after 5 t) = _
  rw [after3_5]
  refine (congrArg ((cfg3.win 5).cut (grid3.coords t)) (out3_eq _ _ _ _ _)).trans ?_
  obtain ⟨e00, e01, e10, e11, e20, e21, e30, e31, e40, e41, e51, e50⟩ := idx3 t
  funext j
  show sageRow (M := 5000) (K := 256) (K' := 256) (N := 256) (iblk3 V c 0 t) (iblk3 V c 2 t) (iblk3 V c 3 t) (iblk3 V c 1 t) (iblk3 V c 4 t) j
    = sageRow (M := 100000) (K := 256) (K' := 256) (N := 256) (V c main_v57) (V c main_v10) (V c main_v58) (V c main_v47) (V c main_v11) (((cfg3.win 5).blk t).view.emb j)
  have hj0 : (j 0).val < 5000 := (j 0).isLt
  have hj1 : (j 1).val < 256 := (j 1).isLt
  unfold sageRow
  dsimp only
  refine congrArg₂ max (congrArg₂ (· + ·) (congrArg₂ (· + ·)
    (Finset.sum_congr rfl fun k _ => congrArg₂ (· * ·) ?_ ?_) (Finset.sum_congr rfl fun k _ => congrArg₂ (· * ·) ?_ ?_)) ?_) rfl
  · show V c main_v57 (((cfg3.win 0).blk t).view.emb (ix2 (j 0) k)) = V c main_v57 (ix2 ((((cfg3.win 5).blk t).view.emb j) 0) k)
    refine congrArg (V c main_v57) ?_
    funext a; apply Fin.ext
    match a with
    | ⟨0, _⟩ => show win3_0.index t (0 : Fin 2) * 5000 + 1 * (j 0).val = win3_5.index t (0 : Fin 2) * 5000 + 1 * (j 0).val; omega
    | ⟨1, _⟩ => show win3_0.index t (1 : Fin 2) * 256 + 1 * k.val = k.val; omega
  · show V c main_v10 (((cfg3.win 2).blk t).view.emb (ix2 k (j 1))) = V c main_v10 (ix2 k ((((cfg3.win 5).blk t).view.emb j) 1))
    refine congrArg (V c main_v10) ?_
    funext a; apply Fin.ext
    match a with
    | ⟨0, _⟩ => show win3_2.index t (0 : Fin 2) * 256 + 1 * k.val = k.val; omega
    | ⟨1, _⟩ => show win3_2.index t (1 : Fin 2) * 256 + 1 * (j 1).val = win3_5.index t (1 : Fin 2) * 256 + 1 * (j 1).val; omega
  · show V c main_v47 (((cfg3.win 1).blk t).view.emb (ix2 (j 0) k)) = V c main_v47 (ix2 ((((cfg3.win 5).blk t).view.emb j) 0) k)
    refine congrArg (V c main_v47) ?_
    funext a; apply Fin.ext
    match a with
    | ⟨0, _⟩ => show win3_1.index t (0 : Fin 2) * 5000 + 1 * (j 0).val = win3_5.index t (0 : Fin 2) * 5000 + 1 * (j 0).val; omega
    | ⟨1, _⟩ => show win3_1.index t (1 : Fin 2) * 256 + 1 * k.val = k.val; omega
  · show V c main_v11 (((cfg3.win 4).blk t).view.emb (ix2 k (j 1))) = V c main_v11 (ix2 k ((((cfg3.win 5).blk t).view.emb j) 1))
    refine congrArg (V c main_v11) ?_
    funext a; apply Fin.ext
    match a with
    | ⟨0, _⟩ => show win3_4.index t (0 : Fin 2) * 256 + 1 * k.val = k.val; omega
    | ⟨1, _⟩ => show win3_4.index t (1 : Fin 2) * 256 + 1 * (j 1).val = win3_5.index t (1 : Fin 2) * 256 + 1 * (j 1).val; omega
  · show V c main_v58 (((cfg3.win 3).blk t).view.emb (ix2 (0 : Fin 1) (j 1))) = V c main_v58 (ix2 (0 : Fin 1) ((((cfg3.win 5).blk t).view.emb j) 1))
    refine congrArg (V c main_v58) ?_
    funext a; apply Fin.ext
    match a with
    | ⟨0, _⟩ => show win3_3.index t (0 : Fin 2) * 1 + 1 * 0 = 0; omega
    | ⟨1, _⟩ => show win3_3.index t (1 : Fin 2) * 256 + 1 * (j 1).val = win3_5.index t (1 : Fin 2) * 256 + 1 * (j 1).val; omega

/-- An index of the output array is in point t's block iff each coordinate is in the block's range. -/
theorem mem_blk3 (t : Fin cfg3.N) (i : S100000x256.Idx) :
    i ∈ ((cfg3.win 5).blk t).view.set ↔ ∀ a : Fin 2, win3_5.index t a * S5000x256.size a ≤ (i a).val ∧ (i a).val < win3_5.index t a * S5000x256.size a + S5000x256.size a := by
  show i ∈ ((View.whole main_v59).slice (win3_5.rect t)).set ↔ _
  rw [View.set_slice_whole, Rect.mem_set_unit]
  exact Iff.rfl

/-- Row r lies in the block of point r / 5000. -/
theorem cover3 (i : S100000x256.Idx) : ∃ t : Fin cfg3.N, (cfg3.win 5).flush t = true ∧ i ∈ ((cfg3.win 5).blk t).view.set := by
  have hi0 : (i 0).val < 100000 := (i 0).isLt
  have hi1 : (i 1).val < 256 := (i 1).isLt
  have hN : grid3.N = 20 := N_3
  have ht : (i 0).val / 5000 < grid3.N := by rw [hN]; omega
  refine ⟨⟨(i 0).val / 5000, ht⟩, flush3_5 _, ?_⟩
  rw [mem_blk3]
  obtain ⟨-, -, -, -, -, -, -, -, -, -, e51, e50⟩ := idx3 ⟨(i 0).val / 5000, ht⟩
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win3_5.index ⟨(i 0).val / 5000, ht⟩ (1 : Fin 2) * 256 ≤ (i 1).val ∧ (i 1).val < win3_5.index ⟨(i 0).val / 5000, ht⟩ (1 : Fin 2) * 256 + 256
    rw [e51]; omega

/-- THE ARRAY the region leaves: the layer of the arrays it was entered with. -/
theorem final3 (c : Dev nD) :
    (dat3 V c).arrAt 5 cfg3.N
      = sageRow (M := 100000) (K := 256) (K' := 256) (N := 256) (V c main_v57) (V c main_v10) (V c main_v58) (V c main_v47) (V c main_v11) :=
  (dat3 V c).arrAt_eq_of_cover 5 _ (fun t _ => flushed3_eq V c t) (cover3)

end Cert.KernelIdeal.Val

end
-- ==== Proof.KFinal4.lean ====
/-
  Region 4 (the perceptron head): one grid point, every window the whole of its array.  What the point writes back
  is the head function — three affine layers each followed by max(·, 0), then the last affine layer into 128 lanes —
  of the nine arrays the region was entered with, and its one block is the whole output array.
-/
import proofs.«129706_j63471026700727_2_alg».proof.Proof.IRegion4
import proofs.«129706_j63471026700727_2_alg».proof.Proof.KTile
import Idealize.ShloMosaic.Lib.Pipeline.Value

set_option maxRecDepth 16384

noncomputable section

open scoped BigOperators

namespace Cert.KernelIdeal.Val

open Cert.KernelIdeal Cert.KernelIdeal.Gen Cert.KernelIdeal.Fr Cert.LibDenseLayers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- What the body leaves in the output buffer is the head function of its nine blocks. -/
theorem out4_eq (x0 : Vec Ideal S4096x1024 .f32) (x1 : Vec Ideal S1024x256 .f32) (x2 : Vec Ideal S1x256 .f32)
    (x3 : Vec Ideal S256x256 .f32) (x4 : Vec Ideal S1x256 .f32) (x5 : Vec Ideal S256x256 .f32) (x6 : Vec Ideal S1x256 .f32)
    (x7 : Vec Ideal S256x128 .f32) (x8 : Vec Ideal S1x128 .f32) :
    out4_9 (F := Ideal) x0 x1 x2 x3 x4 x5 x6 x7 x8 = Tile.headOf x0 x1 x2 x3 x4 x5 x6 x7 x8 := by
  unfold out4_9
  rw [View.canon_unit_zero hz4]
  simp only [View.ld_unit_zero (S := S4096x1024) hz4, View.ld_unit_zero (S := S1024x256) hz4, View.ld_unit_zero (S := S1x256) hz4,
    View.ld_unit_zero (S := S256x256) hz4, View.ld_unit_zero (S := S256x128) hz4, View.ld_unit_zero (S := S1x128) hz4]
  exact Tile.pay4_eq x0 x1 x2 x3 x4 x5 x6 x7 x8

/-- Every window's one block sits at block index (0, 0). -/
theorem idx4 : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0 :=
  (by decide +kernel : ∀ t : Fin grid4.N, _)

/-- What the one point writes back is the head function of the arrays the region was entered with. -/
theorem flushed4_eq (c : Dev nD) (t : Fin cfg4.N) :
    (dat4 V c).flushed 9 t = ((cfg4.win 9).blk t).view.read (Elt Ideal)
      (Tile.headOf (V c main_v81) (V c main_v82) (V c main_v85) (V c main_v83) (V c main_v86) (V c main_v84) (V c main_v87) (V c main_v91) (V c main_v95)) := by
  show (cfg4.win 9).cut (grid4.coords t) ((dat4 V c).after 9 t) = _
  rw [after4_9]
  refine (congrArg ((cfg4.win 9).cut (grid4.coords t)) (out4_eq _ _ _ _ _ _ _ _ _)).trans ?_
  obtain ⟨i00, i01, i10, i11, i20, i21, i30, i31, i40, i41, i50, i51, i60, i61, i70, i71, i80, i81, i90, i91⟩ := idx4 t
  have e0 : (iblk4 V c 0 t : FVec Ideal ⟨2, ![4096, 1024]⟩ .f32) = V c main_v81 := by
    funext y
    show V c main_v81 (((cfg4.win 0).blk t).view.emb y) = V c main_v81 y
    refine congrArg (V c main_v81) ?_
    funext a; apply Fin.ext
    match a with
    | ⟨0, _⟩ => show win4_0.index t (0 : Fin 2) * 4096 + 1 * (y 0).val = (y 0).val; omega
    | ⟨1, _⟩ => show win4_0.index t (1 : Fin 2) * 1024 + 1 * (y 1).val = (y 1).val; omega
  have e1 : (iblk4 V c 1 t : FVec Ideal ⟨2, ![1024, 256]⟩ .f32) = V c main_v82 := by
    funext y
    show V c main_v82 (((cfg4.win 1).blk t).view.emb y) = V c main_v82 y
    refine congrArg (V c main_v82) ?_
    funext a; apply Fin.ext
    match a with
    | ⟨0, _⟩ => show win4_1.index t (0 : Fin 2) * 1024 + 1 * (y 0).val = (y 0).val; omega
    | ⟨1, _⟩ => show win4_1.index t (1 : Fin 2) * 256 + 1 * (y 1).val = (y 1).val; omega
  have e2 : (iblk4 V c 2 t : FVec Ideal ⟨2, ![1, 256]⟩ .f32) = V c main_v85 := by
    funext y
    show V c main_v85 (((cfg4.win 2).blk t).view.emb y) = V c main_v85 y
    refine congrArg (V c main_v85) ?_
    funext a; apply Fin.ext
    match a with
    | ⟨0, _⟩ => show win4_2.index t (0 : Fin 2) * 1 + 1 * (y 0).val = (y 0).val; omega
    | ⟨1, _⟩ => show win4_2.index t (1 : Fin 2) * 256 + 1 * (y 1).val = (y 1).val; omega
  have e3 : (iblk4 V c 3 t : FVec Ideal ⟨2, ![256, 256]⟩ .f32) = V c main_v83 := by
    funext y
    show V c main_v83 (((cfg4.win 3).blk t).view.emb y) = V c main_v83 y
    refine congrArg (V c main_v83) ?_
    funext a; apply Fin.ext
    match a with
    | ⟨0, _⟩ => show win4_3.index t (0 : Fin 2) * 256 + 1 * (y 0).val = (y 0).val; omega
    | ⟨1, _⟩ => show win4_3.index t (1 : Fin 2) * 256 + 1 * (y 1).val = (y 1).val; omega
  have e4 : (iblk4 V c 4 t : FVec Ideal ⟨2, ![1, 256]⟩ .f32) = V c main_v86 := by
    funext y
    show V c main_v86 (((cfg4.win 4).blk t).view.emb y) = V c main_v86 y
    refine congrArg (V c main_v86) ?_
    funext a; apply Fin.ext
    match a with
    | ⟨0, _⟩ => show win4_4.index t (0 : Fin 2) * 1 + 1 * (y 0).val = (y 0).val; omega
    | ⟨1, _⟩ => show win4_4.index t (1 : Fin 2) * 256 + 1 * (y 1).val = (y 1).val; omega
  have e5 : (iblk4 V c 5 t : FVec Ideal ⟨2, ![256, 256]⟩ .f32) = V c main_v84 := by
    funext y
    show V c main_v84 (((cfg4.win 5).blk t).view.emb y) = V c main_v84 y
    refine congrArg (V c main_v84) ?_
    funext a; apply Fin.ext
    match a with
    | ⟨0, _⟩ => show win4_5.index t (0 : Fin 2) * 256 + 1 * (y 0).val = (y 0).val; omega
    | ⟨1, _⟩ => show win4_5.index t (1 : Fin 2) * 256 + 1 * (y 1).val = (y 1).val; omega
  have e6 : (iblk4 V c 6 t : FVec Ideal ⟨2, ![1, 256]⟩ .f32) = V c main_v87 := by
    funext y
    show V c main_v87 (((cfg4.win 6).blk t).view.emb y) = V c main_v87 y
    refine congrArg (V c main_v87) ?_
    funext a; apply Fin.ext
    match a with
    | ⟨0, _⟩ => show win4_6.index t (0 : Fin 2) * 1 + 1 * (y 0).val = (y 0).val; omega
    | ⟨1, _⟩ => show win4_6.index t (1 : Fin 2) * 256 + 1 * (y 1).val = (y 1).val; omega
  have e7 : (iblk4 V c 7 t : FVec Ideal ⟨2, ![256, 128]⟩ .f32) = V c main_v91 := by
    funext y
    show V c main_v91 (((cfg4.win 7).blk t).view.emb y) = V c main_v91 y
    refine congrArg (V c main_v91) ?_
    funext a; apply Fin.ext
    match a with
    | ⟨0, _⟩ => show win4_7.index t (0 : Fin 2) * 256 + 1 * (y 0).val = (y 0).val; omega
    | ⟨1, _⟩ => show win4_7.index t (1 : Fin 2) * 128 + 1 * (y 1).val = (y 1).val; omega
  have e8 : (iblk4 V c 8 t : FVec Ideal ⟨2, ![1, 128]⟩ .f32) = V c main_v95 := by
    funext y
    show V c main_v95 (((cfg4.win 8).blk t).view.emb y) = V c main_v95 y
    refine congrArg (V c main_v95) ?_
    funext a; apply Fin.ext
    match a with
    | ⟨0, _⟩ => show win4_8.index t (0 : Fin 2) * 1 + 1 * (y 0).val = (y 0).val; omega
    | ⟨1, _⟩ => show win4_8.index t (1 : Fin 2) * 128 + 1 * (y 1).val = (y 1).val; omega
  funext j
  show Tile.headOf (iblk4 V c 0 t) (iblk4 V c 1 t) (iblk4 V c 2 t) (iblk4 V c 3 t) (iblk4 V c 4 t) (iblk4 V c 5 t) (iblk4 V c 6 t) (iblk4 V c 7 t) (iblk4 V c 8 t) j
    = Tile.headOf (V c main_v81) (V c main_v82) (V c main_v85) (V c main_v83) (V c main_v86) (V c main_v84) (V c main_v87) (V c main_v91) (V c main_v95) (((cfg4.win 9).blk t).view.emb j)
  have hemb : ((cfg4.win 9).blk t).view.emb j = j := by
    funext a; apply Fin.ext
    match a with
    | ⟨0, _⟩ => show win4_9.index t (0 : Fin 2) * 4096 + 1 * (j 0).val = (j 0).val; omega
    | ⟨1, _⟩ => show win4_9.index t (1 : Fin 2) * 128 + 1 * (j 1).val = (j 1).val; omega
  rw [hemb, e0, e1, e2, e3, e4, e5, e6, e7, e8]

/-- An index of the output array is in the point's block iff each coordinate is in the block's range. -/
theorem mem_blk4 (t : Fin cfg4.N) (i : S4096x128.Idx) :
    i ∈ ((cfg4.win 9).blk t).view.set ↔ ∀ a : Fin 2, win4_9.index t a * S4096x128.size a ≤ (i a).val ∧ (i a).val < win4_9.index t a * S4096x128.size a + S4096x128.size a := by
  show i ∈ ((View.whole main_v96).slice (win4_9.rect t)).set ↔ _
  rw [View.set_slice_whole, Rect.mem_set_unit]
  exact Iff.rfl

/-- The one block is the whole array. -/
theorem cover4 (i : S4096x128.Idx) : ∃ t : Fin cfg4.N, (cfg4.win 9).flush t = true ∧ i ∈ ((cfg4.win 9).blk t).view.set := by
  have hi0 : (i 0).val < 4096 := (i 0).isLt
  have hi1 : (i 1).val < 128 := (i 1).isLt
  refine ⟨t4_0, flush4_9 _, ?_⟩
  rw [mem_blk4]
  obtain ⟨-, -, -, -, -, -, -, -, -, -, -, -, -, -, -, -, -, -, i90, i91⟩ := idx4 t4_0
  intro a
  match a with
  | ⟨0, _⟩ =>
    show win4_9.index t4_0 (0 : Fin 2) * 4096 ≤ (i 0).val ∧ (i 0).val < win4_9.index t4_0 (0 : Fin 2) * 4096 + 4096
    rw [i90]; omega
  | ⟨1, _⟩ =>
    show win4_9.index t4_0 (1 : Fin 2) * 128 ≤ (i 1).val ∧ (i 1).val < win4_9.index t4_0 (1 : Fin 2) * 128 + 128
    rw [i91]; omega

/-- THE ARRAY the region leaves: the head function of the arrays it was entered with. -/
theorem final4 (c : Dev nD) :
    (dat4 V c).arrAt 9 cfg4.N
      = Tile.headOf (V c main_v81) (V c main_v82) (V c main_v85) (V c main_v83) (V c main_v86) (V c main_v84) (V c main_v87) (V c main_v91) (V c main_v95) :=
  (dat4 V c).arrAt_eq_of_cover 9 _ (fun t _ => flushed4_eq V c t) (cover4)

end Cert.KernelIdeal.Val

end
-- ==== Proof.RefFinal.lean ====
/-
  The reference network as one closed expression of its 23 argument arrays.

  The reference is four graph-convolution layers, a mean pool over the graphs and a four-layer perceptron.  A
  convolution layer sends the node features X, the edge list e and the matrices W_rel, W_root with the bias b to
  max ((agg · W_relᵀ + b) + X · W_rootᵀ, 0), where agg is the sum, over the edges into a node, of the features of
  the edge's source node: a scatter-add, at the edge's destination, of the rows gathered at the edge's source (a
  negative source index counted from the end).  The pool concatenates the four layers' features along the feature
  axis, adds the rows of each graph, and divides by the number of nodes of the graph (at least one).  Each
  perceptron layer is h · Wᵀ + b, the first three followed by the positive part; the last has one output column,
  which is read as a vector.

  Every dense layer is one of the two layer functions affineRow and sageRow of whole arrays; the aggregation, the
  pool and the positive part stay as the array operations that compute them.  The reference's result, stage by
  stage, is this expression: each stage unfolds to the array operations of the previous stages, and the two host
  spellings of a dense layer are the layer functions.
-/
import proofs.«129706_j63471026700727_2_alg».proof.Proof.Gen.ReferenceIdeal.Read
import proofs.«129706_j63471026700727_2_alg».proof.Proof.LibDenseLayers

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.LibDenseLayers

/-! ## The edge list's two index columns -/

/-- Row 0 of the edge list (the source nodes), as a vector. -/
def srcRow (e : IVec S2x320000 32) : IVec S320000 32 :=
  shapeCast S320000 (extractStridedSlice S1x320000 ![0, 0] e slices_S2x320000_S1x320000_0_0) shapeCasts_S1x320000_S320000

/-- Row 1 of the edge list (the destination nodes), as a vector. -/
def dstRow (e : IVec S2x320000 32) : IVec S320000 32 :=
  shapeCast S320000 (extractStridedSlice S1x320000 ![1, 0] e slices_S2x320000_S1x320000_1_0) shapeCasts_S1x320000_S320000

/-- The gather's index column of a vector of source nodes: a negative one counted from the end (plus 100000). -/
def srcCol (sr : IVec S320000 32) : IVec S320000x1 32 :=
  broadcastInDim S320000x1 ![0] bcast_S320000_S320000x1_0
    (select (cmpi .slt sr (broadcastInDim S320000 ![] bcast_S_S320000 (constantI S_ 32 0#32)))
      (addi sr (broadcastInDim S320000 ![] bcast_S_S320000 (constantI S_ 32 100000#32)))
      sr)

/-- The scatter's index column of a vector of destination nodes. -/
def dstCol (dr : IVec S320000 32) : IVec S320000x1 32 :=
  broadcastInDim S320000x1 ![0] bcast_S320000_S320000x1_0 dr

/-- The gather's index column of the edge list. -/
def srcIdx (e : IVec S2x320000 32) : IVec S320000x1 32 := srcCol (srcRow e)

/-- The scatter's index column of the edge list. -/
def dstIdx (e : IVec S2x320000 32) : IVec S320000x1 32 := dstCol (dstRow e)

/-! ## The neighbourhood sums -/

/-- The sum over the edges into each node of the source node's 28 features. -/
def agg28 (x : FVec Ideal S100000x28 .f32) (e : IVec S2x320000 32) : FVec Ideal S100000x28 .f32 :=
  Host.scatterAdd scatter_S100000x28_S320000x1_S320000x28_1_0_0_1
    (broadcastInDim S100000x28 ![] bcast_S_S100000x28 (constant (F := Ideal) S_ .f32 0x00000000#32))
    (dstIdx e)
    (Host.gather gather_S100000x28_S320000x1_S320000x28_1_0_n_n_0_1_128 x (srcIdx e))

/-- The sum over the edges into each node of the source node's 256 features. -/
def agg256 (X : FVec Ideal S100000x256 .f32) (e : IVec S2x320000 32) : FVec Ideal S100000x256 .f32 :=
  Host.scatterAdd scatter_S100000x256_S320000x1_S320000x256_1_0_0_1
    (broadcastInDim S100000x256 ![] bcast_S_S100000x256 (constant (F := Ideal) S_ .f32 0x00000000#32))
    (dstIdx e)
    (Host.gather gather_S100000x256_S320000x1_S320000x256_1_0_n_n_0_1_1256 X (srcIdx e))

/-- The same sum from the two ROW vectors of source and destination nodes. -/
def agg256r (X : FVec Ideal S100000x256 .f32) (sr dr : IVec S320000 32) : FVec Ideal S100000x256 .f32 :=
  Host.scatterAdd scatter_S100000x256_S320000x1_S320000x256_1_0_0_1
    (broadcastInDim S100000x256 ![] bcast_S_S100000x256 (constant (F := Ideal) S_ .f32 0x00000000#32))
    (dstCol dr)
    (Host.gather gather_S100000x256_S320000x1_S320000x256_1_0_n_n_0_1_1256 X (srcCol sr))

theorem agg256_eq (X : FVec Ideal S100000x256 .f32) (e : IVec S2x320000 32) :
    agg256 X e = agg256r X (srcRow e) (dstRow e) := rfl

/-! ## Transposed matrices and one-row biases -/

def tr28 (W : FVec Ideal S256x28 .f32) : FVec Ideal S28x256 .f32 := transpose S28x256 [1, 0] W transposes_S256x28_S28x256_1_0
def tr256 (W : FVec Ideal S256x256 .f32) : FVec Ideal S256x256 .f32 := transpose S256x256 [1, 0] W transposes_S256x256_S256x256_1_0
def tr1024 (W : FVec Ideal S256x1024 .f32) : FVec Ideal S1024x256 .f32 := transpose S1024x256 [1, 0] W transposes_S256x1024_S1024x256_1_0
def tr1 (W : FVec Ideal S1x256 .f32) : FVec Ideal S256x1 .f32 := transpose S256x1 [1, 0] W transposes_S1x256_S256x1_1_0

theorem casts_S256_S1x256 : S256.ShapeCasts S1x256 := by decide
theorem casts_S1_S1x1 : S1.ShapeCasts S1x1 := by decide

/-- A bias vector as a one-row array. -/
def rowOf (b : FVec Ideal S256 .f32) : FVec Ideal S1x256 .f32 := shapeCast S1x256 b casts_S256_S1x256
/-- The last layer's one bias as a 1×1 array. -/
def rowOf1 (b : FVec Ideal S1 .f32) : FVec Ideal S1x1 .f32 := shapeCast S1x1 b casts_S1_S1x1

/-! ## The convolution layers -/

/-- The first convolution layer (28 features in). -/
def conv28 (x : FVec Ideal S100000x28 .f32) (e : IVec S2x320000 32) (Wrel : FVec Ideal S256x28 .f32) (b : FVec Ideal S256 .f32)
    (Wroot : FVec Ideal S256x28 .f32) : FVec Ideal S100000x256 .f32 :=
  sageRow (agg28 x e) (tr28 Wrel) (rowOf b) x (tr28 Wroot)

/-- A later convolution layer (256 features in). -/
def conv256 (X : FVec Ideal S100000x256 .f32) (e : IVec S2x320000 32) (Wrel : FVec Ideal S256x256 .f32) (b : FVec Ideal S256 .f32)
    (Wroot : FVec Ideal S256x256 .f32) : FVec Ideal S100000x256 .f32 :=
  sageRow (agg256 X e) (tr256 Wrel) (rowOf b) X (tr256 Wroot)

/-! ## The mean pool -/

/-- The scatter's index column of the pool: each node's graph. -/
def batchIdx (batch : IVec S100000 32) : IVec S100000x1 32 := broadcastInDim S100000x1 ![0] bcast_S100000_S100000x1_0 batch

/-- The four layers' features side by side. -/
def cat4 (X1 X2 X3 X4 : FVec Ideal S100000x256 .f32) : FVec Ideal S100000x1024 .f32 :=
  concatenate S100000x1024 1 [⟨S100000x256, X1⟩, ⟨S100000x256, X2⟩, ⟨S100000x256, X3⟩, ⟨S100000x256, X4⟩]
    concatenates_S100000x256_S100000x256_S100000x256_S100000x256_S100000x1024_d1

/-- The sum of each graph's rows. -/
def poolSums (h : FVec Ideal S100000x1024 .f32) (batch : IVec S100000 32) : FVec Ideal S4096x1024 .f32 :=
  Host.scatterAdd scatter_S4096x1024_S100000x1_S100000x1024_1_0_0_1
    (broadcastInDim S4096x1024 ![] bcast_S_S4096x1024 (constant (F := Ideal) S_ .f32 0x00000000#32))
    (batchIdx batch) h

/-- The number of nodes of each graph, at least one. -/
def poolCnts (batch : IVec S100000 32) : FVec Ideal S4096 .f32 :=
  maximumf
    (Host.scatterAdd scatter_S4096_S100000x1_S100000_n_0_0_1
      (broadcastInDim S4096 ![] bcast_S_S4096 (constant (F := Ideal) S_ .f32 0x00000000#32))
      (batchIdx batch)
      (broadcastInDim S100000 ![] bcast_S_S100000 (constant (F := Ideal) S_ .f32 0x3F800000#32)))
    (broadcastInDim S4096 ![] bcast_S_S4096 (constant (F := Ideal) S_ .f32 0x3F800000#32))

/-- The mean of each graph's rows of the four layers' features. -/
def pool (X1 X2 X3 X4 : FVec Ideal S100000x256 .f32) (batch : IVec S100000 32) : FVec Ideal S4096x1024 .f32 :=
  Host.divf (poolSums (cat4 X1 X2 X3 X4) batch)
    (broadcastInDim S4096x1024 ![0, 1] bcast_S4096x1_S4096x1024_0_1
      (broadcastInDim S4096x1 ![0] bcast_S4096_S4096x1_0 (poolCnts batch)))

/-! ## The perceptron -/

/-- The positive part of a 4096×256 array. -/
def reluH (h : FVec Ideal S4096x256 .f32) : FVec Ideal S4096x256 .f32 :=
  maximumf h (broadcastInDim S4096x256 ![] bcast_S_S4096x256 (constant (F := Ideal) S_ .f32 0x00000000#32))

/-- The four perceptron layers of the pooled features. -/
def head (g : FVec Ideal S4096x1024 .f32) (W1 : FVec Ideal S256x1024 .f32) (b1 : FVec Ideal S256 .f32)
    (W2 : FVec Ideal S256x256 .f32) (b2 : FVec Ideal S256 .f32) (W3 : FVec Ideal S256x256 .f32) (b3 : FVec Ideal S256 .f32)
    (W4 : FVec Ideal S1x256 .f32) (b4 : FVec Ideal S1 .f32) : FVec Ideal S4096 .f32 :=
  shapeCast S4096
    (affineRow (reluH (affineRow (reluH (affineRow (reluH (affineRow g (tr1024 W1) (rowOf b1))) (tr256 W2) (rowOf b2)))
      (tr256 W3) (rowOf b3))) (tr1 W4) (rowOf1 b4))
    shapeCasts_S4096x1_S4096

/-! ## The network -/

def X1 (a0 : FVec Ideal S100000x28 .f32) (a1 : IVec S2x320000 32) (a3 : FVec Ideal S256x28 .f32) (a4 : FVec Ideal S256 .f32)
    (a5 : FVec Ideal S256x28 .f32) : FVec Ideal S100000x256 .f32 :=
  conv28 a0 a1 a3 a4 a5

def X2 (a0 : FVec Ideal S100000x28 .f32) (a1 : IVec S2x320000 32) (a3 : FVec Ideal S256x28 .f32) (a4 : FVec Ideal S256 .f32)
    (a5 : FVec Ideal S256x28 .f32) (a6 : FVec Ideal S256x256 .f32) (a7 : FVec Ideal S256 .f32) (a8 : FVec Ideal S256x256 .f32) :
    FVec Ideal S100000x256 .f32 :=
  conv256 (X1 a0 a1 a3 a4 a5) a1 a6 a7 a8

def X3 (a0 : FVec Ideal S100000x28 .f32) (a1 : IVec S2x320000 32) (a3 : FVec Ideal S256x28 .f32) (a4 : FVec Ideal S256 .f32)
    (a5 : FVec Ideal S256x28 .f32) (a6 : FVec Ideal S256x256 .f32) (a7 : FVec Ideal S256 .f32) (a8 a9 : FVec Ideal S256x256 .f32)
    (a10 : FVec Ideal S256 .f32) (a11 : FVec Ideal S256x256 .f32) : FVec Ideal S100000x256 .f32 :=
  conv256 (X2 a0 a1 a3 a4 a5 a6 a7 a8) a1 a9 a10 a11

def X4 (a0 : FVec Ideal S100000x28 .f32) (a1 : IVec S2x320000 32) (a3 : FVec Ideal S256x28 .f32) (a4 : FVec Ideal S256 .f32)
    (a5 : FVec Ideal S256x28 .f32) (a6 : FVec Ideal S256x256 .f32) (a7 : FVec Ideal S256 .f32) (a8 a9 : FVec Ideal S256x256 .f32)
    (a10 : FVec Ideal S256 .f32) (a11 a12 : FVec Ideal S256x256 .f32) (a13 : FVec Ideal S256 .f32) (a14 : FVec Ideal S256x256 .f32) :
    FVec Ideal S100000x256 .f32 :=
  conv256 (X3 a0 a1 a3 a4 a5 a6 a7 a8 a9 a10 a11) a1 a12 a13 a14

/-- The reference network's result as one expression of its 23 arguments. -/
def Final (a0 : FVec Ideal S100000x28 .f32) (a1 : IVec S2x320000 32) (a2 : IVec S100000 32) (a3 : FVec Ideal S256x28 .f32)
    (a4 : FVec Ideal S256 .f32) (a5 : FVec Ideal S256x28 .f32) (a6 : FVec Ideal S256x256 .f32) (a7 : FVec Ideal S256 .f32)
    (a8 a9 : FVec Ideal S256x256 .f32) (a10 : FVec Ideal S256 .f32) (a11 a12 : FVec Ideal S256x256 .f32) (a13 : FVec Ideal S256 .f32)
    (a14 : FVec Ideal S256x256 .f32) (a15 : FVec Ideal S256x1024 .f32) (a16 : FVec Ideal S256 .f32) (a17 : FVec Ideal S256x256 .f32)
    (a18 : FVec Ideal S256 .f32) (a19 : FVec Ideal S256x256 .f32) (a20 : FVec Ideal S256 .f32) (a21 : FVec Ideal S1x256 .f32)
    (a22 : FVec Ideal S1 .f32) : FVec Ideal S4096 .f32 :=
  head (pool (X1 a0 a1 a3 a4 a5) (X2 a0 a1 a3 a4 a5 a6 a7 a8) (X3 a0 a1 a3 a4 a5 a6 a7 a8 a9 a10 a11)
      (X4 a0 a1 a3 a4 a5 a6 a7 a8 a9 a10 a11 a12 a13 a14) a2)
    a15 a16 a17 a18 a19 a20 a21 a22

/-! ## The two host spellings of a dense layer, over variable operands

The host computes a convolution layer as (agg · Wl + bias) + x · Wr followed by the maximum with the zero constant,
and a perceptron layer as h · W + bias, the bias vector broadcast to a row and then over the rows.  These are the
layer functions sageRow and affineRow of the bias read as a one-row array. -/

theorem hostConv28 (agg x : FVec Ideal S100000x28 .f32) (Wl Wr : FVec Ideal S28x256 .f32) (b : FVec Ideal S256 .f32) :
    maximumf (addf (addf (Host.dotGeneral dot_S100000x28_S28x256_S100000x256_1_0_0_1_n_n none agg Wl)
          (broadcastInDim S100000x256 ![0, 1] bcast_S1x256_S100000x256_0_1 (broadcastInDim S1x256 ![1] bcast_S256_S1x256_1 b)))
        (Host.dotGeneral dot_S100000x28_S28x256_S100000x256_1_0_0_1_n_n none x Wr))
      (broadcastInDim S100000x256 ![] bcast_S_S100000x256 (constant (F := Ideal) S_ .f32 0x00000000#32))
    = sageRow agg Wl (rowOf b) x Wr :=
  hostSage_eq dot_S100000x28_S28x256_S100000x256_1_0_0_1_n_n dot_S100000x28_S28x256_S100000x256_1_0_0_1_n_n
    rfl rfl rfl rfl rfl rfl rfl rfl rfl rfl rfl rfl agg Wl b x Wr
    bcast_S256_S1x256_1 bcast_S1x256_S100000x256_0_1 bcast_S_S100000x256 casts_S256_S1x256

theorem hostConv256 (agg X : FVec Ideal S100000x256 .f32) (Wl Wr : FVec Ideal S256x256 .f32) (b : FVec Ideal S256 .f32) :
    maximumf (addf (addf (Host.dotGeneral dot_S100000x256_S256x256_S100000x256_1_0_0_1_n_n none agg Wl)
          (broadcastInDim S100000x256 ![0, 1] bcast_S1x256_S100000x256_0_1 (broadcastInDim S1x256 ![1] bcast_S256_S1x256_1 b)))
        (Host.dotGeneral dot_S100000x256_S256x256_S100000x256_1_0_0_1_n_n none X Wr))
      (broadcastInDim S100000x256 ![] bcast_S_S100000x256 (constant (F := Ideal) S_ .f32 0x00000000#32))
    = sageRow agg Wl (rowOf b) X Wr :=
  hostSage_eq dot_S100000x256_S256x256_S100000x256_1_0_0_1_n_n dot_S100000x256_S256x256_S100000x256_1_0_0_1_n_n
    rfl rfl rfl rfl rfl rfl rfl rfl rfl rfl rfl rfl agg Wl b X Wr
    bcast_S256_S1x256_1 bcast_S1x256_S100000x256_0_1 bcast_S_S100000x256 casts_S256_S1x256

theorem hostLin1024 (g : FVec Ideal S4096x1024 .f32) (W : FVec Ideal S1024x256 .f32) (b : FVec Ideal S256 .f32) :
    addf (Host.dotGeneral dot_S4096x1024_S1024x256_S4096x256_1_0_0_1_n_n none g W)
        (broadcastInDim S4096x256 ![0, 1] bcast_S1x256_S4096x256_0_1 (broadcastInDim S1x256 ![1] bcast_S256_S1x256_1 b))
    = affineRow g W (rowOf b) :=
  hostAffine_eq dot_S4096x1024_S1024x256_S4096x256_1_0_0_1_n_n rfl rfl rfl rfl rfl rfl g W b
    bcast_S256_S1x256_1 bcast_S1x256_S4096x256_0_1 casts_S256_S1x256

theorem hostLin256 (h : FVec Ideal S4096x256 .f32) (W : FVec Ideal S256x256 .f32) (b : FVec Ideal S256 .f32) :
    addf (Host.dotGeneral dot_S4096x256_S256x256_S4096x256_1_0_0_1_n_n none h W)
        (broadcastInDim S4096x256 ![0, 1] bcast_S1x256_S4096x256_0_1 (broadcastInDim S1x256 ![1] bcast_S256_S1x256_1 b))
    = affineRow h W (rowOf b) :=
  hostAffine_eq dot_S4096x256_S256x256_S4096x256_1_0_0_1_n_n rfl rfl rfl rfl rfl rfl h W b
    bcast_S256_S1x256_1 bcast_S1x256_S4096x256_0_1 casts_S256_S1x256

theorem hostLin1 (h : FVec Ideal S4096x256 .f32) (W : FVec Ideal S256x1 .f32) (b : FVec Ideal S1 .f32) :
    addf (Host.dotGeneral dot_S4096x256_S256x1_S4096x1_1_0_0_1_n_n none h W)
        (broadcastInDim S4096x1 ![0, 1] bcast_S1x1_S4096x1_0_1 (broadcastInDim S1x1 ![1] bcast_S1_S1x1_1 b))
    = affineRow h W (rowOf1 b) :=
  hostAffine_eq dot_S4096x256_S256x1_S4096x1_1_0_0_1_n_n rfl rfl rfl rfl rfl rfl h W b
    bcast_S1_S1x1_1 bcast_S1x1_S4096x1_0_1 casts_S1_S1x1

/-! ## The reference's stages

Each stage of the reference unfolds to the host spelling of its layer over the earlier stages (the gather's and the
scatter's index columns, the zero arrays and the transposes are the named pieces, by unfolding), and the host
spelling is the layer function. -/

theorem v22_eq (a0 : FVec Ideal S100000x28 .f32) (a1 : IVec S2x320000 32) (a3 : FVec Ideal S256x28 .f32) (a4 : FVec Ideal S256 .f32)
    (a5 : FVec Ideal S256x28 .f32) :
    Read.val_main_v22 (F := Ideal) a0 a1 a3 a4 a5 = X1 a0 a1 a3 a4 a5 :=
  hostConv28 (agg28 a0 a1) a0 (tr28 a3) (tr28 a5) a4

theorem v41_eq (a0 : FVec Ideal S100000x28 .f32) (a1 : IVec S2x320000 32) (a3 : FVec Ideal S256x28 .f32) (a4 : FVec Ideal S256 .f32)
    (a5 : FVec Ideal S256x28 .f32) (a6 : FVec Ideal S256x256 .f32) (a7 : FVec Ideal S256 .f32) (a8 : FVec Ideal S256x256 .f32) :
    Read.val_main_v41 (F := Ideal) a0 a1 a3 a4 a5 a6 a7 a8 = X2 a0 a1 a3 a4 a5 a6 a7 a8 :=
  (hostConv256 (agg256 (Read.val_main_v22 (F := Ideal) a0 a1 a3 a4 a5) a1) (Read.val_main_v22 (F := Ideal) a0 a1 a3 a4 a5) (tr256 a6) (tr256 a8) a7).trans
    (congrArg (fun X => conv256 X a1 a6 a7 a8) (v22_eq a0 a1 a3 a4 a5))

theorem v60_eq (a0 : FVec Ideal S100000x28 .f32) (a1 : IVec S2x320000 32) (a3 : FVec Ideal S256x28 .f32) (a4 : FVec Ideal S256 .f32)
    (a5 : FVec Ideal S256x28 .f32) (a6 : FVec Ideal S256x256 .f32) (a7 : FVec Ideal S256 .f32) (a8 : FVec Ideal S256x256 .f32)
    (a9 : FVec Ideal S256x256 .f32) (a10 : FVec Ideal S256 .f32) (a11 : FVec Ideal S256x256 .f32) :
    Read.val_main_v60 (F := Ideal) a0 a1 a3 a4 a5 a6 a7 a8 a9 a10 a11 = X3 a0 a1 a3 a4 a5 a6 a7 a8 a9 a10 a11 :=
  (hostConv256 (agg256 (Read.val_main_v41 (F := Ideal) a0 a1 a3 a4 a5 a6 a7 a8) a1) (Read.val_main_v41 (F := Ideal) a0 a1 a3 a4 a5 a6 a7 a8) (tr256 a9) (tr256 a11) a10).trans
    (congrArg (fun X => conv256 X a1 a9 a10 a11) (v41_eq a0 a1 a3 a4 a5 a6 a7 a8))

theorem v79_eq (a0 : FVec Ideal S100000x28 .f32) (a1 : IVec S2x320000 32) (a3 : FVec Ideal S256x28 .f32) (a4 : FVec Ideal S256 .f32)
    (a5 : FVec Ideal S256x28 .f32) (a6 : FVec Ideal S256x256 .f32) (a7 : FVec Ideal S256 .f32) (a8 : FVec Ideal S256x256 .f32)
    (a9 : FVec Ideal S256x256 .f32) (a10 : FVec Ideal S256 .f32) (a11 : FVec Ideal S256x256 .f32) (a12 : FVec Ideal S256x256 .f32) (a13 : FVec Ideal S256 .f32)
    (a14 : FVec Ideal S256x256 .f32) :
    Read.val_main_v79 (F := Ideal) a0 a1 a3 a4 a5 a6 a7 a8 a9 a10 a11 a12 a13 a14 = X4 a0 a1 a3 a4 a5 a6 a7 a8 a9 a10 a11 a12 a13 a14 :=
  (hostConv256 (agg256 (Read.val_main_v60 (F := Ideal) a0 a1 a3 a4 a5 a6 a7 a8 a9 a10 a11) a1) (Read.val_main_v60 (F := Ideal) a0 a1 a3 a4 a5 a6 a7 a8 a9 a10 a11) (tr256 a12) (tr256 a14) a13).trans
    (congrArg (fun X => conv256 X a1 a12 a13 a14) (v60_eq a0 a1 a3 a4 a5 a6 a7 a8 a9 a10 a11))

/-- The pooled features: the mean pool of the four layers. -/
theorem v92_eq (a0 : FVec Ideal S100000x28 .f32) (a1 : IVec S2x320000 32) (a2 : IVec S100000 32) (a3 : FVec Ideal S256x28 .f32) (a4 : FVec Ideal S256 .f32)
    (a5 : FVec Ideal S256x28 .f32) (a6 : FVec Ideal S256x256 .f32) (a7 : FVec Ideal S256 .f32) (a8 : FVec Ideal S256x256 .f32)
    (a9 : FVec Ideal S256x256 .f32) (a10 : FVec Ideal S256 .f32) (a11 : FVec Ideal S256x256 .f32) (a12 : FVec Ideal S256x256 .f32) (a13 : FVec Ideal S256 .f32)
    (a14 : FVec Ideal S256x256 .f32) :
    Read.val_main_v92 (F := Ideal) a0 a1 a2 a3 a4 a5 a6 a7 a8 a9 a10 a11 a12 a13 a14
      = pool (X1 a0 a1 a3 a4 a5) (X2 a0 a1 a3 a4 a5 a6 a7 a8) (X3 a0 a1 a3 a4 a5 a6 a7 a8 a9 a10 a11) (X4 a0 a1 a3 a4 a5 a6 a7 a8 a9 a10 a11 a12 a13 a14) a2 := by
  have h : Read.val_main_v92 (F := Ideal) a0 a1 a2 a3 a4 a5 a6 a7 a8 a9 a10 a11 a12 a13 a14
      = pool (Read.val_main_v22 (F := Ideal) a0 a1 a3 a4 a5) (Read.val_main_v41 (F := Ideal) a0 a1 a3 a4 a5 a6 a7 a8)
          (Read.val_main_v60 (F := Ideal) a0 a1 a3 a4 a5 a6 a7 a8 a9 a10 a11) (Read.val_main_v79 (F := Ideal) a0 a1 a3 a4 a5 a6 a7 a8 a9 a10 a11 a12 a13 a14) a2 := rfl
  rw [h, v22_eq, v41_eq, v60_eq, v79_eq]

theorem v98_eq (a0 : FVec Ideal S100000x28 .f32) (a1 : IVec S2x320000 32) (a2 : IVec S100000 32) (a3 : FVec Ideal S256x28 .f32) (a4 : FVec Ideal S256 .f32)
    (a5 : FVec Ideal S256x28 .f32) (a6 : FVec Ideal S256x256 .f32) (a7 : FVec Ideal S256 .f32) (a8 : FVec Ideal S256x256 .f32)
    (a9 : FVec Ideal S256x256 .f32) (a10 : FVec Ideal S256 .f32) (a11 : FVec Ideal S256x256 .f32) (a12 : FVec Ideal S256x256 .f32) (a13 : FVec Ideal S256 .f32)
    (a14 : FVec Ideal S256x256 .f32) (a15 : FVec Ideal S256x1024 .f32) (a16 : FVec Ideal S256 .f32) :
    Read.val_main_v98 (F := Ideal) a0 a1 a2 a3 a4 a5 a6 a7 a8 a9 a10 a11 a12 a13 a14 a15 a16
      = reluH (affineRow (Read.val_main_v92 (F := Ideal) a0 a1 a2 a3 a4 a5 a6 a7 a8 a9 a10 a11 a12 a13 a14) (tr1024 a15) (rowOf a16)) :=
  congrArg reluH (hostLin1024 (Read.val_main_v92 (F := Ideal) a0 a1 a2 a3 a4 a5 a6 a7 a8 a9 a10 a11 a12 a13 a14) (tr1024 a15) a16)

theorem v104_eq (a0 : FVec Ideal S100000x28 .f32) (a1 : IVec S2x320000 32) (a2 : IVec S100000 32) (a3 : FVec Ideal S256x28 .f32) (a4 : FVec Ideal S256 .f32)
    (a5 : FVec Ideal S256x28 .f32) (a6 : FVec Ideal S256x256 .f32) (a7 : FVec Ideal S256 .f32) (a8 : FVec Ideal S256x256 .f32)
    (a9 : FVec Ideal S256x256 .f32) (a10 : FVec Ideal S256 .f32) (a11 : FVec Ideal S256x256 .f32) (a12 : FVec Ideal S256x256 .f32) (a13 : FVec Ideal S256 .f32)
    (a14 : FVec Ideal S256x256 .f32) (a15 : FVec Ideal S256x1024 .f32) (a16 : FVec Ideal S256 .f32)
    (a17 : FVec Ideal S256x256 .f32) (a18 : FVec Ideal S256 .f32) :
    Read.val_main_v104 (F := Ideal) a0 a1 a2 a3 a4 a5 a6 a7 a8 a9 a10 a11 a12 a13 a14 a15 a16 a17 a18
      = reluH (affineRow (Read.val_main_v98 (F := Ideal) a0 a1 a2 a3 a4 a5 a6 a7 a8 a9 a10 a11 a12 a13 a14 a15 a16) (tr256 a17) (rowOf a18)) :=
  congrArg reluH (hostLin256 (Read.val_main_v98 (F := Ideal) a0 a1 a2 a3 a4 a5 a6 a7 a8 a9 a10 a11 a12 a13 a14 a15 a16) (tr256 a17) a18)

theorem v110_eq (a0 : FVec Ideal S100000x28 .f32) (a1 : IVec S2x320000 32) (a2 : IVec S100000 32) (a3 : FVec Ideal S256x28 .f32) (a4 : FVec Ideal S256 .f32)
    (a5 : FVec Ideal S256x28 .f32) (a6 : FVec Ideal S256x256 .f32) (a7 : FVec Ideal S256 .f32) (a8 : FVec Ideal S256x256 .f32)
    (a9 : FVec Ideal S256x256 .f32) (a10 : FVec Ideal S256 .f32) (a11 : FVec Ideal S256x256 .f32) (a12 : FVec Ideal S256x256 .f32) (a13 : FVec Ideal S256 .f32)
    (a14 : FVec Ideal S256x256 .f32) (a15 : FVec Ideal S256x1024 .f32) (a16 : FVec Ideal S256 .f32)
    (a17 : FVec Ideal S256x256 .f32) (a18 : FVec Ideal S256 .f32) (a19 : FVec Ideal S256x256 .f32) (a20 : FVec Ideal S256 .f32) :
    Read.val_main_v110 (F := Ideal) a0 a1 a2 a3 a4 a5 a6 a7 a8 a9 a10 a11 a12 a13 a14 a15 a16 a17 a18 a19 a20
      = reluH (affineRow (Read.val_main_v104 (F := Ideal) a0 a1 a2 a3 a4 a5 a6 a7 a8 a9 a10 a11 a12 a13 a14 a15 a16 a17 a18) (tr256 a19) (rowOf a20)) :=
  congrArg reluH (hostLin256 (Read.val_main_v104 (F := Ideal) a0 a1 a2 a3 a4 a5 a6 a7 a8 a9 a10 a11 a12 a13 a14 a15 a16 a17 a18) (tr256 a19) a20)

theorem v115_eq (a0 : FVec Ideal S100000x28 .f32) (a1 : IVec S2x320000 32) (a2 : IVec S100000 32) (a3 : FVec Ideal S256x28 .f32) (a4 : FVec Ideal S256 .f32)
    (a5 : FVec Ideal S256x28 .f32) (a6 : FVec Ideal S256x256 .f32) (a7 : FVec Ideal S256 .f32) (a8 : FVec Ideal S256x256 .f32)
    (a9 : FVec Ideal S256x256 .f32) (a10 : FVec Ideal S256 .f32) (a11 : FVec Ideal S256x256 .f32) (a12 : FVec Ideal S256x256 .f32) (a13 : FVec Ideal S256 .f32)
    (a14 : FVec Ideal S256x256 .f32) (a15 : FVec Ideal S256x1024 .f32) (a16 : FVec Ideal S256 .f32)
    (a17 : FVec Ideal S256x256 .f32) (a18 : FVec Ideal S256 .f32) (a19 : FVec Ideal S256x256 .f32) (a20 : FVec Ideal S256 .f32)
    (a21 : FVec Ideal S1x256 .f32) (a22 : FVec Ideal S1 .f32) :
    Read.val_main_v115 (F := Ideal) a0 a1 a2 a3 a4 a5 a6 a7 a8 a9 a10 a11 a12 a13 a14 a15 a16 a17 a18 a19 a20 a21 a22
      = affineRow (Read.val_main_v110 (F := Ideal) a0 a1 a2 a3 a4 a5 a6 a7 a8 a9 a10 a11 a12 a13 a14 a15 a16 a17 a18 a19 a20) (tr1 a21) (rowOf1 a22) :=
  hostLin1 (Read.val_main_v110 (F := Ideal) a0 a1 a2 a3 a4 a5 a6 a7 a8 a9 a10 a11 a12 a13 a14 a15 a16 a17 a18 a19 a20) (tr1 a21) a22

/-- The reference's result stage is the network's closed expression. -/
theorem term_eq_final (a0 : FVec Ideal S100000x28 .f32) (a1 : IVec S2x320000 32) (a2 : IVec S100000 32) (a3 : FVec Ideal S256x28 .f32) (a4 : FVec Ideal S256 .f32)
    (a5 : FVec Ideal S256x28 .f32) (a6 : FVec Ideal S256x256 .f32) (a7 : FVec Ideal S256 .f32) (a8 : FVec Ideal S256x256 .f32)
    (a9 : FVec Ideal S256x256 .f32) (a10 : FVec Ideal S256 .f32) (a11 : FVec Ideal S256x256 .f32) (a12 : FVec Ideal S256x256 .f32) (a13 : FVec Ideal S256 .f32)
    (a14 : FVec Ideal S256x256 .f32) (a15 : FVec Ideal S256x1024 .f32) (a16 : FVec Ideal S256 .f32)
    (a17 : FVec Ideal S256x256 .f32) (a18 : FVec Ideal S256 .f32) (a19 : FVec Ideal S256x256 .f32) (a20 : FVec Ideal S256 .f32)
    (a21 : FVec Ideal S1x256 .f32) (a22 : FVec Ideal S1 .f32) :
    Read.val_main_v116 (F := Ideal) a0 a1 a2 a3 a4 a5 a6 a7 a8 a9 a10 a11 a12 a13 a14 a15 a16 a17 a18 a19 a20 a21 a22 = Final a0 a1 a2 a3 a4 a5 a6 a7 a8 a9 a10 a11 a12 a13 a14 a15 a16 a17 a18 a19 a20 a21 a22 := by
  have h : Read.val_main_v116 (F := Ideal) a0 a1 a2 a3 a4 a5 a6 a7 a8 a9 a10 a11 a12 a13 a14 a15 a16 a17 a18 a19 a20 a21 a22
      = shapeCast S4096 (Read.val_main_v115 (F := Ideal) a0 a1 a2 a3 a4 a5 a6 a7 a8 a9 a10 a11 a12 a13 a14 a15 a16 a17 a18 a19 a20 a21 a22) shapeCasts_S4096x1_S4096 := rfl
  rw [h, v115_eq, v110_eq, v104_eq, v98_eq, v92_eq]
  rfl

/-! ## The run

The generated run ends every weakly fair execution with the result buffer at the composed term of the arguments'
launch contents; that term is the result stage, and the result stage is the network's expression. -/

/-- The result term the generated run states is the network's expression of the arguments' launch contents. -/
theorem res_eq_final (m : (ℓ : Loc nD τ sig) → Buf (Elt Ideal) ℓ) (c : Dev nD) :
    Cert.ReferenceIdeal.Value.res_main_v116 (F := Ideal) m c
      = Final (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15))
          (m ((c.tc : Thread nD τ).loc main_arg16)) (m ((c.tc : Thread nD τ).loc main_arg17))
          (m ((c.tc : Thread nD τ).loc main_arg18)) (m ((c.tc : Thread nD τ).loc main_arg19))
          (m ((c.tc : Thread nD τ).loc main_arg20)) (m ((c.tc : Thread nD τ).loc main_arg21))
          (m ((c.tc : Thread nD τ).loc main_arg22)) :=
  (Read.val_main_v116_eq (F := Ideal) m c).trans (term_eq_final _ _ _ _ _ _ _ _ _ _ _ _ _ _ _ _ _ _ _ _ _ _ _)

/-- Every weakly fair execution of the reference ends with the result buffer at the network's expression of the
    arguments' launch contents, and the arguments unchanged. -/
theorem run_final (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v116)
        = Final (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
            (m ((c.tc : Thread nD τ).loc main_arg14)) (m ((c.tc : Thread nD τ).loc main_arg15))
            (m ((c.tc : Thread nD τ).loc main_arg16)) (m ((c.tc : Thread nD τ).loc main_arg17))
            (m ((c.tc : Thread nD τ).loc main_arg18)) (m ((c.tc : Thread nD τ).loc main_arg19))
            (m ((c.tc : Thread nD τ).loc main_arg20)) (m ((c.tc : Thread nD τ).loc main_arg21))
            (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨(h c).1.trans (res_eq_final m c), (h c).2⟩)
    (Cert.ReferenceIdeal.Value.run (F := Ideal) m ρ)

end Cert.ReferenceIdeal.RefValue

end
-- ==== Proof.LibRowOps.lean ====
/-
  A row gather and a row scatter-add read at an entry.

  "Sparse matrix times dense" is written as: take the rows `x[src]` of a dense `[N, C]` array at `E` row numbers,
  scale them, and add row `e` of the `[E, C]` result into row `dst[e]` of an `[N, C]` accumulator. In StableHLO the
  first step is a `gather` whose slices are whole rows (operand `[N, C]`, start indices `[E, 1]`, result `[E, C]`;
  offset axis 1, collapsed axis 0, start index map `[0]`, index vector on axis 1, slice sizes `[1, C]`), and the last
  step is a `scatter` with an `add` body whose windows are whole rows (operand `[N, C]`, scatter indices `[E, 1]`,
  updates `[E, C]`; update window axis 1, inserted window axis 0, scatter-dims-to-operand-dims `[0]`, index vector on
  axis 1). This file reads both at one entry, for all extents `N`, `E`, `C`:

  * `gather_rows_apply`: entry `(e, c)` of the gather is the operand's entry `(r, c)`, where `r` is the start index
    `idx (e, 0)` read as a signed integer and clamped into `[0, N − 1]`;
  * `scatterAdd_rows_apply`: at the ideal instance (the extended reals), entry `(n, c)` of the scatter-add is the
    operand's entry `(n, c)` plus the sum over `e : Fin E` of the update's entry `(e, c)` for those `e` whose scatter
    index `idx (e, 0)`, read as a signed integer, is `n`. An update whose row number is negative or at least `N`
    lands nowhere: it equals no `n : Fin N`.

  Each is stated twice: for the record `rowGatherDims` / `rowScatterDims` built from the extents (a literal record
  with the same lists is that record by unfolding, its decided conditions being a proof of the same proposition), and,
  `…_of_eq`, for ANY record whose lists are the ones above (each hypothesis closes by `rfl` on a literal record), the
  form to rewrite with.
-/
import Idealize.ShloMosaic.PureOps.Ideal.Laws
import Idealize.ShloMosaic.Lib.ValueIdx

noncomputable section

open scoped BigOperators

namespace Cert.LibRowOps

open Idealize.ShloMosaic Idealize.ShloMosaic.ValueIdx

variable {N E C w : Nat}

/-- Axis 1 is not the axis 0 the index maps name. -/
private theorem one_not_mem_zero : (1 : Fin 2) ∉ ([0] : List (Fin 2)) := by decide
/-- Of two axes, the ones other than axis 0 do not include axis 0 … -/
private theorem zero_not_mem_kept : (0 : Fin 2) ∉ (List.finRange 2).filter (fun a => a ∉ ([0] : List (Fin 2))) := by decide
/-- … and do include axis 1. -/
private theorem one_mem_kept : (1 : Fin 2) ∈ (List.finRange 2).filter (fun a => a ∉ ([0] : List (Fin 2))) := by decide
/-- The same with the (empty) list of batching axes appended to the removed ones. -/
private theorem one_mem_kept_append :
    (1 : Fin 2) ∈ (List.finRange 2).filter (fun a => a ∉ ([0] ++ [] : List (Fin 2))) := by decide

/-! ## The row scatter-add -/

/-- The dimension numbers of a scatter of whole rows: operand `[N, C]`, scatter indices `[E, 1]`, updates `[E, C]`;
    the updates' axis 1 is the window axis, the operand's axis 0 is the inserted one and the one the scatter index
    names, and the index vector lies along axis 1 of the scatter indices. Their conditions `wf` are decided on a
    program's literal extents. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis the window of update `(e, c')` starts at the scatter index `idx (e, 0)`, read signed. -/
theorem scatter_start_zero (wf) (idx : IVec ⟨2, ![E, 1]⟩ w) (e : Fin E) (c' : Fin C) :
    (rowScatterDims N E C wf).start (ix2 e c') idx 0 = (idx (ix2 e ⟨0, Nat.one_pos⟩)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the column axis, which no scatter index names, every window starts at `0`. -/
theorem scatter_start_one (wf) (idx : IVec ⟨2, ![E, 1]⟩ w) (j : (⟨2, ![E, C]⟩ : Shape).Idx) :
    (rowScatterDims N E C wf).start j idx 1 = 0 := by
  unfold ScatterDims.start
  rw [dif_neg (show (1 : Fin 2) ∉ (rowScatterDims N E C wf).scatterDimsToOperandDims from one_not_mem_zero)]

/-- The row axis is inserted: the window coordinate there is `0`. -/
theorem scatter_window_zero (wf) (j : (⟨2, ![E, C]⟩ : Shape).Idx) :
    (rowScatterDims N E C wf).window j 0 = 0 := by
  unfold ScatterDims.window
  rw [dif_neg (show (0 : Fin 2) ∉ (rowScatterDims N E C wf).sKept from zero_not_mem_kept)]

/-- On the column axis the window coordinate of update `(e, c')` is its column `c'`. -/
theorem scatter_window_one (wf) (e : Fin E) (c' : Fin C) :
    (rowScatterDims N E C wf).window (ix2 e c') 1 = c'.val := by
  unfold ScatterDims.window
  rw [dif_pos (show (1 : Fin 2) ∈ (rowScatterDims N E C wf).sKept from one_mem_kept)]
  rfl

/-- WHERE AN UPDATE LANDS: update `(e, c')` lands at operand entry `(n, c)` exactly when its scatter index
    `idx (e, 0)`, read signed, is `n` and its column `c'` is `c`. (Start plus window coordinate is the signed index
    on the row axis and `c'` on the column axis; a row outside `[0, N)` is dropped, and is no `n : Fin N`.) -/
theorem scatter_resultIdx?_iff (wf) (idx : IVec ⟨2, ![E, 1]⟩ w) (e : Fin E) (c' : Fin C) (n : Fin N) (c : Fin C) :
    (rowScatterDims N E C wf).resultIdx? (ix2 e c') idx = some (ix2 n c)
      ↔ (idx (ix2 e ⟨0, Nat.one_pos⟩)).toInt = (n.val : Int) ∧ c' = c := by
  have h0 := scatter_start_zero (N := N) wf idx e c'
  have h1 := scatter_start_one (N := N) wf idx (ix2 e c')
  have w0 := scatter_window_zero (N := N) wf (ix2 e c')
  have w1 := scatter_window_one (N := N) wf e c'
  unfold ScatterDims.resultIdx?
  split
  · -- the window is inside the operand: compare the two coordinates
    rename_i h
    have g0 := h 0
    have g1 := h 1
    rw [h0, w0] at g0
    rw [h1, w1] at g1
    rw [Option.some.injEq]
    constructor
    · intro hf
      have e0 : ((rowScatterDims N E C wf).start (ix2 e c') idx 0
          + (rowScatterDims N E C wf).window (ix2 e c') 0).toNat = n.val := congrArg (fun f => (f 0).val) hf
      have e1 : ((rowScatterDims N E C wf).start (ix2 e c') idx 1
          + (rowScatterDims N E C wf).window (ix2 e c') 1).toNat = c.val := congrArg (fun f => (f 1).val) hf
      rw [h0, w0] at e0
      rw [h1, w1] at e1
      exact ⟨by omega, Fin.ext (by omega)⟩
    · rintro ⟨hz, rfl⟩
      funext a
      refine Fin.ext ?_
      match a with
      | ⟨0, _⟩ =>
        show ((rowScatterDims N E C wf).start (ix2 e c') idx 0
          + (rowScatterDims N E C wf).window (ix2 e c') 0).toNat = n.val
        rw [h0, w0]; omega
      | ⟨1, _⟩ =>
        show ((rowScatterDims N E C wf).start (ix2 e c') idx 1
          + (rowScatterDims N E C wf).window (ix2 e c') 1).toNat = c'.val
        rw [h1, w1]; omega
  · -- the window leaves the operand: then the signed index is no row number
    rename_i h
    constructor
    · intro hf; exact absurd hf (by simp)
    · rintro ⟨hz, rfl⟩
      exfalso; apply h; intro a
      match a with
      | ⟨0, _⟩ =>
        show 0 ≤ (rowScatterDims N E C wf).start (ix2 e c') idx 0 + (rowScatterDims N E C wf).window (ix2 e c') 0
          ∧ (rowScatterDims N E C wf).start (ix2 e c') idx 0 + (rowScatterDims N E C wf).window (ix2 e c') 0 < (N : Int)
        rw [h0, w0]; have := n.isLt; omega
      | ⟨1, _⟩ =>
        show 0 ≤ (rowScatterDims N E C wf).start (ix2 e c') idx 1 + (rowScatterDims N E C wf).window (ix2 e c') 1
          ∧ (rowScatterDims N E C wf).start (ix2 e c') idx 1 + (rowScatterDims N E C wf).window (ix2 e c') 1 < (C : Int)
        rw [h1, w1]; have := c'.isLt; omega

/-- THE ROW SCATTER-ADD READ AT `(n, c)`, at the ideal instance: the operand's entry plus the sum, over the update
    rows `e`, of the update's entry `(e, c)` when the scatter index `idx (e, 0)`, read signed, is `n`, and `0`
    otherwise. (The sum over the updates that land at `(n, c)` is a double sum over `(e, c')`; by
    `scatter_resultIdx?_iff` the inner sum over `c'` has the one term `c' = c`.) -/
theorem scatterAdd_rows_apply {φ : FTy} (wf) (x : FVec Ideal ⟨2, ![N, C]⟩ φ) (idx : IVec ⟨2, ![E, 1]⟩ w)
    (upd : FVec Ideal ⟨2, ![E, C]⟩ φ) (n : Fin N) (c : Fin C) :
    Host.scatterAdd (F := Ideal) (rowScatterDims N E C wf) x idx upd (ix2 n c)
      = x (ix2 n c)
        + ∑ e : Fin E, if (idx (ix2 e ⟨0, Nat.one_pos⟩)).toInt = (n.val : Int) then upd (ix2 e c) else 0 := by
  show x (ix2 n c) + ∑ j ∈ Finset.univ.filter
    (fun j => (rowScatterDims N E C wf).resultIdx? j idx = some (ix2 n c)), upd j = _
  congr 1
  rw [Finset.sum_filter, sum_idx2]
  refine Finset.sum_congr rfl fun e _ => ?_
  by_cases hz : (idx (ix2 e ⟨0, Nat.one_pos⟩)).toInt = (n.val : Int)
  · simp only [scatter_resultIdx?_iff, hz, true_and, if_true, Finset.sum_ite_eq', Finset.mem_univ]
  · simp only [scatter_resultIdx?_iff, hz, false_and, if_false, Finset.sum_const_zero]

/-- A record with the row scatter's four lists IS `rowScatterDims`. -/
theorem eq_rowScatterDims (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) : ∃ wf, d = rowScatterDims N E C wf := by
  obtain ⟨uw, iw, sd, iv, wf⟩ := d
  simp only at huw hiw hsd hiv
  subst huw hiw hsd hiv
  exact ⟨wf, rfl⟩

/-- The row scatter-add read at `(n, c)`, for ANY record with the row scatter's four lists. -/
theorem scatterAdd_rows_apply_of_eq {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : FVec Ideal ⟨2, ![N, C]⟩ φ) (idx : IVec ⟨2, ![E, 1]⟩ w)
    (upd : FVec Ideal ⟨2, ![E, C]⟩ φ) (n : Fin N) (c : Fin C) :
    Host.scatterAdd (F := Ideal) d x idx upd (ix2 n c)
      = x (ix2 n c)
        + ∑ e : Fin E, if (idx (ix2 e ⟨0, Nat.one_pos⟩)).toInt = (n.val : Int) then upd (ix2 e c) else 0 := by
  obtain ⟨wf, rfl⟩ := eq_rowScatterDims d huw hiw hsd hiv
  exact scatterAdd_rows_apply wf x idx upd n c

/-! ## The row gather -/

/-- The dimension numbers of a gather of whole rows: operand `[N, C]`, start indices `[E, 1]`, result `[E, C]`; the
    result's axis 1 is the offset axis, the operand's axis 0 is collapsed and is the one the start index names, the
    index vector lies along axis 1 of the start indices, and a slice is one row, `[1, C]`. Their conditions `wf` are
    decided on a program's literal extents. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx (e, 0)`, read signed and clamped into `[0, N − 1]`, and
    column `c`. (On the row axis the operand index is the clamped start, the axis being collapsed and not a batching
    one; on the column axis the start is `0` and the offset coordinate is `c`.) -/
theorem gather_rows_apply {α : Type} (hN : 0 < N) (wf) (x : (⟨2, ![N, C]⟩ : Shape).Idx → α)
    (idx : IVec ⟨2, ![E, 1]⟩ w) (e : Fin E) (c : Fin C) :
    Host.gather (rowGatherDims N E C wf) x idx (ix2 e c)
      = x (ix2 ⟨min (idx (ix2 e ⟨0, Nat.one_pos⟩)).toInt.toNat (N - 1), by omega⟩ c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = min (idx (ix2 e ⟨0, Nat.one_pos⟩)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c)
        ⟨List.idxOf (0 : Fin 2) (rowGatherDims N E C wf).startIndexMap,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap from one_not_mem_zero)]
    have ho : (rowGatherDims N E C wf).offCoord (ix2 e c) 1 = c.val := by
      unfold GatherDims.offCoord
      rw [dif_pos (show (1 : Fin 2) ∈ (rowGatherDims N E C wf).sKept from one_mem_kept_append)]
      rfl
    rw [hs, ho]; omega

/-- A record with the row gather's seven fields IS `rowGatherDims`. -/
theorem eq_rowGatherDims (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C]) : ∃ wf, d = rowGatherDims N E C wf := by
  obtain ⟨od, cd, ob, sb, sm, iv, ss, wf⟩ := d
  simp only at hod hcd hob hsb hsm hiv hss
  subst hod hcd hob hsb hsm hiv hss
  exact ⟨wf, rfl⟩

/-- The row gather read at `(e, c)`, for ANY record with the row gather's seven fields. -/
theorem gather_rows_apply_of_eq {α : Type} (hN : 0 < N) (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C]) (x : (⟨2, ![N, C]⟩ : Shape).Idx → α) (idx : IVec ⟨2, ![E, 1]⟩ w)
    (e : Fin E) (c : Fin C) :
    Host.gather d x idx (ix2 e c)
      = x (ix2 ⟨min (idx (ix2 e ⟨0, Nat.one_pos⟩)).toInt.toNat (N - 1), by omega⟩ c) := by
  obtain ⟨wf, rfl⟩ := eq_rowGatherDims d hod hcd hob hsb hsm hiv hss
  exact gather_rows_apply hN wf x idx e c

end Cert.LibRowOps
-- ==== Proof.LibScatterSet.lean ====
/-
  A scatter whose body returns the update (`x.at[idx].set(v)`), read at one entry.

  The scatter is the left fold, over the update positions in row-major order, of "replace the entry the
  position lands at by the update's value there".  If exactly one update position lands at an entry, the
  entry ends at that update's value, whatever came before; if none does, the entry keeps the operand's value.
  Then the same for a scatter of whole rows (operand `[N, C]`, one scatter index per update row): the row
  whose signed index is `n` is written to operand row `n`.
-/
import proofs.«129706_j63471026700727_2_alg».proof.Proof.LibRowOps

noncomputable section

namespace Cert.LibScatterSet

open Idealize.ShloMosaic Idealize.ShloMosaic.ValueIdx

section general

variable {s si u : Shape} {w : Nat} {α : Type}

/-- One step of the fold: update position `n` replaces the entry it lands at, if it lands inside the operand. -/
def step (d : ScatterDims s si u) (idx : IVec si w) (upd : u.Idx → α) (r : s.Idx → α) (n : Fin u.numel) : s.Idx → α :=
  match d.resultIdx? (u.rowMajor.symm n) idx with
  | some i => fun i' => if i' = i then (fun _ b => b) (r i) (upd (u.rowMajor.symm n)) else r i'
  | none => r

/-- A step read at an entry: the update's value if the position lands there, the old value otherwise. -/
theorem step_apply (d : ScatterDims s si u) (idx : IVec si w) (upd : u.Idx → α) (r : s.Idx → α) (n : Fin u.numel)
    (i' : s.Idx) :
    step d idx upd r n i'
      = if d.resultIdx? (u.rowMajor.symm n) idx = some i' then upd (u.rowMajor.symm n) else r i' := by
  unfold step
  cases h : d.resultIdx? (u.rowMajor.symm n) idx with
  | none => simp
  | some i =>
    by_cases hi : i' = i
    · subst hi; simp
    · have : ¬ (some i = some i') := fun e => hi (Option.some.inj e).symm
      simp [hi, this]

/-- The scatter is the fold of the steps. -/
theorem scatter_eq_fold (d : ScatterDims s si u) (x : s.Idx → α) (idx : IVec si w) (upd : u.Idx → α) :
    Host.scatter d (fun _ b => b) x idx upd = (List.finRange u.numel).foldl (step d idx upd) x := rfl

/-- No position of the list lands at the entry: the fold keeps it. -/
theorem fold_miss (d : ScatterDims s si u) (idx : IVec si w) (upd : u.Idx → α) (i' : s.Idx) :
    ∀ (L : List (Fin u.numel)) (x : s.Idx → α),
      (∀ n ∈ L, d.resultIdx? (u.rowMajor.symm n) idx ≠ some i') → L.foldl (step d idx upd) x i' = x i' := by
  intro L
  induction L with
  | nil => intro x _; rfl
  | cons a L ih =>
    intro x h
    rw [List.foldl_cons, ih _ (fun n hn => h n (List.mem_cons_of_mem _ hn)), step_apply,
      if_neg (h a (List.mem_cons_self))]

/-- Only the position `n0` lands at the entry, and either it is in the list or the entry already holds its value:
    the fold ends at that value. -/
theorem fold_hit (d : ScatterDims s si u) (idx : IVec si w) (upd : u.Idx → α) (i' : s.Idx) (n0 : Fin u.numel)
    (hres : d.resultIdx? (u.rowMajor.symm n0) idx = some i') :
    ∀ (L : List (Fin u.numel)) (x : s.Idx → α),
      (∀ n ∈ L, d.resultIdx? (u.rowMajor.symm n) idx = some i' → n = n0) →
      (x i' = upd (u.rowMajor.symm n0) ∨ n0 ∈ L) →
      L.foldl (step d idx upd) x i' = upd (u.rowMajor.symm n0) := by
  intro L
  induction L with
  | nil =>
    intro x _ h
    rcases h with h | h
    · exact h
    · exact absurd h (List.not_mem_nil)
  | cons a L ih =>
    intro x huniq h
    rw [List.foldl_cons]
    refine ih _ (fun n hn => huniq n (List.mem_cons_of_mem _ hn)) ?_
    rw [step_apply]
    by_cases ha : d.resultIdx? (u.rowMajor.symm a) idx = some i'
    · left
      rw [if_pos ha, huniq a (List.mem_cons_self) ha]
    · rw [if_neg ha]
      rcases h with h | h
      · exact Or.inl h
      · right
        rcases List.mem_cons.1 h with h | h
        · exact absurd (h ▸ hres) ha
        · exact h

/-- THE SET-SCATTER AT AN ENTRY ONE UPDATE LANDS AT: that update's value. -/
theorem scatter_set_hit (d : ScatterDims s si u) (x : s.Idx → α) (idx : IVec si w) (upd : u.Idx → α) (i' : s.Idx)
    (j : u.Idx) (hj : d.resultIdx? j idx = some i') (huniq : ∀ j', d.resultIdx? j' idx = some i' → j' = j) :
    Host.scatter d (fun _ b => b) x idx upd i' = upd j := by
  rw [scatter_eq_fold]
  have hs : u.rowMajor.symm (u.rowMajor j) = j := u.rowMajor.symm_apply_apply j
  have := fold_hit d idx upd i' (u.rowMajor j) (by rw [hs]; exact hj) (List.finRange u.numel) x
    (fun n _ hn => by
      have := huniq _ hn
      rw [← this, Equiv.apply_symm_apply])
    (Or.inr (List.mem_finRange _))
  rw [this, hs]

/-- THE SET-SCATTER AT AN ENTRY NO UPDATE LANDS AT: the operand's value. -/
theorem scatter_set_miss (d : ScatterDims s si u) (x : s.Idx → α) (idx : IVec si w) (upd : u.Idx → α) (i' : s.Idx)
    (h : ∀ j, d.resultIdx? j idx ≠ some i') :
    Host.scatter d (fun _ b => b) x idx upd i' = x i' := by
  rw [scatter_eq_fold]
  exact fold_miss d idx upd i' _ x (fun n _ => h _)

end general

section rows

open Cert.LibRowOps

variable {N E C w : Nat} {α : Type}

/-- A set-scatter of whole rows at `(n, c)` when exactly the update row `e` carries the signed index `n`. -/
theorem scatter_rows_set_hit (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : (⟨2, ![N, C]⟩ : Shape).Idx → α) (idx : IVec ⟨2, ![E, 1]⟩ w)
    (upd : (⟨2, ![E, C]⟩ : Shape).Idx → α) (n : Fin N) (c : Fin C) (e : Fin E)
    (he : (idx (ix2 e ⟨0, Nat.one_pos⟩)).toInt = (n.val : Int))
    (huniq : ∀ e' : Fin E, (idx (ix2 e' ⟨0, Nat.one_pos⟩)).toInt = (n.val : Int) → e' = e) :
    Host.scatter d (fun _ b => b) x idx upd (ix2 n c) = upd (ix2 e c) := by
  obtain ⟨wf, rfl⟩ := eq_rowScatterDims d huw hiw hsd hiv
  refine scatter_set_hit _ x idx upd (ix2 n c) (ix2 e c) ((scatter_resultIdx?_iff wf idx e c n c).2 ⟨he, rfl⟩) ?_
  intro j' hj'
  rw [eq_ix2 j'] at hj' ⊢
  obtain ⟨h1, h2⟩ := (scatter_resultIdx?_iff wf idx (j' 0) (j' 1) n c).1 hj'
  rw [huniq _ h1, h2]
  rfl

/-- A set-scatter of whole rows at `(n, c)` when no update row carries the signed index `n`. -/
theorem scatter_rows_set_miss (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : (⟨2, ![N, C]⟩ : Shape).Idx → α) (idx : IVec ⟨2, ![E, 1]⟩ w)
    (upd : (⟨2, ![E, C]⟩ : Shape).Idx → α) (n : Fin N) (c : Fin C)
    (h : ∀ e : Fin E, (idx (ix2 e ⟨0, Nat.one_pos⟩)).toInt ≠ (n.val : Int)) :
    Host.scatter d (fun _ b => b) x idx upd (ix2 n c) = x (ix2 n c) := by
  obtain ⟨wf, rfl⟩ := eq_rowScatterDims d huw hiw hsd hiv
  refine scatter_set_miss _ x idx upd (ix2 n c) ?_
  intro j hj
  rw [eq_ix2 j] at hj
  exact h _ ((scatter_resultIdx?_iff wf idx (j 0) (j 1) n c).1 hj).1

end rows

end Cert.LibScatterSet

end
-- ==== Proof.KPad.lean ====
/-
  The last layer of the network is computed with its weight column and its bias padded to 128 columns.

  The padded weight is the 256×128 array of zeros with the 256×1 weight written over its first column (a scatter
  whose body returns the update, with one scatter index, the number 0, naming the column the window starts at); the
  padded bias is the same with one row.  Column 0 of the padded arrays is the unpadded array, so column 0 of the
  affine layer with the padded weight and bias is the affine layer with the unpadded ones.

  The scatter is read at an entry of column 0 for all extents: update (k, 0) lands at (k, 0) — on the row axis the
  window starts at 0 and the window coordinate is k, on the column axis the window starts at the scatter index 0 and
  the window coordinate is 0 — and it is the only update that lands there.
-/
import proofs.«129706_j63471026700727_2_alg».proof.KernelIdeal
import proofs.«129706_j63471026700727_2_alg».proof.Proof.LibScatterSet
import proofs.«129706_j63471026700727_2_alg».proof.Proof.LibDenseLayers
import Idealize.ShloMosaic.Lib.Pipeline.Value

noncomputable section

open scoped BigOperators

namespace Cert.KernelIdeal.Pad

open Idealize.ShloMosaic Idealize.ShloMosaic.ValueIdx

section general

variable {R C w : Nat} {α : Type}

/-- The dimension numbers of a scatter that writes an R×1 block over the columns of an R×C array starting at the
    column the one scatter index names: both axes of the updates are window axes, no operand axis is inserted, the
    scatter index names the column axis, and the index vector is the whole one-entry index array. -/
abbrev colScatterDims (R C : Nat)
    (wf : ScatterDims.WF ⟨2, ![R, C]⟩ ⟨1, ![1]⟩ ⟨2, ![R, 1]⟩ [0, 1] [] [1] 0) :
    ScatterDims ⟨2, ![R, C]⟩ ⟨1, ![1]⟩ ⟨2, ![R, 1]⟩ where
  updateWindowDims := [0, 1]
  insertedWindowDims := []
  scatterDimsToOperandDims := [1]
  indexVectorDim := 0
  wf := wf

private theorem zero_not_mem_one : (0 : Fin 2) ∉ ([1] : List (Fin 2)) := by decide
private theorem zero_mem_kept : (0 : Fin 2) ∈ (List.finRange 2).filter (fun a => a ∉ ([] : List (Fin 2))) := by decide
private theorem one_mem_kept : (1 : Fin 2) ∈ (List.finRange 2).filter (fun a => a ∉ ([] : List (Fin 2))) := by decide

/-- On the row axis, which the scatter index does not name, the window starts at 0. -/
theorem start_zero (wf) (idx : IVec ⟨1, ![1]⟩ w) (j : (⟨2, ![R, 1]⟩ : Shape).Idx) :
    (colScatterDims R C wf).start j idx 0 = 0 := by
  unfold ScatterDims.start
  rw [dif_neg (show (0 : Fin 2) ∉ (colScatterDims R C wf).scatterDimsToOperandDims from zero_not_mem_one)]

/-- On the column axis the window starts at the one scatter index, read signed. -/
theorem start_one (wf) (idx : IVec ⟨1, ![1]⟩ w) (j : (⟨2, ![R, 1]⟩ : Shape).Idx) :
    (colScatterDims R C wf).start j idx 1 = (idx (ix1 ⟨0, Nat.one_pos⟩)).toInt := by
  unfold ScatterDims.start
  rw [dif_pos (show (1 : Fin 2) ∈ (colScatterDims R C wf).scatterDimsToOperandDims from List.mem_singleton.mpr rfl)]
  have hsi : (colScatterDims R C wf).siIdx j
      ⟨List.idxOf (1 : Fin 2) (colScatterDims R C wf).scatterDimsToOperandDims,
        List.idxOf_lt_length_iff.2 (List.mem_singleton.mpr rfl)⟩ = ix1 ⟨0, Nat.one_pos⟩ := by
    funext b; refine Fin.ext ?_
    match b with
    | ⟨0, _⟩ => rfl
  rw [hsi]

/-- The window coordinate on the row axis is the update's row. -/
theorem window_zero (wf) (j : (⟨2, ![R, 1]⟩ : Shape).Idx) :
    (colScatterDims R C wf).window j 0 = (j 0).val := by
  unfold ScatterDims.window
  rw [dif_pos (show (0 : Fin 2) ∈ (colScatterDims R C wf).sKept from zero_mem_kept)]
  rfl

/-- The window coordinate on the column axis is the update's column, which is 0. -/
theorem window_one (wf) (j : (⟨2, ![R, 1]⟩ : Shape).Idx) :
    (colScatterDims R C wf).window j 1 = 0 := by
  unfold ScatterDims.window
  rw [dif_pos (show (1 : Fin 2) ∈ (colScatterDims R C wf).sKept from one_mem_kept)]
  show (j 1).val = 0
  have h : (j 1).val < 1 := (j 1).isLt
  omega

/-- Start plus window coordinate of update j, when the scatter index is 0: its row on the row axis, 0 on the
    column axis. -/
theorem start_add_window (wf) (idx : IVec ⟨1, ![1]⟩ w) (hidx : (idx (ix1 ⟨0, Nat.one_pos⟩)).toInt = 0)
    (hC : 0 < C) (j : (⟨2, ![R, 1]⟩ : Shape).Idx) (a : Fin 2) :
    (colScatterDims R C wf).start j idx a + (colScatterDims R C wf).window j a
      = (((ix2 (j 0) (⟨0, hC⟩ : Fin C)) a).val : Int) := by
  match a with
  | ⟨0, _⟩ =>
    show (colScatterDims R C wf).start j idx 0 + (colScatterDims R C wf).window j 0 = ((j 0).val : Int)
    rw [start_zero, window_zero]; omega
  | ⟨1, _⟩ =>
    show (colScatterDims R C wf).start j idx 1 + (colScatterDims R C wf).window j 1 = ((0 : Nat) : Int)
    rw [start_one, window_one, hidx]; rfl

/-- WHERE AN UPDATE LANDS when the scatter index is 0: update j lands at (row of j, 0). -/
theorem col_resultIdx? (wf) (idx : IVec ⟨1, ![1]⟩ w) (hidx : (idx (ix1 ⟨0, Nat.one_pos⟩)).toInt = 0)
    (hC : 0 < C) (j : (⟨2, ![R, 1]⟩ : Shape).Idx) :
    (colScatterDims R C wf).resultIdx? j idx = some (ix2 (j 0) (⟨0, hC⟩ : Fin C)) := by
  have hs := start_add_window (R := R) wf idx hidx hC j
  unfold ScatterDims.resultIdx?
  rw [dif_pos (fun a => by
    rw [hs a]
    exact ⟨Int.natCast_nonneg _, Int.ofNat_lt.mpr ((ix2 (j 0) (⟨0, hC⟩ : Fin C)) a).isLt⟩)]
  refine congrArg some (funext fun a => Fin.ext ?_)
  show ((colScatterDims R C wf).start j idx a + (colScatterDims R C wf).window j a).toNat = _
  rw [hs a]
  exact Int.toNat_natCast _

/-- A record with the column scatter's four lists IS colScatterDims. -/
theorem eq_colScatterDims (d : ScatterDims ⟨2, ![R, C]⟩ ⟨1, ![1]⟩ ⟨2, ![R, 1]⟩)
    (huw : d.updateWindowDims = [0, 1]) (hiw : d.insertedWindowDims = []) (hsd : d.scatterDimsToOperandDims = [1])
    (hiv : d.indexVectorDim = 0) : ∃ wf, d = colScatterDims R C wf := by
  obtain ⟨uw, iw, sd, iv, wf⟩ := d
  simp only at huw hiw hsd hiv
  subst huw hiw hsd hiv
  exact ⟨wf, rfl⟩

/-- THE SCATTER READ IN COLUMN 0: a scatter whose body returns the update, writing an R×1 block at the column the
    scatter index 0 names, read at (k, 0), is the block's entry (k, 0). -/
theorem scatter_col0_apply (d : ScatterDims ⟨2, ![R, C]⟩ ⟨1, ![1]⟩ ⟨2, ![R, 1]⟩)
    (huw : d.updateWindowDims = [0, 1]) (hiw : d.insertedWindowDims = []) (hsd : d.scatterDimsToOperandDims = [1])
    (hiv : d.indexVectorDim = 0) (x : (⟨2, ![R, C]⟩ : Shape).Idx → α) (idx : IVec ⟨1, ![1]⟩ w)
    (hidx : (idx (ix1 ⟨0, Nat.one_pos⟩)).toInt = 0) (upd : (⟨2, ![R, 1]⟩ : Shape).Idx → α) (hC : 0 < C) (k : Fin R) :
    Host.scatter d (fun _ b => b) x idx upd (ix2 k (⟨0, hC⟩ : Fin C)) = upd (ix2 k (0 : Fin 1)) := by
  obtain ⟨wf, rfl⟩ := eq_colScatterDims d huw hiw hsd hiv
  refine Cert.LibScatterSet.scatter_set_hit _ x idx upd (ix2 k (⟨0, hC⟩ : Fin C)) (ix2 k (0 : Fin 1))
    (col_resultIdx? wf idx hidx hC _) ?_
  intro j' hj'
  rw [col_resultIdx? wf idx hidx hC j'] at hj'
  have h0 : j' 0 = k := congrArg (fun f => f 0) (Option.some.inj hj')
  have h1 : (j' 1).val = 0 := by
    have h : (j' 1).val < 1 := (j' 1).isLt
    omega
  rw [eq_ix2 j']
  funext a
  match a with
  | ⟨0, _⟩ => exact h0
  | ⟨1, _⟩ => exact Fin.ext h1

end general

section program

variable [Facts]
open Facts₀ Facts
open Cert.LibDenseLayers

/-- The padded weight: the 256×128 zeros with the 256×1 weight written over column 0. -/
def Wpad (w : FVec Ideal S256x1 .f32) : FVec Ideal S256x128 .f32 :=
  Host.scatter scatter_S256x128_S1_S256x1_01_n_1_0 (fun _ b => b)
    (broadcastInDim S256x128 ![] bcast_S_S256x128 (constant (F := Ideal) S_ .f32 0x00000000#32))
    (broadcastInDim S1 ![] bcast_S_S1 (constantI S_ 32 0#32)) w

/-- The padded bias: the 1×128 zeros with the 1×1 bias written over column 0. -/
def bpad (b : FVec Ideal S1x1 .f32) : FVec Ideal S1x128 .f32 :=
  Host.scatter scatter_S1x128_S1_S1x1_01_n_1_0 (fun _ b => b)
    (broadcastInDim S1x128 ![] bcast_S_S1x128 (constant (F := Ideal) S_ .f32 0x00000000#32))
    (broadcastInDim S1 ![] bcast_S_S1 (constantI S_ 32 0#32)) b

/-- The scatter index, the constant 0 broadcast to one entry, is 0 read signed. -/
theorem idx_zero : ((broadcastInDim S1 ![] bcast_S_S1 (constantI S_ 32 0#32) : IVec S1 32) (ix1 ⟨0, Nat.one_pos⟩)).toInt = 0 := by
  show (0#32 : BitVec 32).toInt = 0
  decide

/-- Column 0 of the padded weight is the weight. -/
theorem Wpad_col0 (w : FVec Ideal S256x1 .f32) (k : Fin 256) :
    Wpad w (ix2 k (0 : Fin 128)) = w (ix2 k (0 : Fin 1)) :=
  scatter_col0_apply scatter_S256x128_S1_S256x1_01_n_1_0 rfl rfl rfl rfl _ _ idx_zero w (by decide) k

/-- Entry (0, 0) of the padded bias is the bias. -/
theorem bpad_00 (b : FVec Ideal S1x1 .f32) :
    bpad b (ix2 (0 : Fin 1) (0 : Fin 128)) = b (ix2 (0 : Fin 1) (0 : Fin 1)) :=
  scatter_col0_apply scatter_S1x128_S1_S1x1_01_n_1_0 rfl rfl rfl rfl _ _ idx_zero b (by decide) 0

/-- COLUMN 0 OF THE PADDED LAYER IS THE UNPADDED LAYER: entry (r, 0) of the affine layer with the padded weight and
    bias is the sum over k of h (r, k) times column 0 of the padded weight, plus entry (0, 0) of the padded bias. -/
theorem pad_out (h : FVec Ideal ⟨2, ![4096, 256]⟩ .f32) (w : FVec Ideal S256x1 .f32) (b : FVec Ideal S1x1 .f32) :
    shapeCast S4096 (extractStridedSlice S4096x1 ![0, 0] (affineRow h (Wpad w) (bpad b)) slices_S4096x128_S4096x1_0_0)
        shapeCasts_S4096x1_S4096
      = shapeCast S4096 (affineRow h w b) shapeCasts_S4096x1_S4096 := by
  refine congrArg (fun v => shapeCast S4096 v shapeCasts_S4096x1_S4096) ?_
  funext i
  obtain ⟨r, c, rfl⟩ : ∃ (r : Fin 4096) (c : Fin 1), i = ix2 r c := ⟨i 0, i 1, eq_ix2 i⟩
  obtain rfl : c = (0 : Fin 1) := Subsingleton.elim _ _
  refine (extractStridedSlice_apply ![0, 0] _ slices_S4096x128_S4096x1_0_0 (ix2 r (0 : Fin 1)) (ix2 r (0 : Fin 128)) ?_).trans ?_
  · intro a
    match a with
    | ⟨0, _⟩ => show r.val = 0 + r.val; omega
    | ⟨1, _⟩ => rfl
  rw [affineRow_ix2, affineRow_ix2, bpad_00]
  refine congrArg (· + b (ix2 (0 : Fin 1) (0 : Fin 1))) ?_
  exact Finset.sum_congr rfl fun k _ => by rw [Wpad_col0]

end program

end Cert.KernelIdeal.Pad

end
-- ==== Proof.KHost.lean ====
/-
  The host stretches of the kernel program, read back.

  Between its kernel launches the program runs straight lines of array operations on the host.  After such a line
  each buffer it writes holds an array expression of what the buffers held before the line, and the other buffers
  keep their contents.  The expressions are the ones the reference network is written in: the edge list's two
  rows, the transposed weight matrices, the one-row biases, and the sum over the edges into each node of the
  source node's features (a scatter-add, at the edge's destination, of the rows gathered at the edge's source).
  The pool differs in spelling only: the kernel program adds the rows of each graph layer by layer and joins the
  four sums along the feature axis, where the reference joins the features first.  The last layer's weight column
  and bias are written over column 0 of zero arrays 128 columns wide, and the result is column 0 of the last
  launch's output, read as a vector.

  Each statement is for an arbitrary valuation of the buffers before the line: the line's operations are unfolded
  in order, each result read at its own buffer, and what is left is the named expression by unfolding (the two
  programs' shape names and dimension records are different constants with equal values).
-/
import proofs.«129706_j63471026700727_2_alg».proof.Proof.Gen.KernelIdeal.Launch
import proofs.«129706_j63471026700727_2_alg».proof.Proof.Gen.KernelIdeal.Regions
import proofs.«129706_j63471026700727_2_alg».proof.Proof.RefFinal
import proofs.«129706_j63471026700727_2_alg».proof.Proof.KPad

noncomputable section

namespace Cert.KernelIdeal.HostVal

open Cert.KernelIdeal Cert.KernelIdeal.Gen Idealize.ShloMosaic Idealize.ShloMosaic.TcCoe Idealize.SL.Sem
open Cert.ReferenceIdeal.RefValue (srcRow dstRow tr28 tr256 tr1024 tr1 rowOf rowOf1 agg28 agg256r batchIdx poolCnts)

/-! ## Stretch 0: the edge rows, the transposed convolution weights, the first neighbourhood sum and bias row -/

theorem s0_v1 (W : Valuation τ sig (Elt Ideal)) :
    StableHlo.after (hostOps0 (F := Ideal)) W (Proc.devRef .tc main_v1) = srcRow (W (Proc.devRef .tc main_arg1)) := by
  after_results_simp <;> rfl

theorem s0_v3 (W : Valuation τ sig (Elt Ideal)) :
    StableHlo.after (hostOps0 (F := Ideal)) W (Proc.devRef .tc main_v3) = dstRow (W (Proc.devRef .tc main_arg1)) := by
  after_results_simp <;> rfl

theorem s0_v4 (W : Valuation τ sig (Elt Ideal)) :
    StableHlo.after (hostOps0 (F := Ideal)) W (Proc.devRef .tc main_v4) = tr28 (W (Proc.devRef .tc main_arg3)) := by
  after_results_simp <;> rfl

theorem s0_v5 (W : Valuation τ sig (Elt Ideal)) :
    StableHlo.after (hostOps0 (F := Ideal)) W (Proc.devRef .tc main_v5) = tr28 (W (Proc.devRef .tc main_arg5)) := by
  after_results_simp <;> rfl

theorem s0_v6 (W : Valuation τ sig (Elt Ideal)) :
    StableHlo.after (hostOps0 (F := Ideal)) W (Proc.devRef .tc main_v6) = tr256 (W (Proc.devRef .tc main_arg6)) := by
  after_results_simp <;> rfl

theorem s0_v7 (W : Valuation τ sig (Elt Ideal)) :
    StableHlo.after (hostOps0 (F := Ideal)) W (Proc.devRef .tc main_v7) = tr256 (W (Proc.devRef .tc main_arg8)) := by
  after_results_simp <;> rfl

theorem s0_v8 (W : Valuation τ sig (Elt Ideal)) :
    StableHlo.after (hostOps0 (F := Ideal)) W (Proc.devRef .tc main_v8) = tr256 (W (Proc.devRef .tc main_arg9)) := by
  after_results_simp <;> rfl

theorem s0_v9 (W : Valuation τ sig (Elt Ideal)) :
    StableHlo.after (hostOps0 (F := Ideal)) W (Proc.devRef .tc main_v9) = tr256 (W (Proc.devRef .tc main_arg11)) := by
  after_results_simp <;> rfl

theorem s0_v10 (W : Valuation τ sig (Elt Ideal)) :
    StableHlo.after (hostOps0 (F := Ideal)) W (Proc.devRef .tc main_v10) = tr256 (W (Proc.devRef .tc main_arg12)) := by
  after_results_simp <;> rfl

theorem s0_v11 (W : Valuation τ sig (Elt Ideal)) :
    StableHlo.after (hostOps0 (F := Ideal)) W (Proc.devRef .tc main_v11) = tr256 (W (Proc.devRef .tc main_arg14)) := by
  after_results_simp <;> rfl

theorem s0_v21 (W : Valuation τ sig (Elt Ideal)) :
    StableHlo.after (hostOps0 (F := Ideal)) W (Proc.devRef .tc main_v21)
      = agg28 (W (Proc.devRef .tc main_arg0)) (W (Proc.devRef .tc main_arg1)) := by
  after_results_simp <;> rfl

theorem s0_v22 (W : Valuation τ sig (Elt Ideal)) :
    StableHlo.after (hostOps0 (F := Ideal)) W (Proc.devRef .tc main_v22) = rowOf (W (Proc.devRef .tc main_arg4)) := by
  after_results_simp <;> rfl

/-! ## Stretches 1, 2, 3: the next neighbourhood sum, of the previous launch's output, and the next bias row

These stretches read the edge rows that stretch 0 left in main_v1 and main_v3. -/

theorem s1_v33 (W : Valuation τ sig (Elt Ideal)) :
    StableHlo.after (hostOps1 (F := Ideal)) W (Proc.devRef .tc main_v33)
      = agg256r (W (Proc.devRef .tc main_v23)) (W (Proc.devRef .tc main_v1)) (W (Proc.devRef .tc main_v3)) := by
  after_results_simp <;> rfl

theorem s1_v34 (W : Valuation τ sig (Elt Ideal)) :
    StableHlo.after (hostOps1 (F := Ideal)) W (Proc.devRef .tc main_v34) = rowOf (W (Proc.devRef .tc main_arg7)) := by
  after_results_simp <;> rfl

theorem s2_v45 (W : Valuation τ sig (Elt Ideal)) :
    StableHlo.after (hostOps2 (F := Ideal)) W (Proc.devRef .tc main_v45)
      = agg256r (W (Proc.devRef .tc main_v35)) (W (Proc.devRef .tc main_v1)) (W (Proc.devRef .tc main_v3)) := by
  after_results_simp <;> rfl

theorem s2_v46 (W : Valuation τ sig (Elt Ideal)) :
    StableHlo.after (hostOps2 (F := Ideal)) W (Proc.devRef .tc main_v46) = rowOf (W (Proc.devRef .tc main_arg10)) := by
  after_results_simp <;> rfl

theorem s3_v57 (W : Valuation τ sig (Elt Ideal)) :
    StableHlo.after (hostOps3 (F := Ideal)) W (Proc.devRef .tc main_v57)
      = agg256r (W (Proc.devRef .tc main_v47)) (W (Proc.devRef .tc main_v1)) (W (Proc.devRef .tc main_v3)) := by
  after_results_simp <;> rfl

theorem s3_v58 (W : Valuation τ sig (Elt Ideal)) :
    StableHlo.after (hostOps3 (F := Ideal)) W (Proc.devRef .tc main_v58) = rowOf (W (Proc.devRef .tc main_arg13)) := by
  after_results_simp <;> rfl

/-! ## Stretch 4: the pool, the perceptron's transposed weights and bias rows, the padded last layer -/

/-- The sum of each graph's rows of one layer's features. -/
def gsum (X : FVec Ideal S100000x256 .f32) (batch : IVec S100000 32) : FVec Ideal S4096x256 .f32 :=
  Host.scatterAdd scatter_S4096x256_S100000x1_S100000x256_1_0_0_1
    (broadcastInDim S4096x256 ![] bcast_S_S4096x256 (constant (F := Ideal) S_ .f32 0x00000000#32))
    (batchIdx batch) X

/-- The mean pool as the kernel program spells it: the four layers' sums over each graph side by side, divided by
    the number of nodes of the graph (at least one). -/
def kpool (X1 X2 X3 X4 : FVec Ideal S100000x256 .f32) (batch : IVec S100000 32) : FVec Ideal S4096x1024 .f32 :=
  Host.divf
    (concatenate S4096x1024 1 [⟨S4096x256, gsum X1 batch⟩, ⟨S4096x256, gsum X2 batch⟩, ⟨S4096x256, gsum X3 batch⟩,
        ⟨S4096x256, gsum X4 batch⟩] concatenates_S4096x256_S4096x256_S4096x256_S4096x256_S4096x1024_d1)
    (broadcastInDim S4096x1024 ![0, 1] bcast_S4096x1_S4096x1024_0_1
      (broadcastInDim S4096x1 ![0] bcast_S4096_S4096x1_0 (poolCnts batch)))

theorem s4_v81 (W : Valuation τ sig (Elt Ideal)) :
    StableHlo.after (hostOps4 (F := Ideal)) W (Proc.devRef .tc main_v81)
      = kpool (W (Proc.devRef .tc main_v23)) (W (Proc.devRef .tc main_v35)) (W (Proc.devRef .tc main_v47))
          (W (Proc.devRef .tc main_v59)) (W (Proc.devRef .tc main_arg2)) := by
  after_results_simp <;> rfl

theorem s4_v82 (W : Valuation τ sig (Elt Ideal)) :
    StableHlo.after (hostOps4 (F := Ideal)) W (Proc.devRef .tc main_v82) = tr1024 (W (Proc.devRef .tc main_arg15)) := by
  after_results_simp <;> rfl

theorem s4_v83 (W : Valuation τ sig (Elt Ideal)) :
    StableHlo.after (hostOps4 (F := Ideal)) W (Proc.devRef .tc main_v83) = tr256 (W (Proc.devRef .tc main_arg17)) := by
  after_results_simp <;> rfl

theorem s4_v84 (W : Valuation τ sig (Elt Ideal)) :
    StableHlo.after (hostOps4 (F := Ideal)) W (Proc.devRef .tc main_v84) = tr256 (W (Proc.devRef .tc main_arg19)) := by
  after_results_simp <;> rfl

theorem s4_v85 (W : Valuation τ sig (Elt Ideal)) :
    StableHlo.after (hostOps4 (F := Ideal)) W (Proc.devRef .tc main_v85) = rowOf (W (Proc.devRef .tc main_arg16)) := by
  after_results_simp <;> rfl

theorem s4_v86 (W : Valuation τ sig (Elt Ideal)) :
    StableHlo.after (hostOps4 (F := Ideal)) W (Proc.devRef .tc main_v86) = rowOf (W (Proc.devRef .tc main_arg18)) := by
  after_results_simp <;> rfl

theorem s4_v87 (W : Valuation τ sig (Elt Ideal)) :
    StableHlo.after (hostOps4 (F := Ideal)) W (Proc.devRef .tc main_v87) = rowOf (W (Proc.devRef .tc main_arg20)) := by
  after_results_simp <;> rfl

/-- The last layer's weight column written over column 0 of the 256×128 zeros. -/
theorem s4_v91 (W : Valuation τ sig (Elt Ideal)) :
    StableHlo.after (hostOps4 (F := Ideal)) W (Proc.devRef .tc main_v91)
      = Cert.KernelIdeal.Pad.Wpad (tr1 (W (Proc.devRef .tc main_arg21))) := by
  after_results_simp <;> rfl

/-- The last layer's bias written over column 0 of the 1×128 zeros. -/
theorem s4_v95 (W : Valuation τ sig (Elt Ideal)) :
    StableHlo.after (hostOps4 (F := Ideal)) W (Proc.devRef .tc main_v95)
      = Cert.KernelIdeal.Pad.bpad (rowOf1 (W (Proc.devRef .tc main_arg22))) := by
  after_results_simp <;> rfl

/-! ## Stretch 5: column 0 of the last launch's output, as a vector -/

theorem s5_v98 (W : Valuation τ sig (Elt Ideal)) :
    StableHlo.after (hostOps5 (F := Ideal)) W (Proc.devRef .tc main_v98)
      = shapeCast S4096 (extractStridedSlice S4096x1 ![0, 0] (W (Proc.devRef .tc main_v96)) slices_S4096x128_S4096x1_0_0)
          shapeCasts_S4096x1_S4096 := by
  after_results_simp <;> rfl

end Cert.KernelIdeal.HostVal

end
-- ==== Proof.KPool.lean ====
/-
  The mean-pool of the four layer outputs, summed per graph: the kernel sums each 100000×256 layer output into the
  4096×256 per-graph totals (a scatter-add of whole rows into zeros, row n going to the graph idx n names) and then
  lays the four totals side by side; the reference lays the four layer outputs side by side first and sums the
  100000×1024 result into 4096×1024 zeros.  The two agree: entry (g, 256·l + k) of either is
  0 + ∑ n, [idx n = g] · X_l (n, k) — a scatter-add of whole rows is a sum per column, and a column of a concatenation
  along the column axis is a column of one piece.  Both are read at the extended reals, for any extents.
-/
import proofs.«129706_j63471026700727_2_alg».proof.KernelIdeal
import proofs.«129706_j63471026700727_2_alg».proof.Proof.LibRowOps
import Idealize.ShloMosaic.Lib.Pipeline.Value

noncomputable section

open scoped BigOperators

namespace Cert.KernelIdeal.Pool

open Idealize.ShloMosaic Idealize.ShloMosaic.ValueIdx

section general

variable {α : Type}

/-- A concatenation of four pieces of one shape read in piece r: that piece at the index whose coordinate on the
    concatenation axis is moved back by r extents. -/
theorem concat4_apply {t s : Shape} (a : Fin t.rank) (x0 x1 x2 x3 : s.Idx → α)
    (h : Shape.Concatenates (([⟨s, x0⟩, ⟨s, x1⟩, ⟨s, x2⟩, ⟨s, x3⟩] : List ((s : Shape) × (s.Idx → α))).map (·.1)) t a)
    (hr : s.rank = t.rank) (r : Fin 4) (j : t.Idx) (i : s.Idx)
    (hi : ∀ b : Fin s.rank, b.cast hr ≠ a → (i b).val = (j (b.cast hr)).val)
    (ha : r.val * s.size (a.cast hr.symm) + (i (a.cast hr.symm)).val = (j a).val) :
    concatenate t a [⟨s, x0⟩, ⟨s, x1⟩, ⟨s, x2⟩, ⟨s, x3⟩] h j = (![x0, x1, x2, x3] r) i := by
  match r with
  | ⟨0, _⟩ =>
    exact concatenate_apply_piece a _ h j 0 (by simp) s x0 rfl hr 0 rfl i hi (by simpa using ha)
  | ⟨1, _⟩ =>
    refine concatenate_apply_piece a _ h j 1 (by simp) s x1 rfl hr (s.size (a.cast hr.symm)) ?_ i hi (by simpa using ha)
    simp [dif_pos hr]
  | ⟨2, _⟩ =>
    refine concatenate_apply_piece a _ h j 2 (by simp) s x2 rfl hr (s.size (a.cast hr.symm) + s.size (a.cast hr.symm)) ?_ i hi (by
      have := ha; simp only at this; omega)
    simp [dif_pos hr]
  | ⟨3, _⟩ =>
    refine concatenate_apply_piece a _ h j 3 (by simp) s x3 rfl hr
      (s.size (a.cast hr.symm) + s.size (a.cast hr.symm) + s.size (a.cast hr.symm)) ?_ i hi (by
      have := ha; simp only at this; omega)
    simp [dif_pos hr, Nat.add_assoc]

/-- Four G×C pieces laid side by side, read at (g, c) with c = l·C + k: piece l at (g, k). -/
theorem concat4_cols_apply {G C C4 : Nat} (x0 x1 x2 x3 : (⟨2, ![G, C]⟩ : Shape).Idx → α)
    (h : Shape.Concatenates [(⟨2, ![G, C]⟩ : Shape), ⟨2, ![G, C]⟩, ⟨2, ![G, C]⟩, ⟨2, ![G, C]⟩] ⟨2, ![G, C4]⟩ (1 : Fin 2))
    (g : Fin G) (l : Fin 4) (k : Fin C) (c : Fin C4) (hc : l.val * C + k.val = c.val) :
    concatenate ⟨2, ![G, C4]⟩ (1 : Fin 2) [⟨⟨2, ![G, C]⟩, x0⟩, ⟨⟨2, ![G, C]⟩, x1⟩, ⟨⟨2, ![G, C]⟩, x2⟩, ⟨⟨2, ![G, C]⟩, x3⟩] h (ix2 g c)
      = (![x0, x1, x2, x3] l) (ix2 g k) := by
  refine concat4_apply (t := ⟨2, ![G, C4]⟩) (s := ⟨2, ![G, C]⟩) (1 : Fin 2) x0 x1 x2 x3 h rfl l (ix2 g c) (ix2 g k) ?_ hc
  intro b hb
  match b with
  | ⟨0, _⟩ => rfl
  | ⟨1, _⟩ => exact absurd rfl hb

/-- The scalar zero constant broadcast over any shape is zero at every index. -/
theorem zeros_apply {s : Shape} (h : (⟨0, ![]⟩ : Shape).BroadcastsInDim s (![] : Fin 0 → Fin s.rank)) (i : s.Idx) :
    broadcastInDim s (![] : Fin 0 → Fin s.rank) h (constant (F := Ideal) ⟨0, ![]⟩ .f32 0x00000000#32) i = 0 := by
  rw [broadcastInDim_apply (![] : Fin 0 → Fin s.rank) h _ i ix0 (fun a => a.elim0), constant_apply, Ideal.ofBits_zero_f32]

end general

section pool

open Cert.LibRowOps

variable {N E C C4 w : Nat}

/-- THE POOL OF A CONCATENATION IS THE CONCATENATION OF THE POOLS, for any extents with C4 = 4·C: at (g, l·C + k)
    both sides are 0 + ∑ e, [idx e = g] · X_l (e, k). -/
theorem pool_concat_general (hC4 : C4 = 4 * C)
    (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (d' : ScatterDims ⟨2, ![N, C4]⟩ ⟨2, ![E, 1]⟩ ⟨2, ![E, C4]⟩)
    (huw' : d'.updateWindowDims = [1]) (hiw' : d'.insertedWindowDims = [0]) (hsd' : d'.scatterDimsToOperandDims = [0])
    (hiv' : d'.indexVectorDim = 1)
    (hb : (⟨0, ![]⟩ : Shape).BroadcastsInDim ⟨2, ![N, C]⟩ (![] : Fin 0 → Fin 2))
    (hb' : (⟨0, ![]⟩ : Shape).BroadcastsInDim ⟨2, ![N, C4]⟩ (![] : Fin 0 → Fin 2))
    (hc : Shape.Concatenates [(⟨2, ![N, C]⟩ : Shape), ⟨2, ![N, C]⟩, ⟨2, ![N, C]⟩, ⟨2, ![N, C]⟩] ⟨2, ![N, C4]⟩ (1 : Fin 2))
    (hc' : Shape.Concatenates [(⟨2, ![E, C]⟩ : Shape), ⟨2, ![E, C]⟩, ⟨2, ![E, C]⟩, ⟨2, ![E, C]⟩] ⟨2, ![E, C4]⟩ (1 : Fin 2))
    (X1 X2 X3 X4 : FVec Ideal ⟨2, ![E, C]⟩ .f32) (idx : IVec ⟨2, ![E, 1]⟩ w) :
    concatenate ⟨2, ![N, C4]⟩ (1 : Fin 2)
        [⟨⟨2, ![N, C]⟩, Host.scatterAdd (F := Ideal) d (broadcastInDim ⟨2, ![N, C]⟩ ![] hb (constant (F := Ideal) ⟨0, ![]⟩ .f32 0x00000000#32)) idx X1⟩,
         ⟨⟨2, ![N, C]⟩, Host.scatterAdd (F := Ideal) d (broadcastInDim ⟨2, ![N, C]⟩ ![] hb (constant (F := Ideal) ⟨0, ![]⟩ .f32 0x00000000#32)) idx X2⟩,
         ⟨⟨2, ![N, C]⟩, Host.scatterAdd (F := Ideal) d (broadcastInDim ⟨2, ![N, C]⟩ ![] hb (constant (F := Ideal) ⟨0, ![]⟩ .f32 0x00000000#32)) idx X3⟩,
         ⟨⟨2, ![N, C]⟩, Host.scatterAdd (F := Ideal) d (broadcastInDim ⟨2, ![N, C]⟩ ![] hb (constant (F := Ideal) ⟨0, ![]⟩ .f32 0x00000000#32)) idx X4⟩] hc
      = Host.scatterAdd (F := Ideal) d' (broadcastInDim ⟨2, ![N, C4]⟩ ![] hb' (constant (F := Ideal) ⟨0, ![]⟩ .f32 0x00000000#32)) idx
          (concatenate ⟨2, ![E, C4]⟩ (1 : Fin 2) [⟨⟨2, ![E, C]⟩, X1⟩, ⟨⟨2, ![E, C]⟩, X2⟩, ⟨⟨2, ![E, C]⟩, X3⟩, ⟨⟨2, ![E, C]⟩, X4⟩] hc') := by
  funext j
  obtain ⟨g, c, rfl⟩ : ∃ (g : Fin N) (c : Fin C4), j = ix2 g c := ⟨j 0, j 1, eq_ix2 j⟩
  have hCpos : 0 < C := by have := c.isLt; omega
  have hl : c.val / C < 4 := by
    rw [Nat.div_lt_iff_lt_mul hCpos]; have := c.isLt; omega
  have hlk : (⟨c.val / C, hl⟩ : Fin 4).val * C + (⟨c.val % C, Nat.mod_lt _ hCpos⟩ : Fin C).val = c.val := by
    show c.val / C * C + c.val % C = c.val
    rw [Nat.mul_comm]; exact Nat.div_add_mod _ _
  generalize (⟨c.val / C, hl⟩ : Fin 4) = l at hlk
  generalize (⟨c.val % C, Nat.mod_lt _ hCpos⟩ : Fin C) = k at hlk
  -- the left side: piece l of the four pools, at (g, k)
  refine (concat4_cols_apply _ _ _ _ hc g l k c hlk).trans ?_
  -- the right side: the sum per column, each summand a column of piece l
  rw [scatterAdd_rows_apply_of_eq d' huw' hiw' hsd' hiv' _ idx _ g c, zeros_apply]
  have hR : ∀ e : Fin E,
      concatenate ⟨2, ![E, C4]⟩ (1 : Fin 2) [⟨⟨2, ![E, C]⟩, X1⟩, ⟨⟨2, ![E, C]⟩, X2⟩, ⟨⟨2, ![E, C]⟩, X3⟩, ⟨⟨2, ![E, C]⟩, X4⟩] hc' (ix2 e c)
        = (![X1, X2, X3, X4] l) (ix2 e k) := fun e => concat4_cols_apply X1 X2 X3 X4 hc' e l k c hlk
  simp only [hR]
  match l with
  | ⟨0, _⟩ =>
    exact (scatterAdd_rows_apply_of_eq d huw hiw hsd hiv _ idx X1 g k).trans (by rw [zeros_apply]; rfl)
  | ⟨1, _⟩ =>
    exact (scatterAdd_rows_apply_of_eq d huw hiw hsd hiv _ idx X2 g k).trans (by rw [zeros_apply]; rfl)
  | ⟨2, _⟩ =>
    exact (scatterAdd_rows_apply_of_eq d huw hiw hsd hiv _ idx X3 g k).trans (by rw [zeros_apply]; rfl)
  | ⟨3, _⟩ =>
    exact (scatterAdd_rows_apply_of_eq d huw hiw hsd hiv _ idx X4 g k).trans (by rw [zeros_apply]; rfl)

end pool

section program

variable [Facts]
open Facts₀ Facts

/-- The program's mean-pool: the concatenation of the four per-graph totals is the per-graph total of the
    concatenation, for any whole-row scatter record and any proofs of the wide side conditions. -/
theorem pool_concat (X1 X2 X3 X4 : FVec Ideal S100000x256 .f32) (idx : IVec S100000x1 32)
    (d' : ScatterDims ⟨2, ![4096, 1024]⟩ S100000x1 ⟨2, ![100000, 1024]⟩)
    (huw' : d'.updateWindowDims = [1]) (hiw' : d'.insertedWindowDims = [0]) (hsd' : d'.scatterDimsToOperandDims = [0])
    (hiv' : d'.indexVectorDim = 1)
    (hb' : S_.BroadcastsInDim ⟨2, ![4096, 1024]⟩ (![] : Fin 0 → Fin 2))
    (hc' : Shape.Concatenates [S100000x256, S100000x256, S100000x256, S100000x256] ⟨2, ![100000, 1024]⟩ (1 : Fin 2)) :
    concatenate S4096x1024 1
        [⟨S4096x256, Host.scatterAdd (F := Ideal) scatter_S4096x256_S100000x1_S100000x256_1_0_0_1 (broadcastInDim S4096x256 ![] bcast_S_S4096x256 (constant (F := Ideal) S_ .f32 0x00000000#32)) idx X1⟩,
         ⟨S4096x256, Host.scatterAdd (F := Ideal) scatter_S4096x256_S100000x1_S100000x256_1_0_0_1 (broadcastInDim S4096x256 ![] bcast_S_S4096x256 (constant (F := Ideal) S_ .f32 0x00000000#32)) idx X2⟩,
         ⟨S4096x256, Host.scatterAdd (F := Ideal) scatter_S4096x256_S100000x1_S100000x256_1_0_0_1 (broadcastInDim S4096x256 ![] bcast_S_S4096x256 (constant (F := Ideal) S_ .f32 0x00000000#32)) idx X3⟩,
         ⟨S4096x256, Host.scatterAdd (F := Ideal) scatter_S4096x256_S100000x1_S100000x256_1_0_0_1 (broadcastInDim S4096x256 ![] bcast_S_S4096x256 (constant (F := Ideal) S_ .f32 0x00000000#32)) idx X4⟩]
        concatenates_S4096x256_S4096x256_S4096x256_S4096x256_S4096x1024_d1
      = Host.scatterAdd (F := Ideal) d' (broadcastInDim ⟨2, ![4096, 1024]⟩ ![] hb' (constant (F := Ideal) S_ .f32 0x00000000#32)) idx
          (concatenate ⟨2, ![100000, 1024]⟩ 1 [⟨S100000x256, X1⟩, ⟨S100000x256, X2⟩, ⟨S100000x256, X3⟩, ⟨S100000x256, X4⟩] hc') :=
  pool_concat_general (N := 4096) (E := 100000) (C := 256) (C4 := 1024) (by decide)
    scatter_S4096x256_S100000x1_S100000x256_1_0_0_1 rfl rfl rfl rfl d' huw' hiw' hsd' hiv'
    bcast_S_S4096x256 hb' concatenates_S4096x256_S4096x256_S4096x256_S4096x256_S4096x1024_d1 hc' X1 X2 X3 X4 idx

end program

end Cert.KernelIdeal.Pool

end
-- ==== Proof.KBridge.lean ====
/-
  The kernel's spelling of the mean pool and of the perceptron joined to the reference's, at the extended reals,
  over variable arrays.

  The pool: the kernel divides the four per-graph totals laid side by side by the per-graph node count; the
  reference divides the per-graph total of the four layer outputs laid side by side by the same count.  The
  numerators agree entry by entry (a scatter-add of whole rows is a sum per column, a column of the concatenation is
  a column of one piece); the denominators are the same expression.

  The perceptron: the kernel computes the last layer with its weight column and bias padded to 128 columns and
  reads column 0; the reference computes it with the unpadded ones.  Column 0 of the padded layer is the unpadded
  layer, and the two spellings of the positive part (the maximum with the splat of the zero word; the maximum with
  the zero constant broadcast) are the same function.
-/
import proofs.«129706_j63471026700727_2_alg».proof.Proof.KPool
import proofs.«129706_j63471026700727_2_alg».proof.Proof.KPad
import proofs.«129706_j63471026700727_2_alg».proof.Proof.KTile
import proofs.«129706_j63471026700727_2_alg».proof.Proof.RefFinal

noncomputable section

namespace Cert.KernelIdeal.Bridge

open Idealize.ShloMosaic Idealize.ShloMosaic.ValueIdx
open Cert.LibDenseLayers
open Cert.ReferenceIdeal (RefValue.tr1024 RefValue.tr256 RefValue.tr1 RefValue.rowOf RefValue.rowOf1 RefValue.pool RefValue.head RefValue.reluH)
open Facts₀ Facts

/-- The two spellings of the positive part of a 4096×256 array are the same function: each is the entrywise maximum
    with the value of the zero word. -/
theorem relu_eq (X : FVec Ideal ⟨2, ![4096, 256]⟩ .f32) :
    Tile.reluT (M := 4096) (N := 256) X = RefValue.reluH X := by
  funext i
  rfl

/-- THE PERCEPTRON: column 0 of the kernel's head, with the last layer padded to 128 columns, is the reference's
    head. -/
theorem head_bridge (g : FVec Ideal ⟨2, ![4096, 1024]⟩ .f32) (a15 : FVec Ideal Cert.ReferenceIdeal.S256x1024 .f32)
    (a16 a18 a20 : FVec Ideal Cert.ReferenceIdeal.S256 .f32) (a17 a19 : FVec Ideal Cert.ReferenceIdeal.S256x256 .f32)
    (a21 : FVec Ideal Cert.ReferenceIdeal.S1x256 .f32) (a22 : FVec Ideal Cert.ReferenceIdeal.S1 .f32) :
    shapeCast S4096
        (extractStridedSlice S4096x1 ![0, 0]
          (Tile.headOf g (RefValue.tr1024 a15) (RefValue.rowOf a16) (RefValue.tr256 a17) (RefValue.rowOf a18)
            (RefValue.tr256 a19) (RefValue.rowOf a20) (Pad.Wpad (RefValue.tr1 a21)) (Pad.bpad (RefValue.rowOf1 a22)))
          slices_S4096x128_S4096x1_0_0)
        shapeCasts_S4096x1_S4096
      = RefValue.head g a15 a16 a17 a18 a19 a20 a21 a22 := by
  unfold Tile.headOf RefValue.head
  refine (Pad.pad_out _ _ _).trans ?_
  rw [relu_eq, relu_eq, relu_eq]

/-- The kernel's mean pool: the four per-graph totals side by side, divided by the per-graph node count (at least
    one) broadcast over the columns. -/
def kpool (X1 X2 X3 X4 : FVec Ideal S100000x256 .f32) (batch : IVec S100000 32) : FVec Ideal S4096x1024 .f32 :=
  Host.divf
    (concatenate S4096x1024 1
      [⟨S4096x256, Host.scatterAdd (F := Ideal) scatter_S4096x256_S100000x1_S100000x256_1_0_0_1 (broadcastInDim S4096x256 ![] bcast_S_S4096x256 (constant (F := Ideal) S_ .f32 0x00000000#32)) (broadcastInDim S100000x1 ![0] bcast_S100000_S100000x1_0 batch) X1⟩,
       ⟨S4096x256, Host.scatterAdd (F := Ideal) scatter_S4096x256_S100000x1_S100000x256_1_0_0_1 (broadcastInDim S4096x256 ![] bcast_S_S4096x256 (constant (F := Ideal) S_ .f32 0x00000000#32)) (broadcastInDim S100000x1 ![0] bcast_S100000_S100000x1_0 batch) X2⟩,
       ⟨S4096x256, Host.scatterAdd (F := Ideal) scatter_S4096x256_S100000x1_S100000x256_1_0_0_1 (broadcastInDim S4096x256 ![] bcast_S_S4096x256 (constant (F := Ideal) S_ .f32 0x00000000#32)) (broadcastInDim S100000x1 ![0] bcast_S100000_S100000x1_0 batch) X3⟩,
       ⟨S4096x256, Host.scatterAdd (F := Ideal) scatter_S4096x256_S100000x1_S100000x256_1_0_0_1 (broadcastInDim S4096x256 ![] bcast_S_S4096x256 (constant (F := Ideal) S_ .f32 0x00000000#32)) (broadcastInDim S100000x1 ![0] bcast_S100000_S100000x1_0 batch) X4⟩]
      concatenates_S4096x256_S4096x256_S4096x256_S4096x256_S4096x1024_d1)
    (broadcastInDim S4096x1024 ![0, 1] bcast_S4096x1_S4096x1024_0_1
      (broadcastInDim S4096x1 ![0] bcast_S4096_S4096x1_0
        (maximumf
          (Host.scatterAdd (F := Ideal) scatter_S4096_S100000x1_S100000_n_0_0_1
            (broadcastInDim S4096 ![] bcast_S_S4096 (constant (F := Ideal) S_ .f32 0x00000000#32))
            (broadcastInDim S100000x1 ![0] bcast_S100000_S100000x1_0 batch)
            (broadcastInDim S100000 ![] bcast_S_S100000 (constant (F := Ideal) S_ .f32 0x3F800000#32)))
          (broadcastInDim S4096 ![] bcast_S_S4096 (constant (F := Ideal) S_ .f32 0x3F800000#32)))))

/-- THE POOL: the kernel's mean pool is the reference's. -/
theorem pool_bridge (X1 X2 X3 X4 : FVec Ideal S100000x256 .f32) (batch : IVec S100000 32) :
    kpool X1 X2 X3 X4 batch = RefValue.pool X1 X2 X3 X4 batch := by
  unfold kpool Cert.ReferenceIdeal.RefValue.pool Cert.ReferenceIdeal.RefValue.poolSums Cert.ReferenceIdeal.RefValue.cat4
    Cert.ReferenceIdeal.RefValue.poolCnts Cert.ReferenceIdeal.RefValue.batchIdx
  refine congrArg₂ Host.divf ?_ rfl
  exact Pool.pool_concat X1 X2 X3 X4 _ Cert.ReferenceIdeal.scatter_S4096x1024_S100000x1_S100000x1024_1_0_0_1
    rfl rfl rfl rfl _ _

end Cert.KernelIdeal.Bridge

end
-- ==== Proof.KValue.lean ====
/-
  The result of the kernel's program as one expression of its arguments.
  The run leaves the result buffer at the last of twelve buffer contents W0 … W11: the launch memory, then alternately
  a stretch of host operations applied and a kernel region's output array replaced.  Each region's output array is its
  layer function of the arrays the region was entered with (the neighbourhood layer for the four graph convolutions,
  the four-layer head for the last region); each host stretch computes the same neighbourhood sums, transposes and
  one-row biases as the reference does.  Walking the twelve contents in order, the four layer outputs are the
  reference's X1 … X4, the pooled features are its mean pool (the four per-layer pools side by side are the pool of
  the four layers side by side, column by column), and column 0 of the padded last layer is the unpadded last layer.
-/
import proofs.«129706_j63471026700727_2_alg».proof.Proof.IRun
import proofs.«129706_j63471026700727_2_alg».proof.Proof.KFinal0
import proofs.«129706_j63471026700727_2_alg».proof.Proof.KFinal1
import proofs.«129706_j63471026700727_2_alg».proof.Proof.KFinal2
import proofs.«129706_j63471026700727_2_alg».proof.Proof.KFinal3
import proofs.«129706_j63471026700727_2_alg».proof.Proof.KFinal4
import proofs.«129706_j63471026700727_2_alg».proof.Proof.KHost
import proofs.«129706_j63471026700727_2_alg».proof.Proof.KBridge

set_option maxRecDepth 16384

noncomputable section

namespace Cert.KernelIdeal.Val

open Cert.KernelIdeal Cert.KernelIdeal.Gen Cert.KernelIdeal.Fr Cert.LibDenseLayers
open Idealize.ShloMosaic Idealize.ShloMosaic.TcCoe Idealize.SL.Sem
open Cert.ReferenceIdeal.RefValue

variable (m : (ℓ : Loc nD τ sig) → Buf (Elt Ideal) ℓ) (ρ : Dev nD → PrngReg) (c : Dev nD)

/-- The neighbourhood layer of equal operands. -/
theorem sage_congr {M K K' N : Nat} {a a' : FVec Ideal ⟨2, ![M, K]⟩ .f32} {w w' : FVec Ideal ⟨2, ![K, N]⟩ .f32}
    {b b' : FVec Ideal ⟨2, ![1, N]⟩ .f32} {x x' : FVec Ideal ⟨2, ![M, K']⟩ .f32} {v v' : FVec Ideal ⟨2, ![K', N]⟩ .f32}
    (ha : a = a') (hw : w = w') (hb : b = b') (hx : x = x') (hv : v = v') :
    sageRow a w b x v = sageRow a' w' b' x' v' := by subst ha hw hb hx hv; rfl

/-- The head of equal operands. -/
theorem head_congr {g g' : FVec Ideal ⟨2, ![4096, 1024]⟩ .f32} {W1 W1' : FVec Ideal ⟨2, ![1024, 256]⟩ .f32}
    {b1 b1' b2 b2' b3 b3' : FVec Ideal ⟨2, ![1, 256]⟩ .f32} {W2 W2' W3 W3' : FVec Ideal ⟨2, ![256, 256]⟩ .f32}
    {W4 W4' : FVec Ideal ⟨2, ![256, 128]⟩ .f32} {b4 b4' : FVec Ideal ⟨2, ![1, 128]⟩ .f32}
    (hg : g = g') (h1 : W1 = W1') (h2 : b1 = b1') (h3 : W2 = W2') (h4 : b2 = b2') (h5 : W3 = W3') (h6 : b3 = b3')
    (h7 : W4 = W4') (h8 : b4 = b4') :
    Tile.headOf g W1 b1 W2 b2 W3 b3 W4 b4 = Tile.headOf g' W1' b1' W2' b2' W3' b3' W4' b4' := by
  subst hg h1 h2 h3 h4 h5 h6 h7 h8; rfl

/-! ## After the first host stretch -/

theorem w1_src : W1 m ρ c (Proc.devRef .tc main_v1) = srcRow (m ((c : Thread nD τ).loc main_arg1)) := HostVal.s0_v1 (W0 m ρ c)
theorem w1_dst : W1 m ρ c (Proc.devRef .tc main_v3) = dstRow (m ((c : Thread nD τ).loc main_arg1)) := HostVal.s0_v3 (W0 m ρ c)
theorem w1_v4 : W1 m ρ c (Proc.devRef .tc main_v4) = tr28 (m ((c : Thread nD τ).loc main_arg3)) := HostVal.s0_v4 (W0 m ρ c)
theorem w1_v5 : W1 m ρ c (Proc.devRef .tc main_v5) = tr28 (m ((c : Thread nD τ).loc main_arg5)) := HostVal.s0_v5 (W0 m ρ c)
theorem w1_v6 : W1 m ρ c (Proc.devRef .tc main_v6) = tr256 (m ((c : Thread nD τ).loc main_arg6)) := HostVal.s0_v6 (W0 m ρ c)
theorem w1_v7 : W1 m ρ c (Proc.devRef .tc main_v7) = tr256 (m ((c : Thread nD τ).loc main_arg8)) := HostVal.s0_v7 (W0 m ρ c)
theorem w1_v8 : W1 m ρ c (Proc.devRef .tc main_v8) = tr256 (m ((c : Thread nD τ).loc main_arg9)) := HostVal.s0_v8 (W0 m ρ c)
theorem w1_v9 : W1 m ρ c (Proc.devRef .tc main_v9) = tr256 (m ((c : Thread nD τ).loc main_arg11)) := HostVal.s0_v9 (W0 m ρ c)
theorem w1_v10 : W1 m ρ c (Proc.devRef .tc main_v10) = tr256 (m ((c : Thread nD τ).loc main_arg12)) := HostVal.s0_v10 (W0 m ρ c)
theorem w1_v11 : W1 m ρ c (Proc.devRef .tc main_v11) = tr256 (m ((c : Thread nD τ).loc main_arg14)) := HostVal.s0_v11 (W0 m ρ c)
theorem w1_v21 : W1 m ρ c (Proc.devRef .tc main_v21) = agg28 (m ((c : Thread nD τ).loc main_arg0)) (m ((c : Thread nD τ).loc main_arg1)) := HostVal.s0_v21 (W0 m ρ c)
theorem w1_v22 : W1 m ρ c (Proc.devRef .tc main_v22) = rowOf (m ((c : Thread nD τ).loc main_arg4)) := HostVal.s0_v22 (W0 m ρ c)

/-! ## A reference carried unchanged from one buffer contents to a later one -/

theorem to1_2 (r : Ref sig .tc) (a0 : ∀ w, Pipeline.arrRef spec0 w ≠ r) : W2 m ρ c (Proc.devRef .tc r) = W1 m ρ c (Proc.devRef .tc r) :=
  W2_of_ne m ρ c r a0
theorem to1_3 (r : Ref sig .tc) (a0 : ∀ w, Pipeline.arrRef spec0 w ≠ r) (h1 : r ∉ hostOps1_W) :
    W3 m ρ c (Proc.devRef .tc r) = W1 m ρ c (Proc.devRef .tc r) := (W3_of m ρ c r h1).trans (to1_2 m ρ c r a0)
theorem to1_4 (r : Ref sig .tc) (a0 : ∀ w, Pipeline.arrRef spec0 w ≠ r) (h1 : r ∉ hostOps1_W) (a1 : ∀ w, Pipeline.arrRef spec1 w ≠ r) :
    W4 m ρ c (Proc.devRef .tc r) = W1 m ρ c (Proc.devRef .tc r) := (W4_of_ne m ρ c r a1).trans (to1_3 m ρ c r a0 h1)
theorem to1_5 (r : Ref sig .tc) (a0 : ∀ w, Pipeline.arrRef spec0 w ≠ r) (h1 : r ∉ hostOps1_W) (a1 : ∀ w, Pipeline.arrRef spec1 w ≠ r)
    (h2 : r ∉ hostOps2_W) : W5 m ρ c (Proc.devRef .tc r) = W1 m ρ c (Proc.devRef .tc r) := (W5_of m ρ c r h2).trans (to1_4 m ρ c r a0 h1 a1)
theorem to1_6 (r : Ref sig .tc) (a0 : ∀ w, Pipeline.arrRef spec0 w ≠ r) (h1 : r ∉ hostOps1_W) (a1 : ∀ w, Pipeline.arrRef spec1 w ≠ r)
    (h2 : r ∉ hostOps2_W) (a2 : ∀ w, Pipeline.arrRef spec2 w ≠ r) : W6 m ρ c (Proc.devRef .tc r) = W1 m ρ c (Proc.devRef .tc r) :=
  (W6_of_ne m ρ c r a2).trans (to1_5 m ρ c r a0 h1 a1 h2)
theorem to1_7 (r : Ref sig .tc) (a0 : ∀ w, Pipeline.arrRef spec0 w ≠ r) (h1 : r ∉ hostOps1_W) (a1 : ∀ w, Pipeline.arrRef spec1 w ≠ r)
    (h2 : r ∉ hostOps2_W) (a2 : ∀ w, Pipeline.arrRef spec2 w ≠ r) (h3 : r ∉ hostOps3_W) :
    W7 m ρ c (Proc.devRef .tc r) = W1 m ρ c (Proc.devRef .tc r) := (W7_of m ρ c r h3).trans (to1_6 m ρ c r a0 h1 a1 h2 a2)
theorem to1_8 (r : Ref sig .tc) (a0 : ∀ w, Pipeline.arrRef spec0 w ≠ r) (h1 : r ∉ hostOps1_W) (a1 : ∀ w, Pipeline.arrRef spec1 w ≠ r)
    (h2 : r ∉ hostOps2_W) (a2 : ∀ w, Pipeline.arrRef spec2 w ≠ r) (h3 : r ∉ hostOps3_W) (a3 : ∀ w, Pipeline.arrRef spec3 w ≠ r) :
    W8 m ρ c (Proc.devRef .tc r) = W1 m ρ c (Proc.devRef .tc r) := (W8_of_ne m ρ c r a3).trans (to1_7 m ρ c r a0 h1 a1 h2 a2 h3)

/-- An argument no stretch writes and no region holds, read at W1: its launch contents. -/
theorem w1_arg (r : Ref sig .tc) (h0 : r ∉ hostOps0_W) : W1 m ρ c (Proc.devRef .tc r) = m ((c : Thread nD τ).loc r) :=
  (W1_of m ρ c r h0).trans rfl

/-! ## The four graph-convolution layers -/

/-- Region 0 leaves the reference's first layer. -/
theorem x1_eq : W2 m ρ c (Proc.devRef .tc main_v23) = X1 (m ((c : Thread nD τ).loc main_arg0)) (m ((c : Thread nD τ).loc main_arg1)) (m ((c : Thread nD τ).loc main_arg3)) (m ((c : Thread nD τ).loc main_arg4)) (m ((c : Thread nD τ).loc main_arg5)) :=
  (W2_arr m ρ c 5).trans <| (final0 (V1 m ρ) c).trans <|
    sage_congr (w1_v21 m ρ c) (w1_v4 m ρ c) (w1_v22 m ρ c) (w1_arg m ρ c main_arg0 (by decide)) (w1_v5 m ρ c)

/-- The layer-1 output is still there when region 1 is entered. -/
theorem w3_x1 : W3 m ρ c (Proc.devRef .tc main_v23) = X1 (m ((c : Thread nD τ).loc main_arg0)) (m ((c : Thread nD τ).loc main_arg1)) (m ((c : Thread nD τ).loc main_arg3)) (m ((c : Thread nD τ).loc main_arg4)) (m ((c : Thread nD τ).loc main_arg5)) :=
  (W3_of m ρ c main_v23 (by decide)).trans (x1_eq m ρ c)

theorem w3_agg : W3 m ρ c (Proc.devRef .tc main_v33) = agg256 (X1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) := by
  refine (HostVal.s1_v33 (W2 m ρ c)).trans ?_
  rw [x1_eq m ρ c, (to1_2 m ρ c main_v1 (by decide)).trans (w1_src m ρ c), (to1_2 m ρ c main_v3 (by decide)).trans (w1_dst m ρ c)]
  exact (agg256_eq _ _).symm

theorem w3_bias : W3 m ρ c (Proc.devRef .tc main_v34) = rowOf (m ((c : Thread nD τ).loc main_arg7)) := by
  refine (HostVal.s1_v34 (W2 m ρ c)).trans ?_
  rw [(to1_2 m ρ c main_arg7 (by decide)).trans (w1_arg m ρ c main_arg7 (by decide))]

/-- Region 1 leaves the reference's second layer. -/
theorem x2_eq : W4 m ρ c (Proc.devRef .tc main_v35) = X2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W4_arr m ρ c 5).trans <| (final1 (V3 m ρ) c).trans <|
    sage_congr (w3_agg m ρ c) ((to1_3 m ρ c main_v6 (by decide) (by decide)).trans (w1_v6 m ρ c)) (w3_bias m ρ c) (w3_x1 m ρ c)
      ((to1_3 m ρ c main_v7 (by decide) (by decide)).trans (w1_v7 m ρ c))

theorem w5_x2 : W5 m ρ c (Proc.devRef .tc main_v35) = X2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W5_of m ρ c main_v35 (by decide)).trans (x2_eq m ρ c)

theorem w5_agg : W5 m ρ c (Proc.devRef .tc main_v45) = agg256 (X2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) := by
  refine (HostVal.s2_v45 (W4 m ρ c)).trans ?_
  rw [x2_eq m ρ c, (to1_4 m ρ c main_v1 (by decide) (by decide) (by decide)).trans (w1_src m ρ c),
    (to1_4 m ρ c main_v3 (by decide) (by decide) (by decide)).trans (w1_dst m ρ c)]
  exact (agg256_eq _ _).symm

theorem w5_bias : W5 m ρ c (Proc.devRef .tc main_v46) = rowOf (m ((c : Thread nD τ).loc main_arg10)) := by
  refine (HostVal.s2_v46 (W4 m ρ c)).trans ?_
  rw [(to1_4 m ρ c main_arg10 (by decide) (by decide) (by decide)).trans (w1_arg m ρ c main_arg10 (by decide))]

/-- Region 2 leaves the reference's third layer. -/
theorem x3_eq : W6 m ρ c (Proc.devRef .tc main_v47) = X3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W6_arr m ρ c 5).trans <| (final2 (V5 m ρ) c).trans <|
    sage_congr (w5_agg m ρ c) ((to1_5 m ρ c main_v8 (by decide) (by decide) (by decide) (by decide)).trans (w1_v8 m ρ c)) (w5_bias m ρ c)
      (w5_x2 m ρ c) ((to1_5 m ρ c main_v9 (by decide) (by decide) (by decide) (by decide)).trans (w1_v9 m ρ c))

theorem w7_x3 : W7 m ρ c (Proc.devRef .tc main_v47) = X3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W7_of m ρ c main_v47 (by decide)).trans (x3_eq m ρ c)

theorem w7_agg : W7 m ρ c (Proc.devRef .tc main_v57) = agg256 (X3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg1)) := by
  refine (HostVal.s3_v57 (W6 m ρ c)).trans ?_
  rw [x3_eq m ρ c, (to1_6 m ρ c main_v1 (by decide) (by decide) (by decide) (by decide) (by decide)).trans (w1_src m ρ c),
    (to1_6 m ρ c main_v3 (by decide) (by decide) (by decide) (by decide) (by decide)).trans (w1_dst m ρ c)]
  exact (agg256_eq _ _).symm

theorem w7_bias : W7 m ρ c (Proc.devRef .tc main_v58) = rowOf (m ((c : Thread nD τ).loc main_arg13)) := by
  refine (HostVal.s3_v58 (W6 m ρ c)).trans ?_
  rw [(to1_6 m ρ c main_arg13 (by decide) (by decide) (by decide) (by decide) (by decide)).trans (w1_arg m ρ c main_arg13 (by decide))]

/-- Region 3 leaves the reference's fourth layer. -/
theorem x4_eq : W8 m ρ c (Proc.devRef .tc main_v59) = X4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (W8_arr m ρ c 5).trans <| (final3 (V7 m ρ) c).trans <|
    sage_congr (w7_agg m ρ c) ((to1_7 m ρ c main_v10 (by decide) (by decide) (by decide) (by decide) (by decide) (by decide)).trans (w1_v10 m ρ c))
      (w7_bias m ρ c) (w7_x3 m ρ c)
      ((to1_7 m ρ c main_v11 (by decide) (by decide) (by decide) (by decide) (by decide) (by decide)).trans (w1_v11 m ρ c))

/-! ## The layer outputs when the pool is computed (a region leaves the array of an input window as it found it) -/

theorem w8_x3 : W8 m ρ c (Proc.devRef .tc main_v47) = X3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  ((W8_arr m ρ c 1).trans (((dat3 (V7 m ρ) c).arrAt_in 1 rfl _).trans (A_eq3 (V7 m ρ) c 1))).trans (w7_x3 m ρ c)

theorem w6_x2 : W6 m ρ c (Proc.devRef .tc main_v35) = X2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((W6_arr m ρ c 1).trans (((dat2 (V5 m ρ) c).arrAt_in 1 rfl _).trans (A_eq2 (V5 m ρ) c 1))).trans (w5_x2 m ρ c)

theorem w8_x2 : W8 m ρ c (Proc.devRef .tc main_v35) = X2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W8_of_ne m ρ c main_v35 (by decide)).trans <| (W7_of m ρ c main_v35 (by decide)).trans (w6_x2 m ρ c)

theorem w4_x1 : W4 m ρ c (Proc.devRef .tc main_v23) = X1 (m ((c : Thread nD τ).loc main_arg0)) (m ((c : Thread nD τ).loc main_arg1)) (m ((c : Thread nD τ).loc main_arg3)) (m ((c : Thread nD τ).loc main_arg4)) (m ((c : Thread nD τ).loc main_arg5)) :=
  ((W4_arr m ρ c 1).trans (((dat1 (V3 m ρ) c).arrAt_in 1 rfl _).trans (A_eq1 (V3 m ρ) c 1))).trans (w3_x1 m ρ c)

theorem w8_x1 : W8 m ρ c (Proc.devRef .tc main_v23) = X1 (m ((c : Thread nD τ).loc main_arg0)) (m ((c : Thread nD τ).loc main_arg1)) (m ((c : Thread nD τ).loc main_arg3)) (m ((c : Thread nD τ).loc main_arg4)) (m ((c : Thread nD τ).loc main_arg5)) :=
  (W8_of_ne m ρ c main_v23 (by decide)).trans <| (W7_of m ρ c main_v23 (by decide)).trans <| (W6_of_ne m ρ c main_v23 (by decide)).trans <|
    (W5_of m ρ c main_v23 (by decide)).trans (w4_x1 m ρ c)

/-- An argument at the contents the pool and the head's operands are computed from. -/
theorem w8_arg (r : Ref sig .tc) (h0 : r ∉ hostOps0_W) (a0 : ∀ w, Pipeline.arrRef spec0 w ≠ r) (h1 : r ∉ hostOps1_W) (a1 : ∀ w, Pipeline.arrRef spec1 w ≠ r)
    (h2 : r ∉ hostOps2_W) (a2 : ∀ w, Pipeline.arrRef spec2 w ≠ r) (h3 : r ∉ hostOps3_W) (a3 : ∀ w, Pipeline.arrRef spec3 w ≠ r) :
    W8 m ρ c (Proc.devRef .tc r) = m ((c : Thread nD τ).loc r) :=
  (to1_8 m ρ c r a0 h1 a1 h2 a2 h3 a3).trans (w1_arg m ρ c r h0)

/-! ## The pool, the head and the result -/

local macro "w8a" r:ident : term => `(w8_arg m ρ c $r (by decide) (by decide) (by decide) (by decide) (by decide) (by decide) (by decide) (by decide))

/-- The pooled features are the reference's mean pool of its four layers. -/
theorem g_eq : W9 m ρ c (Proc.devRef .tc main_v81)
    = pool (X1 (m ((c : Thread nD τ).loc main_arg0)) (m ((c : Thread nD τ).loc main_arg1)) (m ((c : Thread nD τ).loc main_arg3)) (m ((c : Thread nD τ).loc main_arg4)) (m ((c : Thread nD τ).loc main_arg5))) (X2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
        (X3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (X4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg2)) := by
  refine (HostVal.s4_v81 (W8 m ρ c)).trans ?_
  rw [w8_x1 m ρ c, w8_x2 m ρ c, w8_x3 m ρ c, x4_eq m ρ c, w8a main_arg2]
  exact Bridge.pool_bridge _ _ _ _ _

/-- Region 4 leaves the head function of the pooled features and the head's weights, the last layer padded. -/
theorem x5_eq : W10 m ρ c (Proc.devRef .tc main_v96)
    = Tile.headOf (pool (X1 (m ((c : Thread nD τ).loc main_arg0)) (m ((c : Thread nD τ).loc main_arg1)) (m ((c : Thread nD τ).loc main_arg3)) (m ((c : Thread nD τ).loc main_arg4)) (m ((c : Thread nD τ).loc main_arg5))) (X2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
        (X3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (X4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg2)))
        (tr1024 (m ((c : Thread nD τ).loc main_arg15))) (rowOf (m ((c : Thread nD τ).loc main_arg16))) (tr256 (m ((c : Thread nD τ).loc main_arg17))) (rowOf (m ((c : Thread nD τ).loc main_arg18))) (tr256 (m ((c : Thread nD τ).loc main_arg19))) (rowOf (m ((c : Thread nD τ).loc main_arg20)))
        (Pad.Wpad (tr1 (m ((c : Thread nD τ).loc main_arg21)))) (Pad.bpad (rowOf1 (m ((c : Thread nD τ).loc main_arg22)))) :=
  (W10_arr m ρ c 9).trans <| (final4 (V9 m ρ) c).trans <|
    head_congr (g_eq m ρ c)
      ((HostVal.s4_v82 (W8 m ρ c)).trans (by rw [w8a main_arg15]))
      ((HostVal.s4_v85 (W8 m ρ c)).trans (by rw [w8a main_arg16]))
      ((HostVal.s4_v83 (W8 m ρ c)).trans (by rw [w8a main_arg17]))
      ((HostVal.s4_v86 (W8 m ρ c)).trans (by rw [w8a main_arg18]))
      ((HostVal.s4_v84 (W8 m ρ c)).trans (by rw [w8a main_arg19]))
      ((HostVal.s4_v87 (W8 m ρ c)).trans (by rw [w8a main_arg20]))
      ((HostVal.s4_v91 (W8 m ρ c)).trans (by rw [w8a main_arg21]))
      ((HostVal.s4_v95 (W8 m ρ c)).trans (by rw [w8a main_arg22]))

/-- THE RESULT of the kernel's program: the reference's expression of the same arguments. -/
theorem result_eq : W11 m ρ c (Proc.devRef .tc main_v98) = Final (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  refine (HostVal.s5_v98 (W10 m ρ c)).trans ?_
  rw [x5_eq m ρ c]
  exact Bridge.head_bridge _ _ _ _ _ _ _ _ _

/-- The kernel's run with its result named. -/
theorem run_final : θ_run defs (onTc (τ := τ) (main (F := Ideal))) ⟨m, fun _ => 0, ρ⟩ (fun r => ∀ c : Dev nD,
      r.2.mem ((c.tc : Thread nD τ).loc main_v98) = Final (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨(h c).1.trans (result_eq m ρ c), (h c).2⟩) (run_value m ρ)

end Cert.KernelIdeal.Val

end
-- ==== Proof.lean ====
/-
  A four-layer graph-convolution network with a mean pool and a four-layer perceptron head, computed by five tiled
  kernels among plain array operations, against its plain jnp reference: the proof of `Cert.Claim`.

  Both programs compute, layer by layer, X_l = max((agg_l · W_rel^T + X_{l-1} · W_root^T) + b, 0) with agg_l the sum
  over the edges into a node of the source node's row of X_{l-1} — the kernel (agg · W_rel^T + x · W_root^T) + b on
  5000-row blocks, the reference (agg · W_rel^T + b) + x · W_root^T on the whole array: one function, because addition
  of extended reals is commutative and associative and an entry of the layer reads one row of its two operands.  The
  kernel's program pools each layer separately and puts the four pools side by side where the reference pools the
  four layers put side by side: equal column by column.  The head's last layer is computed into 128 lanes of which
  lane 0 holds the one real column, the other lanes a product with zero columns that is never read.  No step needs an
  input to be finite.

  The frames: each kernel region's body loads whole blocks, multiplies, adds and stores one whole block, so every
  region runs to its end from any contents, and no host operation or region writes an argument array; the reference
  is host operations only.  The ideal pass rewrote nothing, so the idealization is the program's own text.
-/
import proofs.«129706_j63471026700727_2_alg».proof.Defs
import proofs.«129706_j63471026700727_2_alg».proof.Proof.Gen.Kernel
import proofs.«129706_j63471026700727_2_alg».proof.Proof.Gen.KernelIdeal
import proofs.«129706_j63471026700727_2_alg».proof.Proof.Gen.ReferenceIdeal
import proofs.«129706_j63471026700727_2_alg».proof.Proof.Gen.ReferenceIdeal.Run
import proofs.«129706_j63471026700727_2_alg».proof.Proof.Gen.ReferenceIdeal.Read
import proofs.«129706_j63471026700727_2_alg».proof.Proof.Gen.Pre_finite_inputs
import proofs.«129706_j63471026700727_2_alg».proof.Proof.BRun
import proofs.«129706_j63471026700727_2_alg».proof.Proof.IRun
import proofs.«129706_j63471026700727_2_alg».proof.Proof.KValue
import proofs.«129706_j63471026700727_2_alg».proof.Proof.RefFinal
import Idealize.ShloMosaic.Adequacy
import Idealize.ShloMosaic.Init

noncomputable section

namespace Cert.Proof

open Idealize.ShloMosaic Idealize.ShloMosaic.TcCoe Idealize.SL.Sem

/-- The kernel's program as printed runs to its end and leaves its arguments as launched. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.RefValue.run_final m ρ)

/-- Both idealized programs end with the same expression of the arguments in their result buffers. -/
theorem algebraic : Cert.algebraic_KernelIdeal_ReferenceIdeal := by
  intro m ρ m' ρ' _ hagree
  refine ⟨fun c => Cert.ReferenceIdeal.RefValue.Final (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)),
    Cert.KernelIdeal.Val.run_final m ρ, ?_⟩
  refine (θ_run Cert.ReferenceIdeal.defs _ _).mono (fun r h c => ⟨(h c).1.trans ?_, (h c).2⟩)
    (Cert.ReferenceIdeal.RefValue.run_final m' ρ')
  obtain ⟨h0, h1, h2, h3, h4, h5, h6, h7, h8, h9, h10, h11, h12, h13, h14, h15, h16, h17, h18, h19, h20, h21, h22⟩ := hagree c
  rw [h0, h1, h2, h3, h4, h5, h6, h7, h8, h9, h10, h11, h12, h13, h14, h15, h16, h17, h18, h19, h20, h21, h22]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
